-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S256 : Shape := ⟨1, ![256]⟩
abbrev S3 : Shape := ⟨1, ![3]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S32x256x64x64 .f32) (main_arg1 : FVec F S256 .f32) (main_arg2 : FVec F S256 .f32) (main_arg3 : FVec F S3 .f32) (main_arg4 : FVec F S3 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_v13 main_v16
-- ==== Kernel.lean ====
abbrev S32x256x64x64 : Shape := ⟨4, ![32, 256, 64, 64]⟩
abbrev S256 : Shape := ⟨1, ![256]⟩
abbrev S3 : Shape := ⟨1, ![3]⟩
abbrev S32x256x1x1 : Shape := ⟨4, ![32, 256, 1, 1]⟩
abbrev S8x128x8x64 : Shape := ⟨4, ![8, 128, 8, 64]⟩
abbrev S8x128x1x1 : Shape := ⟨4, ![8, 128, 1, 1]⟩
abbrev S8x128x8 : Shape := ⟨3, ![8, 128, 8]⟩
abbrev S8x128x8x1 : Shape := ⟨4, ![8, 128, 8, 1]⟩
abbrev S8x128x1 : Shape := ⟨3, ![8, 128, 1]⟩
abbrev S32x256 : Shape := ⟨2, ![32, 256]⟩
abbrev S_ : Shape := ⟨0, ![]⟩
abbrev S32 : Shape := ⟨1, ![32]⟩
abbrev S1 : Shape := ⟨1, ![1]⟩
abbrev S1x256 : Shape := ⟨2, ![1, 256]⟩
abbrev S32x1 : Shape := ⟨2, ![32, 1]⟩
abbrev S1x256x1x1 : Shape := ⟨4, ![1, 256, 1, 1]⟩
abbrev S1x128x1x1 : Shape := ⟨4, ![1, 128, 1, 1]⟩

abbrev nBuf : Space → Nat
  | .hbm => 146
  | .vmem => 20
  | .smem => 0
  | _ => 0

abbrev hbmTy0_0 (i : Nat) : BufTy := match i % 128 with
  | 0 => ⟨S32x256x64x64, .f32⟩
  | 1 => ⟨S256, .f32⟩
  | 2 => ⟨S256, .f32⟩
  | 3 => ⟨S3, .f32⟩
  | 4 => ⟨S3, .f32⟩
  | 5 => ⟨S32x256x1x1, .f32⟩
  | 6 => ⟨S32x256x1x1, .f32⟩
  | 7 => ⟨S32x256, .f32⟩
  | 8 => ⟨S32x256, .f32⟩
  | 9 => ⟨S_, .f32⟩
  | 10 => ⟨S32x256, .f32⟩
  | 11 => ⟨S32x256, .f32⟩
  | 12 => ⟨S_, .f32⟩
  | 13 => ⟨S32x256, .f32⟩
  | 14 => ⟨S32x256, .f32⟩
  | 15 => ⟨S32x256, .f32⟩
  | 16 => ⟨S32x256, .f32⟩
  | 17 => ⟨S_, .f32⟩
  | 18 => ⟨S32x256, .f32⟩
  | 19 => ⟨S32x256, .f32⟩
  | 20 => ⟨S_, .f32⟩
  | 21 => ⟨S256, .f32⟩
  | 22 => ⟨S_, .f32⟩
  | 23 => ⟨S256, .f32⟩
  | 24 => ⟨S256, .f32⟩
  | 25 => ⟨S_, .f32⟩
  | 26 => ⟨S256, .f32⟩
  | 27 => ⟨S_, .f32⟩
  | 28 => ⟨S256, .f32⟩
  | 29 => ⟨S256, .f32⟩
  | 30 => ⟨S256, .f32⟩
  | 31 => ⟨S256, .f32⟩
  | 32 => ⟨S_, .f32⟩
  | 33 => ⟨S256, .f32⟩
  | 34 => ⟨S256, .f32⟩
  | 35 => ⟨S_, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S_, .f32⟩
  | 43 => ⟨S32, .f32⟩
  | 44 => ⟨S32, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S_, .f32⟩
  | 52 => ⟨S_, .f32⟩
  | 53 => ⟨S_, .f32⟩
  | 54 => ⟨S1, .f32⟩
  | 55 => ⟨S3, .f32⟩
  | 56 => ⟨S3, .f32⟩
  | 57 => ⟨S3, .f32⟩
  | 58 => ⟨S_, .f32⟩
  | 59 => ⟨S_, .f32⟩
  | 60 => ⟨S1, .f32⟩
  | 61 => ⟨S3, .f32⟩
  | 62 => ⟨S3, .f32⟩
  | 63 => ⟨S_, .f32⟩
  | 64 => ⟨S_, .f32⟩
  | 65 => ⟨S_, .f32⟩
  | 66 => ⟨S_, .f32⟩
  | 67 => ⟨S1, .f32⟩
  | 68 => ⟨S3, .f32⟩
  | 69 => ⟨S3, .f32⟩
  | 70 => ⟨S3, .f32⟩
  | 71 => ⟨S_, .f32⟩
  | 72 => ⟨S_, .f32⟩
  | 73 => ⟨S1, .f32⟩
  | 74 => ⟨S3, .f32⟩
  | 75 => ⟨S3, .f32⟩
  | 76 => ⟨S_, .f32⟩
  | 77 => ⟨S_, .f32⟩
  | 78 => ⟨S_, .f32⟩
  | 79 => ⟨S_, .f32⟩
  | 80 => ⟨S1, .f32⟩
  | 81 => ⟨S3, .f32⟩
  | 82 => ⟨S3, .f32⟩
  | 83 => ⟨S3, .f32⟩
  | 84 => ⟨S_, .f32⟩
  | 85 => ⟨S_, .f32⟩
  | 86 => ⟨S1, .f32⟩
  | 87 => ⟨S3, .f32⟩
  | 88 => ⟨S3, .f32⟩
  | 89 => ⟨S_, .f32⟩
  | 90 => ⟨S_, .f32⟩
  | 91 => ⟨S_, .f32⟩
  | 92 => ⟨S_, .f32⟩
  | 93 => ⟨S1, .f32⟩
  | 94 => ⟨S3, .f32⟩
  | 95 => ⟨S3, .f32⟩
  | 96 => ⟨S3, .f32⟩
  | 97 => ⟨S_, .f32⟩
  | 98 => ⟨S_, .f32⟩
  | 99 => ⟨S1, .f32⟩
  | 100 => ⟨S3, .f32⟩
  | 101 => ⟨S3, .f32⟩
  | 102 => ⟨S1x256, .f32⟩
  | 103 => ⟨S1, .f32⟩
  | 104 => ⟨S_, .f32⟩
  | 105 => ⟨S1x256, .f32⟩
  | 106 => ⟨S1x256, .f32⟩
  | 107 => ⟨S1, .f32⟩
  | 108 => ⟨S_, .f32⟩
  | 109 => ⟨S32x256, .f32⟩
  | 110 => ⟨S32x256, .f32⟩
  | 111 => ⟨S32x256, .f32⟩
  | 112 => ⟨S32x256, .f32⟩
  | 113 => ⟨S32x1, .f32⟩
  | 114 => ⟨S1, .f32⟩
  | 115 => ⟨S_, .f32⟩
  | 116 => ⟨S32x1, .f32⟩
  | 117 => ⟨S32x1, .f32⟩
  | 118 => ⟨S32x256, .f32⟩
  | 119 => ⟨S32x256, .f32⟩
  | 120 => ⟨S1x256, .f32⟩
  | 121 => ⟨S1, .f32⟩
  | 122 => ⟨S_, .f32⟩
  | 123 => ⟨S1x256, .f32⟩
  | 124 => ⟨S1x256, .f32⟩
  | 125 => ⟨S1, .f32⟩
  | 126 => ⟨S_, .f32⟩
  | 127 => ⟨S32x256, .f32⟩
  | _ => ⟨S32x256x64x64, .f32⟩

abbrev hbmTy0_1 (i : Nat) : BufTy := match i % 128 with
  | 0 => ⟨S32x256, .f32⟩
  | 1 => ⟨S32x256, .f32⟩
  | 2 => ⟨S32x256, .f32⟩
  | 3 => ⟨S32x1, .f32⟩
  | 4 => ⟨S1, .f32⟩
  | 5 => ⟨S_, .f32⟩
  | 6 => ⟨S32x1, .f32⟩
  | 7 => ⟨S32x1, .f32⟩
  | 8 => ⟨S32x256, .f32⟩
  | 9 => ⟨S32x256, .f32⟩
  | 10 => ⟨S_, .f32⟩
  | 11 => ⟨S32x256, .f32⟩
  | 12 => ⟨S32x256, .f32⟩
  | 13 => ⟨S32x256x1x1, .f32⟩
  | 14 => ⟨S32x256x1x1, .f32⟩
  | 15 => ⟨S1x256x1x1, .f32⟩
  | 16 => ⟨S1x256x1x1, .f32⟩
  | 17 => ⟨S32x256x64x64, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | .local _ .vmem, ⟨0, _⟩ => ⟨S8x128x8x64, .f32⟩
  | .local _ .vmem, ⟨1, _⟩ => ⟨S8x128x8x64, .f32⟩
  | .local _ .vmem, ⟨2, _⟩ => ⟨S8x128x1x1, .f32⟩
  | .local _ .vmem, ⟨3, _⟩ => ⟨S8x128x1x1, .f32⟩
  | .local _ .vmem, ⟨4, _⟩ => ⟨S8x128x1x1, .f32⟩
  | .local _ .vmem, ⟨5, _⟩ => ⟨S8x128x1x1, .f32⟩
  | .local _ .vmem, ⟨6, _⟩ => ⟨S8x128x1x1, .f32⟩
  | .local _ .vmem, ⟨7, _⟩ => ⟨S8x128x1x1, .f32⟩
  | .local _ .vmem, ⟨8, _⟩ => ⟨S8x128x8x64, .f32⟩
  | .local _ .vmem, ⟨9, _⟩ => ⟨S8x128x8x64, .f32⟩
  | .local _ .vmem, ⟨10, _⟩ => ⟨S8x128x1x1, .f32⟩
  | .local _ .vmem, ⟨11, _⟩ => ⟨S8x128x1x1, .f32⟩
  | .local _ .vmem, ⟨12, _⟩ => ⟨S8x128x1x1, .f32⟩
  | .local _ .vmem, ⟨13, _⟩ => ⟨S8x128x1x1, .f32⟩
  | .local _ .vmem, ⟨14, _⟩ => ⟨S1x128x1x1, .f32⟩
  | .local _ .vmem, ⟨15, _⟩ => ⟨S1x128x1x1, .f32⟩
  | .local _ .vmem, ⟨16, _⟩ => ⟨S1x128x1x1, .f32⟩
  | .local _ .vmem, ⟨17, _⟩ => ⟨S1x128x1x1, .f32⟩
  | .local _ .vmem, ⟨18, _⟩ => ⟨S8x128x8x64, .f32⟩
  | .local _ .vmem, ⟨19, _⟩ => ⟨S8x128x8x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_cst_8 : Ref sig .tc := ⟨.hbm, 37, rfl⟩
abbrev main_v22 : Ref sig .tc := ⟨.hbm, 38, rfl⟩
abbrev main_v23 : Ref sig .tc := ⟨.hbm, 39, rfl⟩
abbrev main_cst_9 : Ref sig .tc := ⟨.hbm, 40, rfl⟩
abbrev main_v24 : Ref sig .tc := ⟨.hbm, 41, rfl⟩
abbrev main_cst_10 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_11 : Ref sig .tc := ⟨.hbm, 47, rfl⟩
abbrev main_v29 : Ref sig .tc := ⟨.hbm, 48, rfl⟩
abbrev main_v30 : Ref sig .tc := ⟨.hbm, 49, rfl⟩
abbrev main_cst_12 : Ref sig .tc := ⟨.hbm, 50, rfl⟩
abbrev main_v31 : Ref sig .tc := ⟨.hbm, 51, rfl⟩
abbrev main_cst_13 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_14 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_15 : Ref sig .tc := ⟨.hbm, 63, rfl⟩
abbrev main_v41 : Ref sig .tc := ⟨.hbm, 64, rfl⟩
abbrev main_cst_16 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_17 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_18 : Ref sig .tc := ⟨.hbm, 76, rfl⟩
abbrev main_v51 : Ref sig .tc := ⟨.hbm, 77, rfl⟩
abbrev main_cst_19 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_20 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_21 : Ref sig .tc := ⟨.hbm, 89, rfl⟩
abbrev main_v61 : Ref sig .tc := ⟨.hbm, 90, rfl⟩
abbrev main_cst_22 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_23 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_24 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_23 : BitVec 32 := 0#32
  let v25 : BitVec 1 := Scalar.cmpi .ne v24 c0_i32_23
  v25

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x128x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x128x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 8], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S8x128x8x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S8x128x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S8x128x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x128x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x128x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S8x128x8x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

class Facts₀ : Prop where
  inb_S8x128x1x1_S8x128x1x1_0_0_0_0 : ∀ a, (![0, 0, 0, 0] : Fin 4 → Nat) a + S8x128x1x1.size a ≤ S8x128x1x1.size a
  h_S8x128x1x1 : 0 < S8x128x1x1.numel
  shapeCasts_S8x128x1x1_S8x128x1x1 : S8x128x1x1.ShapeCasts S8x128x1x1
  inb_S8x128x8x64_S8x128x8x64_0_0_0_0 : ∀ a, (![0, 0, 0, 0] : Fin 4 → Nat) a + S8x128x8x64.size a ≤ S8x128x8x64.size a
  h_S8x128x8x64 : 0 < S8x128x8x64.numel
  reduces_S8x128x8x64_S8x128x8 : S8x128x8x64.Reduces [3] S8x128x8
  shapeCasts_S8x128x8_S8x128x8x1 : S8x128x8.ShapeCasts S8x128x8x1
  reduces_S8x128x8x1_S8x128x1 : S8x128x8x1.Reduces [2] S8x128x1
  shapeCasts_S8x128x1_S8x128x1x1 : S8x128x1.ShapeCasts S8x128x1x1
  shapeCasts_S32x256x1x1_S32x256 : S32x256x1x1.ShapeCasts S32x256
  bcast_S_S32x256 : S_.BroadcastsInDim S32x256 (![] : Fin 0 → Fin S32x256.rank)
  reducesTo_S32x256_S256_d0 : S32x256.ReducesTo [0] S256
  h_S_ : 0 < S_.numel
  bcast_S_S256 : S_.BroadcastsInDim S256 (![] : Fin 0 → Fin S256.rank)
  reducesTo_S32x256_S32_d1 : S32x256.ReducesTo [1] S32
  bcast_S_S32 : S_.BroadcastsInDim S32 (![] : Fin 0 → Fin S32.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  bcast_S256_S1x256_1 : S256.BroadcastsInDim S1x256 (![1] : Fin 1 → Fin S1x256.rank)
  slices_S3_S1_0 : S3.Slices ![0] S1
  shapeCasts_S1_S_ : S1.ShapeCasts S_
  bcast_S_S1x256 : S_.BroadcastsInDim S1x256 (![] : Fin 0 → Fin S1x256.rank)
  slices_S3_S1_1 : S3.Slices ![1] S1
  bcast_S1x256_S32x256_0_1 : S1x256.BroadcastsInDim S32x256 (![0, 1] : Fin 2 → Fin S32x256.rank)
  bcast_S32_S32x1_0 : S32.BroadcastsInDim S32x1 (![0] : Fin 1 → Fin S32x1.rank)
  slices_S3_S1_2 : S3.Slices ![2] S1
  bcast_S_S32x1 : S_.BroadcastsInDim S32x1 (![] : Fin 0 → Fin S32x1.rank)
  bcast_S32x1_S32x256_0_1 : S32x1.BroadcastsInDim S32x256 (![0, 1] : Fin 2 → Fin S32x256.rank)
  bcast_S32x256_S32x256x1x1_0_1 : S32x256.BroadcastsInDim S32x256x1x1 (![0, 1] : Fin 2 → Fin S32x256x1x1.rank)
  shapeCasts_S256_S1x256x1x1 : S256.ShapeCasts S1x256x1x1
  broadcasts_S8x128x1x1_S8x128x8x64 : S8x128x1x1.Broadcasts S8x128x8x64
  inb_S1x128x1x1_S1x128x1x1_0_0_0_0 : ∀ a, (![0, 0, 0, 0] : Fin 4 → Nat) a + S1x128x1x1.size a ≤ S1x128x1x1.size a
  h_S1x128x1x1 : 0 < S1x128x1x1.numel
  shapeCasts_S1x128x1x1_S1x128x1x1 : S1x128x1x1.ShapeCasts S1x128x1x1
  broadcasts_S1x128x1x1_S8x128x8x64 : S1x128x1x1.Broadcasts S8x128x8x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x8x64.size a ≤ S32x256x64x64.size a
  hwx0_0 : ∀ i : grid0.Coords, EltTy.bits .f32 = 32 ∨ (Rect.block (s := S32x256x64x64) S8x128x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1x1.size a ≤ S32x256x1x1.size a
  hwx0_1 : ∀ i : grid0.Coords, EltTy.bits .f32 = 32 ∨ (Rect.block (s := S32x256x1x1) S8x128x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x1x1.size a ≤ S32x256x1x1.size a
  hwx0_2 : ∀ i : grid0.Coords, EltTy.bits .f32 = 32 ∨ (Rect.block (s := S32x256x1x1) S8x128x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x8x64.size a ≤ S32x256x64x64.size a
  hwx1_0 : ∀ i : grid1.Coords, EltTy.bits .f32 = 32 ∨ (Rect.block (s := S32x256x64x64) S8x128x8x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x1x1.size a ≤ S32x256x1x1.size a
  hwx1_1 : ∀ i : grid1.Coords, EltTy.bits .f32 = 32 ∨ (Rect.block (s := S32x256x1x1) S8x128x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x1x1.size a ≤ S32x256x1x1.size a
  hwx1_2 : ∀ i : grid1.Coords, EltTy.bits .f32 = 32 ∨ (Rect.block (s := S32x256x1x1) S8x128x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x1x1.size a ≤ S1x256x1x1.size a
  hwx1_3 : ∀ i : grid1.Coords, EltTy.bits .f32 = 32 ∨ (Rect.block (s := S1x256x1x1) S1x128x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x1x1.size a ≤ S1x256x1x1.size a
  hwx1_4 : ∀ i : grid1.Coords, EltTy.bits .f32 = 32 ∨ (Rect.block (s := S1x256x1x1) S1x128x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128x8x64.size a ≤ S32x256x64x64.size a
  hwx1_5 : ∀ i : grid1.Coords, EltTy.bits .f32 = 32 ∨ (Rect.block (s := S32x256x64x64) S8x128x8x64.size (cc1_transform_5 i) (hinb1_5 i)).WholeWords (EltTy.packing .f32)

variable [Facts₀]

abbrev win0_0 : Pipeline.Window sig grid0 :=
  Pipeline.Window.ofSpec (Memref.whole main_arg0) S8x128x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x128x1x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x128x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S8x128x8x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v109) S8x128x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v110) S8x128x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v111) S1x128x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v112) S1x128x1x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v113) S8x128x8x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S256 : Shape := ⟨1, ![256]⟩
abbrev S3 : Shape := ⟨1, ![3]⟩
abbrev S_ : Shape := ⟨0, ![]⟩
abbrev S1x256x1x1 : Shape := ⟨4, ![1, 256, 1, 1]⟩
abbrev S32x256 : Shape := ⟨2, ![32, 256]⟩
abbrev S32x256x1x1 : Shape := ⟨4, ![32, 256, 1, 1]⟩
abbrev S32 : Shape := ⟨1, ![32]⟩
abbrev S32x1x1x1 : Shape := ⟨4, ![32, 1, 1, 1]⟩
abbrev S1 : Shape := ⟨1, ![1]⟩

abbrev nBuf : Space → Nat
  | .hbm => 193
  | .vmem => 0
  | .smem => 0
  | _ => 0

abbrev hbmTy0_0 (i : Nat) : BufTy := match i % 128 with
  | 0 => ⟨S32x256x64x64, .f32⟩
  | 1 => ⟨S256, .f32⟩
  | 2 => ⟨S256, .f32⟩
  | 3 => ⟨S3, .f32⟩
  | 4 => ⟨S3, .f32⟩
  | 5 => ⟨S_, .f32⟩
  | 6 => ⟨S256, .f32⟩
  | 7 => ⟨S_, .f32⟩
  | 8 => ⟨S256, .f32⟩
  | 9 => ⟨S256, .f32⟩
  | 10 => ⟨S1x256x1x1, .f32⟩
  | 11 => ⟨S_, .i32⟩
  | 12 => ⟨S_, .f32⟩
  | 13 => ⟨S256, .f32⟩
  | 14 => ⟨S1x256x1x1, .f32⟩
  | 15 => ⟨S_, .f32⟩
  | 16 => ⟨S1x256x1x1, .f32⟩
  | 17 => ⟨S1x256x1x1, .f32⟩
  | 18 => ⟨S32x256x64x64, .f32⟩
  | 19 => ⟨S32x256x64x64, .f32⟩
  | 20 => ⟨S32x256x64x64, .f32⟩
  | 21 => ⟨S_, .f32⟩
  | 22 => ⟨S_, .f32⟩
  | 23 => ⟨S_, .f32⟩
  | 24 => ⟨S_, .f32⟩
  | 25 => ⟨S256, .f32⟩
  | 26 => ⟨S256, .f32⟩
  | 27 => ⟨S256, .f32⟩
  | 28 => ⟨S_, .f32⟩
  | 29 => ⟨S_, .i1⟩
  | 30 => ⟨S_, .f32⟩
  | 31 => ⟨S_, .f32⟩
  | 32 => ⟨S256, .f32⟩
  | 33 => ⟨S256, .f32⟩
  | 34 => ⟨S1x256x1x1, .f32⟩
  | 35 => ⟨S_, .f32⟩
  | 36 => ⟨S32x256, .f32⟩
  | 37 => ⟨S32x256x1x1, .f32⟩
  | 38 => ⟨S_, .f32⟩
  | 39 => ⟨S32x256x1x1, .f32⟩
  | 40 => ⟨S32x256x1x1, .f32⟩
  | 41 => ⟨S_, .i32⟩
  | 42 => ⟨S_, .f32⟩
  | 43 => ⟨S32x256, .f32⟩
  | 44 => ⟨S32x256x1x1, .f32⟩
  | 45 => ⟨S_, .f32⟩
  | 46 => ⟨S32x256x1x1, .f32⟩
  | 47 => ⟨S32x256x1x1, .f32⟩
  | 48 => ⟨S32x256x64x64, .f32⟩
  | 49 => ⟨S32x256x64x64, .f32⟩
  | 50 => ⟨S32x256x64x64, .f32⟩
  | 51 => ⟨S_, .f32⟩
  | 52 => ⟨S_, .f32⟩
  | 53 => ⟨S_, .f32⟩
  | 54 => ⟨S_, .f32⟩
  | 55 => ⟨S32x256, .f32⟩
  | 56 => ⟨S32x256x1x1, .f32⟩
  | 57 => ⟨S32x256x1x1, .f32⟩
  | 58 => ⟨S32x256x1x1, .f32⟩
  | 59 => ⟨S_, .f32⟩
  | 60 => ⟨S_, .i1⟩
  | 61 => ⟨S_, .f32⟩
  | 62 => ⟨S_, .f32⟩
  | 63 => ⟨S32x256x1x1, .f32⟩
  | 64 => ⟨S32x256x1x1, .f32⟩
  | 65 => ⟨S_, .f32⟩
  | 66 => ⟨S32, .f32⟩
  | 67 => ⟨S32x1x1x1, .f32⟩
  | 68 => ⟨S_, .f32⟩
  | 69 => ⟨S32x1x1x1, .f32⟩
  | 70 => ⟨S32x1x1x1, .f32⟩
  | 71 => ⟨S_, .i32⟩
  | 72 => ⟨S_, .f32⟩
  | 73 => ⟨S32, .f32⟩
  | 74 => ⟨S32x1x1x1, .f32⟩
  | 75 => ⟨S_, .f32⟩
  | 76 => ⟨S32x1x1x1, .f32⟩
  | 77 => ⟨S32x1x1x1, .f32⟩
  | 78 => ⟨S32x256x64x64, .f32⟩
  | 79 => ⟨S32x256x64x64, .f32⟩
  | 80 => ⟨S32x256x64x64, .f32⟩
  | 81 => ⟨S_, .f32⟩
  | 82 => ⟨S_, .f32⟩
  | 83 => ⟨S_, .f32⟩
  | 84 => ⟨S_, .f32⟩
  | 85 => ⟨S32, .f32⟩
  | 86 => ⟨S32x1x1x1, .f32⟩
  | 87 => ⟨S32x1x1x1, .f32⟩
  | 88 => ⟨S32x1x1x1, .f32⟩
  | 89 => ⟨S_, .f32⟩
  | 90 => ⟨S_, .i1⟩
  | 91 => ⟨S_, .f32⟩
  | 92 => ⟨S_, .f32⟩
  | 93 => ⟨S32x1x1x1, .f32⟩
  | 94 => ⟨S32x1x1x1, .f32⟩
  | 95 => ⟨S_, .f32⟩
  | 96 => ⟨S_, .f32⟩
  | 97 => ⟨S_, .f32⟩
  | 98 => ⟨S_, .f32⟩
  | 99 => ⟨S1, .f32⟩
  | 100 => ⟨S3, .f32⟩
  | 101 => ⟨S3, .f32⟩
  | 102 => ⟨S3, .f32⟩
  | 103 => ⟨S_, .f32⟩
  | 104 => ⟨S_, .f32⟩
  | 105 => ⟨S1, .f32⟩
  | 106 => ⟨S3, .f32⟩
  | 107 => ⟨S3, .f32⟩
  | 108 => ⟨S_, .f32⟩
  | 109 => ⟨S_, .f32⟩
  | 110 => ⟨S_, .f32⟩
  | 111 => ⟨S_, .f32⟩
  | 112 => ⟨S1, .f32⟩
  | 113 => ⟨S3, .f32⟩
  | 114 => ⟨S3, .f32⟩
  | 115 => ⟨S3, .f32⟩
  | 116 => ⟨S_, .f32⟩
  | 117 => ⟨S_, .f32⟩
  | 118 => ⟨S1, .f32⟩
  | 119 => ⟨S3, .f32⟩
  | 120 => ⟨S3, .f32⟩
  | 121 => ⟨S_, .f32⟩
  | 122 => ⟨S_, .f32⟩
  | 123 => ⟨S_, .f32⟩
  | 124 => ⟨S_, .f32⟩
  | 125 => ⟨S1, .f32⟩
  | 126 => ⟨S3, .f32⟩
  | 127 => ⟨S3, .f32⟩
  | _ => ⟨S32x256x64x64, .f32⟩

abbrev hbmTy0_1 (i : Nat) : BufTy := match i % 128 with
  | 0 => ⟨S3, .f32⟩
  | 1 => ⟨S_, .f32⟩
  | 2 => ⟨S_, .f32⟩
  | 3 => ⟨S1, .f32⟩
  | 4 => ⟨S3, .f32⟩
  | 5 => ⟨S3, .f32⟩
  | 6 => ⟨S_, .f32⟩
  | 7 => ⟨S_, .f32⟩
  | 8 => ⟨S_, .f32⟩
  | 9 => ⟨S_, .f32⟩
  | 10 => ⟨S1, .f32⟩
  | 11 => ⟨S3, .f32⟩
  | 12 => ⟨S3, .f32⟩
  | 13 => ⟨S3, .f32⟩
  | 14 => ⟨S_, .f32⟩
  | 15 => ⟨S_, .f32⟩
  | 16 => ⟨S1, .f32⟩
  | 17 => ⟨S3, .f32⟩
  | 18 => ⟨S3, .f32⟩
  | 19 => ⟨S1, .f32⟩
  | 20 => ⟨S_, .f32⟩
  | 21 => ⟨S1x256x1x1, .f32⟩
  | 22 => ⟨S1x256x1x1, .f32⟩
  | 23 => ⟨S1, .f32⟩
  | 24 => ⟨S_, .f32⟩
  | 25 => ⟨S32x256x1x1, .f32⟩
  | 26 => ⟨S32x256x1x1, .f32⟩
  | 27 => ⟨S32x256x1x1, .f32⟩
  | 28 => ⟨S32x256x1x1, .f32⟩
  | 29 => ⟨S1, .f32⟩
  | 30 => ⟨S_, .f32⟩
  | 31 => ⟨S32x1x1x1, .f32⟩
  | 32 => ⟨S32x1x1x1, .f32⟩
  | 33 => ⟨S32x256x1x1, .f32⟩
  | 34 => ⟨S32x256x1x1, .f32⟩
  | 35 => ⟨S1, .f32⟩
  | 36 => ⟨S_, .f32⟩
  | 37 => ⟨S1x256x1x1, .f32⟩
  | 38 => ⟨S1x256x1x1, .f32⟩
  | 39 => ⟨S1, .f32⟩
  | 40 => ⟨S_, .f32⟩
  | 41 => ⟨S32x256x1x1, .f32⟩
  | 42 => ⟨S32x256x1x1, .f32⟩
  | 43 => ⟨S32x256x1x1, .f32⟩
  | 44 => ⟨S32x256x1x1, .f32⟩
  | 45 => ⟨S1, .f32⟩
  | 46 => ⟨S_, .f32⟩
  | 47 => ⟨S32x1x1x1, .f32⟩
  | 48 => ⟨S32x1x1x1, .f32⟩
  | 49 => ⟨S32x256x1x1, .f32⟩
  | 50 => ⟨S32x256x1x1, .f32⟩
  | 51 => ⟨S_, .f32⟩
  | 52 => ⟨S32x256x1x1, .f32⟩
  | 53 => ⟨S32x256x1x1, .f32⟩
  | 54 => ⟨S32x256x64x64, .f32⟩
  | 55 => ⟨S32x256x64x64, .f32⟩
  | 56 => ⟨S32x256x1x1, .f32⟩
  | 57 => ⟨S32x256x64x64, .f32⟩
  | 58 => ⟨S32x256x64x64, .f32⟩
  | 59 => ⟨S1x256x1x1, .f32⟩
  | 60 => ⟨S32x256x64x64, .f32⟩
  | 61 => ⟨S32x256x64x64, .f32⟩
  | 62 => ⟨S1x256x1x1, .f32⟩
  | 63 => ⟨S32x256x64x64, .f32⟩
  | 64 => ⟨S32x256x64x64, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_cst_3 : Ref sig .tc := ⟨.hbm, 28, rfl⟩
abbrev main_call0_v12 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_cst_1 : Ref sig .tc := ⟨.hbm, 35, rfl⟩
abbrev main_v6 : Ref sig .tc := ⟨.hbm, 36, rfl⟩
abbrev main_v7 : Ref sig .tc := ⟨.hbm, 37, rfl⟩
abbrev main_cst_2 : Ref sig .tc := ⟨.hbm, 38, rfl⟩
abbrev main_v8 : Ref sig .tc := ⟨.hbm, 39, rfl⟩
abbrev main_v9 : Ref sig .tc := ⟨.hbm, 40, rfl⟩
abbrev main_c_3 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_cst_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_cst_1 : Ref sig .tc := ⟨.hbm, 52, rfl⟩
abbrev main_call1_v8 : Ref sig .tc := ⟨.hbm, 53, rfl⟩
abbrev main_call1_cst_2 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_cst_3 : Ref sig .tc := ⟨.hbm, 59, rfl⟩
abbrev main_call1_v13 : Ref sig .tc := ⟨.hbm, 60, rfl⟩
abbrev main_call1_cst_4 : Ref sig .tc := ⟨.hbm, 61, rfl⟩
abbrev main_call1_call0_v0 : Ref sig .tc := ⟨.hbm, 62, rfl⟩
abbrev main_call1_call0_v1 : Ref sig .tc := ⟨.hbm, 63, rfl⟩
abbrev main_v10 : Ref sig .tc := ⟨.hbm, 64, rfl⟩
abbrev main_cst_4 : Ref sig .tc := ⟨.hbm, 65, rfl⟩
abbrev main_v11 : Ref sig .tc := ⟨.hbm, 66, rfl⟩
abbrev main_v12 : Ref sig .tc := ⟨.hbm, 67, rfl⟩
abbrev main_cst_5 : Ref sig .tc := ⟨.hbm, 68, rfl⟩
abbrev main_v13 : Ref sig .tc := ⟨.hbm, 69, rfl⟩
abbrev main_v14 : Ref sig .tc := ⟨.hbm, 70, rfl⟩
abbrev main_c_6 : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_cst_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_cst_1 : Ref sig .tc := ⟨.hbm, 82, rfl⟩
abbrev main_call2_v8 : Ref sig .tc := ⟨.hbm, 83, rfl⟩
abbrev main_call2_cst_2 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_v12 : Ref sig .tc := ⟨.hbm, 88, rfl⟩
abbrev main_call2_cst_3 : Ref sig .tc := ⟨.hbm, 89, rfl⟩
abbrev main_call2_v13 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v15 : Ref sig .tc := ⟨.hbm, 94, rfl⟩
abbrev main_cst_7 : Ref sig .tc := ⟨.hbm, 95, rfl⟩
abbrev main_v16 : Ref sig .tc := ⟨.hbm, 96, rfl⟩
abbrev main_cst_8 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_cst_9 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_10 : Ref sig .tc := ⟨.hbm, 108, rfl⟩
abbrev main_v26 : Ref sig .tc := ⟨.hbm, 109, rfl⟩
abbrev main_cst_11 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_cst_12 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev main_cst_13 : Ref sig .tc := ⟨.hbm, 121, rfl⟩
abbrev main_v36 : Ref sig .tc := ⟨.hbm, 122, rfl⟩
abbrev main_cst_14 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_cst_15 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_cst_16 : Ref sig .tc := ⟨.hbm, 134, rfl⟩
abbrev main_v46 : Ref sig .tc := ⟨.hbm, 135, rfl⟩
abbrev main_cst_17 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_cst_18 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_cst_19 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩

abbrev nD : Nat := 1
abbrev τ : Topo := Topo.v7x

variable {F : FTy → Type} [FloatOps F]

class Facts₀ : Prop where
  reducesTo_S32x256x64x64_S256_d0_2_3 : S32x256x64x64.ReducesTo [0, 2, 3] S256
  h_S_ : 0 < S_.numel
  bcast_S_S256 : S_.BroadcastsInDim S256 (![] : Fin 0 → Fin S256.rank)
  shapeCasts_S256_S1x256x1x1 : S256.ShapeCasts S1x256x1x1
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S1x256x1x1_S32x256x64x64_0_1_2_3 : S1x256x1x1.BroadcastsInDim S32x256x64x64 (![0, 1, 2, 3] : Fin 4 → Fin S32x256x64x64.rank)
  reducesTo_S32x256x64x64_S32x256_d2_3 : S32x256x64x64.ReducesTo [2, 3] S32x256
  bcast_S32x256_S32x256x1x1_0_1 : S32x256.BroadcastsInDim S32x256x1x1 (![0, 1] : Fin 2 → Fin S32x256x1x1.rank)
  bcast_S_S32x256x1x1 : S_.BroadcastsInDim S32x256x1x1 (![] : Fin 0 → Fin S32x256x1x1.rank)
  bcast_S32x256x1x1_S32x256x64x64_0_1_2_3 : S32x256x1x1.BroadcastsInDim S32x256x64x64 (![0, 1, 2, 3] : Fin 4 → Fin S32x256x64x64.rank)
  reducesTo_S32x256x64x64_S32_d1_2_3 : S32x256x64x64.ReducesTo [1, 2, 3] S32
  bcast_S32_S32x1x1x1_0 : S32.BroadcastsInDim S32x1x1x1 (![0] : Fin 1 → Fin S32x1x1x1.rank)
  bcast_S_S32x1x1x1 : S_.BroadcastsInDim S32x1x1x1 (![] : Fin 0 → Fin S32x1x1x1.rank)
  bcast_S32x1x1x1_S32x256x64x64_0_1_2_3 : S32x1x1x1.BroadcastsInDim S32x256x64x64 (![0, 1, 2, 3] : Fin 4 → Fin S32x256x64x64.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  slices_S3_S1_0 : S3.Slices ![0] S1
  shapeCasts_S1_S_ : S1.ShapeCasts S_
  slices_S3_S1_1 : S3.Slices ![1] S1
  bcast_S1x256x1x1_S32x256x1x1_0_1_2_3 : S1x256x1x1.BroadcastsInDim S32x256x1x1 (![0, 1, 2, 3] : Fin 4 → Fin S32x256x1x1.rank)
  slices_S3_S1_2 : S3.Slices ![2] S1
  bcast_S32x1x1x1_S32x256x1x1_0_1_2_3 : S32x1x1x1.BroadcastsInDim S32x256x1x1 (![0, 1, 2, 3] : Fin 4 → Fin S32x256x1x1.rank)

variable [Facts₀]

class Facts : Prop extends Facts₀ where

variable [Facts]
-- ==== Proof.WordStatsRuns.lean ====
/-
  (The word-level program: the same statements and proofs as for its idealization, which never look inside a float.)
  The statistics launch (the program's first kernel region): what is shared by its three control cases, and the body's
  run in each. The grid is 4 x 2 x 8; along its last axis the body sums a block of x [8,128,8,64] over its last two axes
  into two accumulators [8,128,1,1] kept in scratch — the sum and the sum of squares —, which it resets at the first of
  the eight points, and copies into the two output blocks at the last. So a point is in one of three cases, by its
  position modulo 8: 0 (reset, then add), 1 … 6 (add), 7 (add, then emit). Each run is stated on any whole staging
  buffers; the pieces its stores leave are found by running the body.
-/
import proofs.«175668_j16295105921565_2_alg».proof.Proof.Gen.Kernel.Launch
import proofs.«175668_j16295105921565_2_alg».proof.Proof.Gen.Kernel.Skeleton
import proofs.«175668_j16295105921565_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates, and their closed forms over the grid -/

/-- "This is the first point along the summed axis": the body's first `if`. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the last point along the summed axis": the body's second `if`. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle: the outputs are written back only at the emitting points -/

theorem live0 : ∀ t : Fin cfg0.N, cfg0.idle 0 (grid0.coords t) = false := by decide +kernel
theorem idle1 : ∀ t : Fin cfg0.N, ¬condLast (grid0.coords t) → cfg0.idle 1 (grid0.coords t) = true := by decide +kernel
theorem idle2 : ∀ t : Fin cfg0.N, ¬condLast (grid0.coords t) → cfg0.idle 2 (grid0.coords t) = true := by decide +kernel
theorem noFlush1 : ∀ t : Fin cfg0.N, ¬condLast (grid0.coords t) → (cfg0.win 1).flush t = false := by decide +kernel
theorem noFlush2 : ∀ t : Fin cfg0.N, ¬condLast (grid0.coords t) → (cfg0.win 2).flush t = false := by decide +kernel
theorem live1 : ∀ t : Fin cfg0.N, condLast (grid0.coords t) → cfg0.idle 1 (grid0.coords t) = false := by decide +kernel
theorem live2 : ∀ t : Fin cfg0.N, condLast (grid0.coords t) → cfg0.idle 2 (grid0.coords t) = false := by decide +kernel

/-! ## The buffers the runs are stated through -/

/-- One staging buffer of each output window and the two scratch accumulators, as views. -/
abbrev VO1 : View sig .tc .vmem S8x128x1x1 .f32 := (Memref.whole cc0_stg1_0 : Memref sig .tc .vmem S8x128x1x1 .f32).view
abbrev VO2 : View sig .tc .vmem S8x128x1x1 .f32 := (Memref.whole cc0_stg2_0 : Memref sig .tc .vmem S8x128x1x1 .f32).view
abbrev ms0 (t : Fin cfg0.N) : Memref sig .tc .vmem S8x128x8x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128x1x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128x1x1 .f32 := win0_2.stage (cfg0.slots t 2)
abbrev hs2 (t : Fin cfg0.N) : (ms2 t).IsWhole := hstage0_2 ((cfg0.slots t 2).cast nbuf0_2)
abbrev accM : Memref sig .tc .vmem S8x128x1x1 .f32 := Memref.whole cc0_scratch0
abbrev sqM : Memref sig .tc .vmem S8x128x1x1 .f32 := Memref.whole cc0_scratch1
abbrev VAcc : View sig .tc .vmem S8x128x1x1 .f32 := accM.view
abbrev VSq : View sig .tc .vmem S8x128x1x1 .f32 := sqM.view

/-! ## The body's run, case by case -/

set_option maxHeartbeats 2000000 in
/-- At a FIRST point: the input block at `x0`, the output buffers handed back untouched, the accumulators at anything;
    the body leaves each accumulator with its pieces written (the reset, then the block's sums added). -/
noncomputable def runFirst (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : condFirst i) (hc1 : ¬condLast i)
    (x0 : Vec F S8x128x8x64 .f32) :
    Σ' (LA : List (View.Piece (Elt F) S8x128x1x1 .f32)), { LQ : List (View.Piece (Elt F) S8x128x1x1 .f32) //
      ∀ (xi1 xi2 : Vec F S8x128x1x1 .f32) (E : Set ℕ) (K : PUnit → sProp 𝕄),
        iprop(owns (c : Thread nD τ) arg3 fullShare x0 ∗ owns (c : Thread nD τ) arg4 fullShare xi1 ∗ owns (c : Thread nD τ) arg5 fullShare xi2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare xi1 ∗ owns (c : Thread nD τ) arg5 fullShare xi2 ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LQ)) -∗ K ⟨⟩))
          ⊢ wp frame (wpE (defs₀ (F := F)) Variants.none c none) E (cc0__reduce_kernel i arg3 harg3 arg4 harg4 arg5 harg5 arg6 harg6 arg7 harg7) K } := by
  refine ⟨?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%da, %fa, -, HA⟩, ⟨%dq, %fq, -, HQ⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HA]; · iexists _; iexact HA
    iexists _; iexact HQ

set_option maxHeartbeats 2000000 in
/-- At a MIDDLE point: the accumulators at what the point before left (`xa`, `xq`); the body adds the block's sums. -/
noncomputable def runMid (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : ¬condLast i)
    (x0 : Vec F S8x128x8x64 .f32) (xa xq : Vec F S8x128x1x1 .f32) :
    Σ' (LA : List (View.Piece (Elt F) S8x128x1x1 .f32)), { LQ : List (View.Piece (Elt F) S8x128x1x1 .f32) //
      ∀ (xi1 xi2 : Vec F S8x128x1x1 .f32) (E : Set ℕ) (K : PUnit → sProp 𝕄),
        iprop(owns (c : Thread nD τ) arg3 fullShare x0 ∗ owns (c : Thread nD τ) arg4 fullShare xi1 ∗ owns (c : Thread nD τ) arg5 fullShare xi2 ∗ owns (c : Thread nD τ) arg6 fullShare xa ∗ owns (c : Thread nD τ) arg7 fullShare xq
            ∗ (iprop(owns (c : Thread nD τ) arg3 fullShare x0 ∗ owns (c : Thread nD τ) arg4 fullShare xi1 ∗ owns (c : Thread nD τ) arg5 fullShare xi2 ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LQ)) -∗ K ⟨⟩))
          ⊢ wp frame (wpE (defs₀ (F := F)) Variants.none c none) E (cc0__reduce_kernel i arg3 harg3 arg4 harg4 arg5 harg5 arg6 harg6 arg7 harg7) K } := by
  refine ⟨?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%fa, %hfa, HA⟩, ⟨%fq, %hfq, HQ⟩, Hk⟩
    obtain rfl := harg3.eq_unread hf0; obtain rfl := harg4.eq_unread hf1; obtain rfl := harg5.eq_unread hf2
    obtain rfl := harg6.eq_unread hfa; obtain rfl := harg7.eq_unread hfq
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HA]; · iexists _; iexact HA
    iexists _; iexact HQ

set_option maxHeartbeats 2000000 in
/-- At a LAST point: the accumulators at what the point before left, the output buffers at anything; the body adds the
    block's sums and copies each accumulator into its output block. -/
noncomputable def runLast (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i)
    (x0 : Vec F S8x128x8x64 .f32) (xa xq : Vec F S8x128x1x1 .f32) :
    Σ' (L1 : List (View.Piece (Elt F) S8x128x1x1 .f32)) (L2 : List (View.Piece (Elt F) S8x128x1x1 .f32)) (LA : List (View.Piece (Elt F) S8x128x1x1 .f32)), { LQ : List (View.Piece (Elt F) S8x128x1x1 .f32) //
      ∀ (E : Set ℕ) (K : PUnit → sProp 𝕄),
        iprop(owns (c : Thread nD τ) arg3 fullShare x0 ∗ (∃ d, owns (c : Thread nD τ) arg4 fullShare d) ∗ (∃ d, owns (c : Thread nD τ) arg5 fullShare d) ∗ owns (c : Thread nD τ) arg6 fullShare xa ∗ owns (c : Thread nD τ) arg7 fullShare xq
            ∗ (iprop(owns (c : Thread nD τ) arg3 fullShare x0 ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LQ)) -∗ K ⟨⟩))
          ⊢ wp frame (wpE (defs₀ (F := F)) Variants.none c none) E (cc0__reduce_kernel i arg3 harg3 arg4 harg4 arg5 harg5 arg6 harg6 arg7 harg7) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, ⟨%fa, %hfa, HA⟩, ⟨%fq, %hfq, HQ⟩, Hk⟩
    obtain rfl := harg3.eq_unread hf0
    obtain rfl := harg6.eq_unread hfa; obtain rfl := harg7.eq_unread hfq
    sl_exec (disch := first | exact hc0 | exact hc1)
    sl_step
    iapply Hk
    isplitl [H0]
    · iexists _; isplitr; · ipureintro; exact harg3.read_unread _
      iexact H0
    isplitl [H1]; · iexists _; iexact H1
    isplitl [H2]; · iexists _; iexact H2
    isplitl [HA]; · iexists _; iexact HA
    iexists _; iexact HQ

end Cert.Kernel.Stats

end
-- ==== Proof.WordStatsBody.lean ====
/-
  (The word-level program: the same statements and proofs as for its idealization, which never look inside a float.)
  The statistics launch at a PARAMETER `V` (the buffer contents when the region is entered): what its two output blocks
  and its two scratch accumulators hold after each grid point, by recursion on the point (a first point starts the
  accumulators afresh from the block's sums; a later one adds the block's sums to what the point before left; a last
  one also copies them out); the region invariant that carries the two accumulators from point to point; the
  pipeline's proof data; and the body obligation at every point, by cases on the point's position modulo 8.
-/
import proofs.«175668_j16295105921565_2_alg».proof.Proof.Gen.Kernel.Launch
import proofs.«175668_j16295105921565_2_alg».proof.Proof.Gen.Kernel.Skeleton
import proofs.«175668_j16295105921565_2_alg».proof.Proof.Gen.Kernel.Points
import proofs.«175668_j16295105921565_2_alg».proof.Proof.WordStatsRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block of the entry contents at every point. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The case of a point, from its position modulo 8 -/

theorem first_of (t : Fin cfg0.N) (h0 : t.val % 8 = 0) : condFirst (grid0.coords t) := (hcondFirst t).mpr h0
theorem notFirst_of (t : Fin cfg0.N) (h0 : ¬t.val % 8 = 0) : ¬condFirst (grid0.coords t) := fun h => h0 ((hcondFirst t).mp h)
theorem last_of (t : Fin cfg0.N) (h1 : t.val % 8 = 7) : condLast (grid0.coords t) := (hcondLast t).mpr h1
theorem notLast_of (t : Fin cfg0.N) (h1 : ¬t.val % 8 = 7) : ¬condLast (grid0.coords t) := fun h => h1 ((hcondLast t).mp h)
theorem notLast_of_first (t : Fin cfg0.N) (h0 : t.val % 8 = 0) : ¬condLast (grid0.coords t) :=
  notLast_of t (by omega)
theorem notFirst_of_last (t : Fin cfg0.N) (h1 : t.val % 8 = 7) : ¬condFirst (grid0.coords t) :=
  notFirst_of t (by omega)

/-! ## The runs at a grid point, and what their pieces read back to -/

/-- Pieces read back through each buffer's view, over contents that do not matter once the pieces cover it. -/
def accOf (L : List (View.Piece (Elt F) S8x128x1x1 .f32)) : Vec F S8x128x1x1 .f32 := VAcc.read (Elt F) (VAcc.writes (Elt F) VAcc.junk L)
def sqOf (L : List (View.Piece (Elt F) S8x128x1x1 .f32)) : Vec F S8x128x1x1 .f32 := VSq.read (Elt F) (VSq.writes (Elt F) VSq.junk L)
def o1Of (L : List (View.Piece (Elt F) S8x128x1x1 .f32)) : Vec F S8x128x1x1 .f32 := VO1.read (Elt F) (VO1.writes (Elt F) VO1.junk L)
def o2Of (L : List (View.Piece (Elt F) S8x128x1x1 .f32)) : Vec F S8x128x1x1 .f32 := VO2.read (Elt F) (VO2.writes (Elt F) VO2.junk L)

noncomputable def runFirstAt (c : Dev nD) (t : Fin cfg0.N) (h0 : t.val % 8 = 0) :=
  runFirst (F := F) c (grid0.coords t) (ms0 t) (hs0 t) (ms1 t) (hs1 t) (ms2 t) (hs2 t) accM (Memref.isWhole_whole _) sqM (Memref.isWhole_whole _) (first_of t h0) (notLast_of_first t h0) (iblk V c 0 t)
noncomputable def runMidAt (c : Dev nD) (t : Fin cfg0.N) (h0 : ¬t.val % 8 = 0) (h1 : ¬t.val % 8 = 7) (xa xq : Vec F S8x128x1x1 .f32) :=
  runMid (F := F) c (grid0.coords t) (ms0 t) (hs0 t) (ms1 t) (hs1 t) (ms2 t) (hs2 t) accM (Memref.isWhole_whole _) sqM (Memref.isWhole_whole _) (notFirst_of t h0) (notLast_of t h1) (iblk V c 0 t) xa xq
noncomputable def runLastAt (c : Dev nD) (t : Fin cfg0.N) (h1 : t.val % 8 = 7) (xa xq : Vec F S8x128x1x1 .f32) :=
  runLast (F := F) c (grid0.coords t) (ms0 t) (hs0 t) (ms1 t) (hs1 t) (ms2 t) (hs2 t) accM (Memref.isWhole_whole _) sqM (Memref.isWhole_whole _) (notFirst_of_last t h1) (last_of t h1) (iblk V c 0 t) xa xq

/-- Each run's pieces for each buffer tile it (one whole store at least), so they cover it. -/
theorem coverFirstA (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : condFirst i) (hc1 : ¬condLast i) (x0 : Vec F S8x128x8x64 .f32) (y : S8x128x1x1.Idx) :
    ∃ pc ∈ (runFirst (F := F) c i arg3 harg3 arg4 harg4 arg5 harg5 arg6 harg6 arg7 harg7 hc0 hc1 x0).1, y ∈ pc.1.set := View.cover_of_tiledL _ S8x128x1x1.size (by sl_kernel_rfl) y
theorem coverFirstQ (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : condFirst i) (hc1 : ¬condLast i) (x0 : Vec F S8x128x8x64 .f32) (y : S8x128x1x1.Idx) :
    ∃ pc ∈ (runFirst (F := F) c i arg3 harg3 arg4 harg4 arg5 harg5 arg6 harg6 arg7 harg7 hc0 hc1 x0).2.1, y ∈ pc.1.set := View.cover_of_tiledL _ S8x128x1x1.size (by sl_kernel_rfl) y
theorem coverMidA (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : ¬condLast i) (x0 : Vec F S8x128x8x64 .f32) (xa xq : Vec F S8x128x1x1 .f32) (y : S8x128x1x1.Idx) :
    ∃ pc ∈ (runMid (F := F) c i arg3 harg3 arg4 harg4 arg5 harg5 arg6 harg6 arg7 harg7 hc0 hc1 x0 xa xq).1, y ∈ pc.1.set := View.cover_of_tiledL _ S8x128x1x1.size (by sl_kernel_rfl) y
theorem coverMidQ (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : ¬condLast i) (x0 : Vec F S8x128x8x64 .f32) (xa xq : Vec F S8x128x1x1 .f32) (y : S8x128x1x1.Idx) :
    ∃ pc ∈ (runMid (F := F) c i arg3 harg3 arg4 harg4 arg5 harg5 arg6 harg6 arg7 harg7 hc0 hc1 x0 xa xq).2.1, y ∈ pc.1.set := View.cover_of_tiledL _ S8x128x1x1.size (by sl_kernel_rfl) y
theorem coverLast1 (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i) (x0 : Vec F S8x128x8x64 .f32) (xa xq : Vec F S8x128x1x1 .f32) (y : S8x128x1x1.Idx) :
    ∃ pc ∈ (runLast (F := F) c i arg3 harg3 arg4 harg4 arg5 harg5 arg6 harg6 arg7 harg7 hc0 hc1 x0 xa xq).1, y ∈ pc.1.set := View.cover_of_tiledL _ S8x128x1x1.size (by sl_kernel_rfl) y
theorem coverLast2 (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i) (x0 : Vec F S8x128x8x64 .f32) (xa xq : Vec F S8x128x1x1 .f32) (y : S8x128x1x1.Idx) :
    ∃ pc ∈ (runLast (F := F) c i arg3 harg3 arg4 harg4 arg5 harg5 arg6 harg6 arg7 harg7 hc0 hc1 x0 xa xq).2.1, y ∈ pc.1.set := View.cover_of_tiledL _ S8x128x1x1.size (by sl_kernel_rfl) y
theorem coverLastA (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i) (x0 : Vec F S8x128x8x64 .f32) (xa xq : Vec F S8x128x1x1 .f32) (y : S8x128x1x1.Idx) :
    ∃ pc ∈ (runLast (F := F) c i arg3 harg3 arg4 harg4 arg5 harg5 arg6 harg6 arg7 harg7 hc0 hc1 x0 xa xq).2.2.1, y ∈ pc.1.set := View.cover_of_tiledL _ S8x128x1x1.size (by sl_kernel_rfl) y
theorem coverLastQ (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i) (x0 : Vec F S8x128x8x64 .f32) (xa xq : Vec F S8x128x1x1 .f32) (y : S8x128x1x1.Idx) :
    ∃ pc ∈ (runLast (F := F) c i arg3 harg3 arg4 harg4 arg5 harg5 arg6 harg6 arg7 harg7 hc0 hc1 x0 xa xq).2.2.2.1, y ∈ pc.1.set := View.cover_of_tiledL _ S8x128x1x1.size (by sl_kernel_rfl) y

/-! ## The accumulation -/

/-- What nothing consults: an output block's contents at a point where the body does not store into it and the
    pipeline does not write it back. -/
def idleOut : Vec F S8x128x1x1 .f32 := VO1.read (Elt F) VO1.junk

/-- After the body at position `n`: (output block 1, output block 2, the sum accumulator, the sum-of-squares
    accumulator). -/
def outsAt (c : Dev nD) : (n : ℕ) → n < cfg0.N → Vec F S8x128x1x1 .f32 × Vec F S8x128x1x1 .f32 × Vec F S8x128x1x1 .f32 × Vec F S8x128x1x1 .f32
  | 0, hn => (idleOut, idleOut, accOf (runFirstAt V c ⟨0, hn⟩ (Nat.zero_mod _)).1, sqOf (runFirstAt V c ⟨0, hn⟩ (Nat.zero_mod _)).2.1)
  | n + 1, hn =>
    if h0 : (n + 1) % 8 = 0 then
      (idleOut, idleOut, accOf (runFirstAt V c ⟨n + 1, hn⟩ h0).1, sqOf (runFirstAt V c ⟨n + 1, hn⟩ h0).2.1)
    else if h1 : (n + 1) % 8 = 7 then
      (o1Of (runLastAt V c ⟨n + 1, hn⟩ h1 (outsAt c n (Nat.lt_of_succ_lt hn)).2.2.1 (outsAt c n (Nat.lt_of_succ_lt hn)).2.2.2).1,
       o2Of (runLastAt V c ⟨n + 1, hn⟩ h1 (outsAt c n (Nat.lt_of_succ_lt hn)).2.2.1 (outsAt c n (Nat.lt_of_succ_lt hn)).2.2.2).2.1,
       accOf (runLastAt V c ⟨n + 1, hn⟩ h1 (outsAt c n (Nat.lt_of_succ_lt hn)).2.2.1 (outsAt c n (Nat.lt_of_succ_lt hn)).2.2.2).2.2.1,
       sqOf (runLastAt V c ⟨n + 1, hn⟩ h1 (outsAt c n (Nat.lt_of_succ_lt hn)).2.2.1 (outsAt c n (Nat.lt_of_succ_lt hn)).2.2.2).2.2.2.1)
    else
      (idleOut, idleOut,
       accOf (runMidAt V c ⟨n + 1, hn⟩ h0 h1 (outsAt c n (Nat.lt_of_succ_lt hn)).2.2.1 (outsAt c n (Nat.lt_of_succ_lt hn)).2.2.2).1,
       sqOf (runMidAt V c ⟨n + 1, hn⟩ h0 h1 (outsAt c n (Nat.lt_of_succ_lt hn)).2.2.1 (outsAt c n (Nat.lt_of_succ_lt hn)).2.2.2).2.1)

/-- The contents the point before `t` left (for a point that is not the first of all). -/
abbrev prevAt (c : Dev nD) (t : Fin cfg0.N) : Vec F S8x128x1x1 .f32 × Vec F S8x128x1x1 .f32 × Vec F S8x128x1x1 .f32 × Vec F S8x128x1x1 .f32 :=
  outsAt V c (t.val - 1) (Nat.lt_of_le_of_lt (Nat.sub_le _ _) t.isLt)

theorem outsAt_first (c : Dev nD) (t : Fin cfg0.N) (h0 : t.val % 8 = 0) :
    outsAt V c t.val t.isLt = (idleOut, idleOut, accOf (runFirstAt V c t h0).1, sqOf (runFirstAt V c t h0).2.1) := by
  obtain ⟨n, hn⟩ := t
  cases n with
  | zero => exact rfl
  | succ n => exact (dif_pos h0).trans rfl

theorem outsAt_mid (c : Dev nD) (t : Fin cfg0.N) (h0 : ¬t.val % 8 = 0) (h1 : ¬t.val % 8 = 7) :
    outsAt V c t.val t.isLt = (idleOut, idleOut,
      accOf (runMidAt V c t h0 h1 (prevAt V c t).2.2.1 (prevAt V c t).2.2.2).1,
      sqOf (runMidAt V c t h0 h1 (prevAt V c t).2.2.1 (prevAt V c t).2.2.2).2.1) := by
  obtain ⟨n, hn⟩ := t
  cases n with
  | zero => exact absurd (Nat.zero_mod _) h0
  | succ n => exact (dif_neg h0).trans ((dif_neg h1).trans rfl)

theorem outsAt_last (c : Dev nD) (t : Fin cfg0.N) (h1 : t.val % 8 = 7) :
    outsAt V c t.val t.isLt =
      (o1Of (runLastAt V c t h1 (prevAt V c t).2.2.1 (prevAt V c t).2.2.2).1,
       o2Of (runLastAt V c t h1 (prevAt V c t).2.2.1 (prevAt V c t).2.2.2).2.1,
       accOf (runLastAt V c t h1 (prevAt V c t).2.2.1 (prevAt V c t).2.2.2).2.2.1,
       sqOf (runLastAt V c t h1 (prevAt V c t).2.2.1 (prevAt V c t).2.2.2).2.2.2.1) := by
  obtain ⟨n, hn⟩ := t
  cases n with
  | zero => exact absurd (show (0 : ℕ) % 8 = 7 from h1) (by decide)
  | succ n => exact (dif_neg (show ¬(n + 1) % 8 = 0 by have : (n + 1) % 8 = 7 := h1; omega)).trans ((dif_pos h1).trans rfl)

/-! ## The region invariant: the accumulators carried from point to point -/

/-- The scoped buffers of the core that are neither a staging buffer of this launch nor an accumulator (the other
    launch's staging buffers), each at some contents. -/
def otherStage (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA_eq (c : Dev nD) :
    (Pipeline.ΦA spec0 c : sProp 𝕄)
      = iprop(iprop((∃ d, owns (c : Thread nD τ) accM fullShare d) ∗ (∃ d, owns (c : Thread nD τ) sqM fullShare d) ∗ otherStage c) ∗ (∃ r, prngReg c r)) := by
  unfold Pipeline.ΦA otherStage; rw [scopedRest0_eq]; simp only [accM, sqM, owns_whole]; try rfl

/-- Before position `n`: at the very first point whatever the launch hands over; afterwards the two accumulators at what
    the point before left in them, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accM fullShare (outsAt V c n hn).2.2.1 ∗ owns (c : Thread nD τ) sqM fullShare (outsAt V c n hn).2.2.2 ∗ otherStage c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare (outsAt V c n hn).2.2.1 ∗ owns (c : Thread nD τ) sqM fullShare (outsAt V c n hn).2.2.2 ∗ otherStage c) ∗ (∃ r, prngReg c r)) := rfl

theorem PhiS_pos (c : Dev nD) (n : ℕ) (h : n ≤ cfg0.N) (hz : n ≠ 0) :
    PhiS V c n h = iprop(iprop(owns (c : Thread nD τ) accM fullShare (outsAt V c (n - 1) (by omega)).2.2.1 ∗ owns (c : Thread nD τ) sqM fullShare (outsAt V c (n - 1) (by omega)).2.2.2 ∗ otherStage c) ∗ (∃ r, prngReg c r)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
    | ⟨2, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = (outsAt V c t.val t.isLt).1 := by dsimp only [dat]
theorem after2 (c : Dev nD) (t : Fin cfg0.N) : (dat V c).after 2 t = (outsAt V c t.val t.isLt).2.1 := by dsimp only [dat]

theorem before0 (c : Dev nD) (t : Fin cfg0.N) (d) : (dat V c).before 0 t d = iblk V c 0 t :=
  before0_of V (dat V c) (A_eq V c 0) (after0 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves0 (c : Dev nD) (t : Fin cfg0.N) :
    (dat V c).leavesExact 0 t = owns (c : Thread nD τ) (ms0 t) fullShare (iblk V c 0 t) := by
  unfold Dat.leavesExact; rw [live0 t, after0]

set_option maxHeartbeats 4800000 in
/-- The body at any point, by its case. The invariant hands the body the accumulators at what the point before left
    (at anything, at the very first point; a first point does not read them) and takes them back at this point's
    contents; an idle output's buffer goes through untouched; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0]
  rw [show (dat V c).owesAt () t.succ = (dat V c).owesAt () t.castSucc from rfl]
  rw [show (dat V c).Φ t.succ = PhiS V c (t.val + 1) t.isLt from rfl, PhiS_succ, leaves0]
  by_cases h0 : t.val % 8 = 0
  · rw [Dat.leavesExact_idle (dat V c) 1 t (idle1 t (notLast_of_first t h0)) (noFlush1 t (notLast_of_first t h0)),
      Dat.leavesExact_idle (dat V c) 2 t (idle2 t (notLast_of_first t h0)) (noFlush2 t (notLast_of_first t h0))]
    rw [outsAt_first V c t h0]
    unfold accOf sqOf runFirstAt; (try dsimp only)
    by_cases hz : t.val = 0
    · rw [PhiS_castSucc V c t, PhiS_zero V c _ _ hz, PhiA_eq]
      iintro ⟨⟨⟨HA, HQ, HR⟩, Hg⟩, Ho, ⟨%d0, H0⟩, ⟨%d1, H1⟩, ⟨%d2, H2⟩⟩
      iapply ((runFirst c (grid0.coords t) (ms0 t) (hs0 t) (ms1 t) (hs1 t) (ms2 t) (hs2 t) accM (Memref.isWhole_whole _) sqM (Memref.isWhole_whole _) (first_of t h0) (notLast_of_first t h0) (iblk V c 0 t)).2.2 _ _ Set.univ _)
      isplitl [H0]; · iexact H0
      isplitl [H1]; · iexact H1
      isplitl [H2]; · iexact H2
      isplitl [HA]; · iexact HA
      isplitl [HQ]; · iexact HQ
      iintro ⟨H0, H1, H2, ⟨%ea, HA⟩, ⟨%eq, HQ⟩⟩
      isplitl [HA HQ HR Hg]
      · isplitl [HA HQ HR]
        · isplitl [HA]
          · unfold owns; iexists _; isplitr
            swap; · iexact HA
            ipureintro; exact View.read_writes_of_cover _ _ _ _ _ (coverFirstA c _ _ _ _ _ _ _ _ _ _ _ _ _ _)
          isplitl [HQ]
          · unfold owns; iexists _; isplitr
            swap; · iexact HQ
            ipureintro; exact View.read_writes_of_cover _ _ _ _ _ (coverFirstQ c _ _ _ _ _ _ _ _ _ _ _ _ _ _)
          iexact HR
        iexact Hg
      isplitl [Ho]; · iexact Ho
      isplitl [H0]; · iexact H0
      isplitl [H1]; · iexists _; iexact H1
      iexists _; iexact H2
    · rw [PhiS_castSucc V c t, PhiS_pos V c _ _ hz]
      iintro ⟨⟨⟨HA, HQ, HR⟩, Hg⟩, Ho, ⟨%d0, H0⟩, ⟨%d1, H1⟩, ⟨%d2, H2⟩⟩
      iapply ((runFirst c (grid0.coords t) (ms0 t) (hs0 t) (ms1 t) (hs1 t) (ms2 t) (hs2 t) accM (Memref.isWhole_whole _) sqM (Memref.isWhole_whole _) (first_of t h0) (notLast_of_first t h0) (iblk V c 0 t)).2.2 _ _ Set.univ _)
      isplitl [H0]; · iexact H0
      isplitl [H1]; · iexact H1
      isplitl [H2]; · iexact H2
      isplitl [HA]; · iexists _; iexact HA
      isplitl [HQ]; · iexists _; iexact HQ
      iintro ⟨H0, H1, H2, ⟨%ea, HA⟩, ⟨%eq, HQ⟩⟩
      isplitl [HA HQ HR Hg]
      · isplitl [HA HQ HR]
        · isplitl [HA]
          · unfold owns; iexists _; isplitr
            swap; · iexact HA
            ipureintro; exact View.read_writes_of_cover _ _ _ _ _ (coverFirstA c _ _ _ _ _ _ _ _ _ _ _ _ _ _)
          isplitl [HQ]
          · unfold owns; iexists _; isplitr
            swap; · iexact HQ
            ipureintro; exact View.read_writes_of_cover _ _ _ _ _ (coverFirstQ c _ _ _ _ _ _ _ _ _ _ _ _ _ _)
          iexact HR
        iexact Hg
      isplitl [Ho]; · iexact Ho
      isplitl [H0]; · iexact H0
      isplitl [H1]; · iexists _; iexact H1
      iexists _; iexact H2
  · have hz : t.val ≠ 0 := fun e => h0 (by rw [e])
    by_cases h1 : t.val % 8 = 7
    · rw [show (dat V c).leavesExact 1 t = owns (c : Thread nD τ) (ms1 t) fullShare ((dat V c).after 1 t) from by
          unfold Dat.leavesExact; rw [live1 t (last_of t h1)], after1]
      rw [show (dat V c).leavesExact 2 t = owns (c : Thread nD τ) (ms2 t) fullShare ((dat V c).after 2 t) from by
          unfold Dat.leavesExact; rw [live2 t (last_of t h1)], after2]
      rw [outsAt_last V c t h1]
      unfold o1Of o2Of accOf sqOf runLastAt; (try dsimp only)
      rw [PhiS_castSucc V c t, PhiS_pos V c _ _ hz]
      iintro ⟨⟨⟨HA, HQ, HR⟩, Hg⟩, Ho, ⟨%d0, H0⟩, ⟨%d1, H1⟩, ⟨%d2, H2⟩⟩
      iapply ((runLast c (grid0.coords t) (ms0 t) (hs0 t) (ms1 t) (hs1 t) (ms2 t) (hs2 t) accM (Memref.isWhole_whole _) sqM (Memref.isWhole_whole _) (notFirst_of_last t h1) (last_of t h1) (iblk V c 0 t) _ _).2.2.2.2 Set.univ _)
      isplitl [H0]; · iexact H0
      isplitl [H1]; · iexists _; iexact H1
      isplitl [H2]; · iexists _; iexact H2
      isplitl [HA]; · iexact HA
      isplitl [HQ]; · iexact HQ
      iintro ⟨H0, ⟨%e1, H1⟩, ⟨%e2, H2⟩, ⟨%ea, HA⟩, ⟨%eq, HQ⟩⟩
      isplitl [HA HQ HR Hg]
      · isplitl [HA HQ HR]
        · isplitl [HA]
          · unfold owns; iexists _; isplitr
            swap; · iexact HA
            ipureintro; exact View.read_writes_of_cover _ _ _ _ _ (coverLastA c _ _ _ _ _ _ _ _ _ _ _ _ _ _ _ _)
          isplitl [HQ]
          · unfold owns; iexists _; isplitr
            swap; · iexact HQ
            ipureintro; exact View.read_writes_of_cover _ _ _ _ _ (coverLastQ c _ _ _ _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (coverLast1 c _ _ _ _ _ _ _ _ _ _ _ _ _ _ _ _)
      unfold owns; iexists _; isplitr
      swap; · iexact H2
      ipureintro; exact View.read_writes_of_cover _ _ _ _ _ (coverLast2 c _ _ _ _ _ _ _ _ _ _ _ _ _ _ _ _)
    · rw [Dat.leavesExact_idle (dat V c) 1 t (idle1 t (notLast_of t h1)) (noFlush1 t (notLast_of t h1)),
        Dat.leavesExact_idle (dat V c) 2 t (idle2 t (notLast_of t h1)) (noFlush2 t (notLast_of t h1))]
      rw [outsAt_mid V c t h0 h1]
      unfold accOf sqOf runMidAt; (try dsimp only)
      rw [PhiS_castSucc V c t, PhiS_pos V c _ _ hz]
      iintro ⟨⟨⟨HA, HQ, HR⟩, Hg⟩, Ho, ⟨%d0, H0⟩, ⟨%d1, H1⟩, ⟨%d2, H2⟩⟩
      iapply ((runMid c (grid0.coords t) (ms0 t) (hs0 t) (ms1 t) (hs1 t) (ms2 t) (hs2 t) accM (Memref.isWhole_whole _) sqM (Memref.isWhole_whole _) (notFirst_of t h0) (notLast_of t h1) (iblk V c 0 t) _ _).2.2 _ _ Set.univ _)
      isplitl [H0]; · iexact H0
      isplitl [H1]; · iexact H1
      isplitl [H2]; · iexact H2
      isplitl [HA]; · iexact HA
      isplitl [HQ]; · iexact HQ
      iintro ⟨H0, H1, H2, ⟨%ea, HA⟩, ⟨%eq, HQ⟩⟩
      isplitl [HA HQ HR Hg]
      · isplitl [HA HQ HR]
        · isplitl [HA]
          · unfold owns; iexists _; isplitr
            swap; · iexact HA
            ipureintro; exact View.read_writes_of_cover _ _ _ _ _ (coverMidA c _ _ _ _ _ _ _ _ _ _ _ _ _ _ _ _)
          isplitl [HQ]
          · unfold owns; iexists _; isplitr
            swap; · iexact HQ
            ipureintro; exact View.read_writes_of_cover _ _ _ _ _ (coverMidQ c _ _ _ _ _ _ _ _ _ _ _ _ _ _ _ _)
          iexact HR
        iexact Hg
      isplitl [Ho]; · iexact Ho
      isplitl [H0]; · iexact H0
      isplitl [H1]; · iexists _; iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives that back: the accumulators' named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  iintro ⟨⟨HA, HQ, HR⟩, Hg⟩
  isplitl [HA HQ HR]
  · isplitl [HA]; · iexists _; iexact HA
    isplitl [HQ]; · iexists _; iexact HQ
    iexact HR
  iexact Hg

end Region

end Cert.Kernel.Stats

end
-- ==== Proof.WordNormBody.lean ====
/-
  (The word-level program: the same statements and proofs as for its idealization, which never look inside a float.)
  The normalize-and-affine launch (the program's second kernel region) at a PARAMETER `V`, the buffer contents when the
  region is entered. At every grid point the body loads a block of x [8,128,8,64], the per-(n,c) mean and variance
  columns [8,128,1,1] and the per-channel weight and bias columns [1,128,1,1], and stores ((x - mean) / sqrt var) * weight
  + bias, broadcast over the block, into the output block, which it covers with one whole store. Nothing is kept between
  points. Stated here: what the output block holds after the body as a function of the five input blocks (`outBlock`),
  the body's triple, the pipeline's proof data over the region invariant that only lends the scoped rest and the
  generator register, and the body obligation at every point.
-/
import proofs.«175668_j16295105921565_2_alg».proof.Proof.Gen.Kernel.Launch
import proofs.«175668_j16295105921565_2_alg».proof.Proof.Gen.Kernel.Skeleton
import proofs.«175668_j16295105921565_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Norm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the entry contents at every grid point, whether the
    pipeline fetched it there or kept it from the point before (its block index has not moved then). -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the entry contents at every grid point, whether the
    pipeline fetched it there or kept it from the point before (its block index has not moved then). -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the entry contents at every grid point, whether the
    pipeline fetched it there or kept it from the point before (its block index has not moved then). -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the entry contents at every grid point, whether the
    pipeline fetched it there or kept it from the point before (its block index has not moved then). -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block of the entry contents at every grid point, whether the
    pipeline fetched it there or kept it from the point before (its block index has not moved then). -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rX : Rect S8x128x8x64 := Rect.unit (s := S8x128x8x64) ![0, 0, 0, 0] S8x128x8x64.size inb_S8x128x8x64_S8x128x8x64_0_0_0_0
abbrev rM : Rect S8x128x1x1 := Rect.unit (s := S8x128x1x1) ![0, 0, 0, 0] S8x128x1x1.size inb_S8x128x1x1_S8x128x1x1_0_0_0_0
abbrev rC : Rect S1x128x1x1 := Rect.unit (s := S1x128x1x1) ![0, 0, 0, 0] S1x128x1x1.size inb_S1x128x1x1_S1x128x1x1_0_0_0_0

/-- The output block after the body: its one whole store of the normalized, scaled and shifted block. -/
def outBlock (x0 : Vec F S8x128x8x64 .f32) (x1 x2 : Vec F S8x128x1x1 .f32) (x3 x4 : Vec F S1x128x1x1 .f32) : Vec F S8x128x8x64 .f32 :=
  View.canon [⟨rX, k1_pay1 (View.ld x0 rX) (View.ld x1 rM) (View.ld x2 rM) (View.ld x3 rC) (View.ld x4 rC)⟩]

/-- The one store covers the block. -/
theorem outCover (p0 : Vec F S8x128x8x64 .f32) (y : S8x128x8x64.Idx) :
    ∃ pc ∈ ([⟨rX, p0⟩] : List (View.Piece (Elt F) S8x128x8x64 .f32)), y ∈ pc.1.set :=
  View.cover_of_tiled [⟨rX, p0⟩] S8x128x8x64.size (by rfl) y

set_option maxHeartbeats 2000000 in
/-- The body on whole staging buffers, the inputs' at contents `x0 … x4` and the output's at anything, runs to a
    state holding the inputs' as they were and the output's at `outBlock` of them. -/
theorem sound_kernel (c : Dev nD) (E : Set ℕ) (i : grid1.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S1x128x1x1 .f32) (harg6 : arg6.IsWhole) (arg7 : Memref sig .tc .vmem S1x128x1x1 .f32) (harg7 : arg7.IsWhole) (arg8 : Memref sig .tc .vmem S8x128x8x64 .f32) (harg8 : arg8.IsWhole)
    (x0 : Vec F S8x128x8x64 .f32) (x1 x2 : Vec F S8x128x1x1 .f32) (x3 x4 : Vec F S1x128x1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (outBlock x0 x1 x2 x3 x4)) -∗ K ⟨⟩))
      ⊢ wp frame (wpE (defs₀ (F := F)) Variants.none c none) E (cc1__norm_kernel i arg3 harg3 arg4 harg4 arg5 harg5 arg6 harg6 arg7 harg7 arg8 harg8) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-- The proof data of this pipeline on core `c`: the arrays as the region finds them; after the body each input's
    buffer still at its block and the output's at `outBlock` of the input blocks; the invariant lends the scoped rest and
    the generator register; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) :
    (dat V c).after 5 t = outBlock (iblk V c 0 t) (iblk V c 1 t) (iblk V c 2 t) (iblk V c 3 t) (iblk V c 4 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

set_option maxHeartbeats 2000000 in
/-- The body at any point: the inputs' buffers hold their blocks, so `sound_kernel` applies; the invariant and the
    core's tally pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Region

end Cert.Kernel.Norm

end
-- ==== Proof.WordRun.lean ====
/-
  (The word-level program: the same statements and proofs as for its idealization, which never look inside a float.)
  The program's run from launch to return: the buffer contents at every boundary of @main as a fold from the launch
  memory (the statistics launch's two outputs at what its write-backs leave; the host stretch between the launches,
  in three pieces; the normalize launch's output at what its write-backs leave), the two launches and the three host
  pieces as segments over one thread state (every unscoped buffer at the boundary's contents, the generator register,
  nothing owed), and the launch theorem over them: every weakly fair execution terminates without a fault, and the
  final memory holds every unscoped buffer at the last boundary's contents. Each argument array read back through the
  fold is its launch contents.
-/
import proofs.«175668_j16295105921565_2_alg».proof.Proof.Gen.Kernel.Launch
import proofs.«175668_j16295105921565_2_alg».proof.Proof.Gen.Kernel.Skeleton
import proofs.«175668_j16295105921565_2_alg».proof.Proof.Gen.Kernel.Points
import proofs.«175668_j16295105921565_2_alg».proof.Proof.WordStatsBody
import proofs.«175668_j16295105921565_2_alg».proof.Proof.WordNormBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the statistics launch: its arrays at what the pipeline leaves, every other buffer as entered. -/
def W1 (c : Dev nD) : Valuation τ sig (Elt F) :=
  Pipeline.withArrays spec0 c (W0 m ρ c) fun w => (Stats.dat (V0 m ρ) c).arrAt w cfg0.N
theorem W1_arr (c : Dev nD) (w : Fin cfg0.W) :
    W1 m ρ c (Proc.devRef .tc (Pipeline.arrRef spec0 w)) = (Stats.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Stats.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After each of the three pieces of the host stretch between the launches. -/
abbrev W2 : Dev nD → Valuation τ sig (Elt F) := fun c => StableHlo.after main_part0_ops0 (W1 m ρ c)
abbrev W3 : Dev nD → Valuation τ sig (Elt F) := fun c => StableHlo.after main_part1_ops0 (W2 m ρ c)
abbrev W4 : Dev nD → Valuation τ sig (Elt F) := fun c => StableHlo.after main_part2_ops0 (W3 m ρ c)
abbrev V4 : (c : Dev nD) → (b : Ref sig .tc) → Buf (Elt F) ((c : Thread nD τ).loc b) := fun c b => W4 m ρ c b
/-- After the normalize launch. -/
def W5 (c : Dev nD) : Valuation τ sig (Elt F) :=
  Pipeline.withArrays spec1 c (W4 m ρ c) fun w => (Norm.dat (V4 m ρ) c).arrAt w cfg1.N
theorem W5_arr (c : Dev nD) (w : Fin cfg1.W) :
    W5 m ρ c (Proc.devRef .tc (Pipeline.arrRef spec1 w)) = (Norm.dat (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (Norm.dat (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((Norm.dat (V4 m ρ) c).arrAt_in 0 rfl _).trans (Norm.A_eq (V4 m ρ) c 0))
    _ = W3 m ρ c (Proc.devRef .tc main_arg0) := StableHlo.after_of_forall_not_mem (b := Proc.devRef .tc main_arg0) _ _ (List.forall_iff_forall_mem.mp (by
          simp only [main_part2_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((Stats.dat (V0 m ρ) c).arrAt_in 0 rfl _).trans (Stats.A_eq (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [main_part2_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [main_part2_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [main_part2_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [main_part2_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Stats.dat (V0 m ρ) c
  | ⟨1, _⟩ => fun c => Norm.dat (V4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem part0_fresh : (main_part0_ops0 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor
theorem part2_fresh : (main_part2_ops0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The two launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stats.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Stats.hin (V0 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Stats.hout (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Norm.body_obligation (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg main_part0_ops0 main_part0_ops0_sub part0_fresh (W1 m ρ)),
    .host (hseg main_part1_ops0 main_part1_ops0_sub part1_fresh (W2 m ρ)),
    .host (hseg main_part2_ops0 main_part2_ops0_sub part2_fresh (W3 m ρ)),
    .region (reg1 m ρ) ]

theorem main_run (c : Dev nD) : main (F := F) c = Pipeline.Seg.run (segs m ρ) := (main_chain_windows c).trans (by chain_rfl)

set_option backward.isDefEq.respectTransparency.types false in
/-- THE RUN: from any memory with zero counters every weakly fair execution of @main on the TensorCores terminates,
    nothing faulting, and the final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: the run, read at the five argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run m ρ)

end Cert.Kernel.Run

end
-- ==== Proof.StatsRuns.lean ====
/-
  The statistics launch (the program's first kernel region): what is shared by its three control cases, and the body's
  run in each. The grid is 4 x 2 x 8; along its last axis the body sums a block of x [8,128,8,64] over its last two axes
  into two accumulators [8,128,1,1] kept in scratch — the sum and the sum of squares —, which it resets at the first of
  the eight points, and copies into the two output blocks at the last. So a point is in one of three cases, by its
  position modulo 8: 0 (reset, then add), 1 … 6 (add), 7 (add, then emit). Each run is stated on any whole staging
  buffers; the pieces its stores leave are found by running the body.
-/
import proofs.«175668_j16295105921565_2_alg».proof.Proof.Gen.KernelIdeal.Launch
import proofs.«175668_j16295105921565_2_alg».proof.Proof.Gen.KernelIdeal.Skeleton
import proofs.«175668_j16295105921565_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates, and their closed forms over the grid -/

/-- "This is the first point along the summed axis": the body's first `if`. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the last point along the summed axis": the body's second `if`. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle: the outputs are written back only at the emitting points -/

theorem live0 : ∀ t : Fin cfg0.N, cfg0.idle 0 (grid0.coords t) = false := by decide +kernel
theorem idle1 : ∀ t : Fin cfg0.N, ¬condLast (grid0.coords t) → cfg0.idle 1 (grid0.coords t) = true := by decide +kernel
theorem idle2 : ∀ t : Fin cfg0.N, ¬condLast (grid0.coords t) → cfg0.idle 2 (grid0.coords t) = true := by decide +kernel
theorem noFlush1 : ∀ t : Fin cfg0.N, ¬condLast (grid0.coords t) → (cfg0.win 1).flush t = false := by decide +kernel
theorem noFlush2 : ∀ t : Fin cfg0.N, ¬condLast (grid0.coords t) → (cfg0.win 2).flush t = false := by decide +kernel
theorem live1 : ∀ t : Fin cfg0.N, condLast (grid0.coords t) → cfg0.idle 1 (grid0.coords t) = false := by decide +kernel
theorem live2 : ∀ t : Fin cfg0.N, condLast (grid0.coords t) → cfg0.idle 2 (grid0.coords t) = false := by decide +kernel

/-! ## The buffers the runs are stated through -/

/-- One staging buffer of each output window and the two scratch accumulators, as views. -/
abbrev VO1 : View sig .tc .vmem S8x128x1x1 .f32 := (Memref.whole cc0_stg1_0 : Memref sig .tc .vmem S8x128x1x1 .f32).view
abbrev VO2 : View sig .tc .vmem S8x128x1x1 .f32 := (Memref.whole cc0_stg2_0 : Memref sig .tc .vmem S8x128x1x1 .f32).view
abbrev ms0 (t : Fin cfg0.N) : Memref sig .tc .vmem S8x128x8x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128x1x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128x1x1 .f32 := win0_2.stage (cfg0.slots t 2)
abbrev hs2 (t : Fin cfg0.N) : (ms2 t).IsWhole := hstage0_2 ((cfg0.slots t 2).cast nbuf0_2)
abbrev accM : Memref sig .tc .vmem S8x128x1x1 .f32 := Memref.whole cc0_scratch0
abbrev sqM : Memref sig .tc .vmem S8x128x1x1 .f32 := Memref.whole cc0_scratch1
abbrev VAcc : View sig .tc .vmem S8x128x1x1 .f32 := accM.view
abbrev VSq : View sig .tc .vmem S8x128x1x1 .f32 := sqM.view

/-! ## The body's run, case by case -/

set_option maxHeartbeats 2000000 in
/-- At a FIRST point: the input block at `x0`, the output buffers handed back untouched, the accumulators at anything;
    the body leaves each accumulator with its pieces written (the reset, then the block's sums added). -/
noncomputable def runFirst (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : condFirst i) (hc1 : ¬condLast i)
    (x0 : Vec F S8x128x8x64 .f32) :
    Σ' (LA : List (View.Piece (Elt F) S8x128x1x1 .f32)), { LQ : List (View.Piece (Elt F) S8x128x1x1 .f32) //
      ∀ (xi1 xi2 : Vec F S8x128x1x1 .f32) (E : Set ℕ) (K : PUnit → sProp 𝕄),
        iprop(owns (c : Thread nD τ) arg3 fullShare x0 ∗ owns (c : Thread nD τ) arg4 fullShare xi1 ∗ owns (c : Thread nD τ) arg5 fullShare xi2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare xi1 ∗ owns (c : Thread nD τ) arg5 fullShare xi2 ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LQ)) -∗ K ⟨⟩))
          ⊢ wp frame (wpE (defs₀ (F := F)) Variants.none c none) E (cc0__reduce_kernel i arg3 harg3 arg4 harg4 arg5 harg5 arg6 harg6 arg7 harg7) K } := by
  refine ⟨?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%da, %fa, -, HA⟩, ⟨%dq, %fq, -, HQ⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HA]; · iexists _; iexact HA
    iexists _; iexact HQ

set_option maxHeartbeats 2000000 in
/-- At a MIDDLE point: the accumulators at what the point before left (`xa`, `xq`); the body adds the block's sums. -/
noncomputable def runMid (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : ¬condLast i)
    (x0 : Vec F S8x128x8x64 .f32) (xa xq : Vec F S8x128x1x1 .f32) :
    Σ' (LA : List (View.Piece (Elt F) S8x128x1x1 .f32)), { LQ : List (View.Piece (Elt F) S8x128x1x1 .f32) //
      ∀ (xi1 xi2 : Vec F S8x128x1x1 .f32) (E : Set ℕ) (K : PUnit → sProp 𝕄),
        iprop(owns (c : Thread nD τ) arg3 fullShare x0 ∗ owns (c : Thread nD τ) arg4 fullShare xi1 ∗ owns (c : Thread nD τ) arg5 fullShare xi2 ∗ owns (c : Thread nD τ) arg6 fullShare xa ∗ owns (c : Thread nD τ) arg7 fullShare xq
            ∗ (iprop(owns (c : Thread nD τ) arg3 fullShare x0 ∗ owns (c : Thread nD τ) arg4 fullShare xi1 ∗ owns (c : Thread nD τ) arg5 fullShare xi2 ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LQ)) -∗ K ⟨⟩))
          ⊢ wp frame (wpE (defs₀ (F := F)) Variants.none c none) E (cc0__reduce_kernel i arg3 harg3 arg4 harg4 arg5 harg5 arg6 harg6 arg7 harg7) K } := by
  refine ⟨?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%fa, %hfa, HA⟩, ⟨%fq, %hfq, HQ⟩, Hk⟩
    obtain rfl := harg3.eq_unread hf0; obtain rfl := harg4.eq_unread hf1; obtain rfl := harg5.eq_unread hf2
    obtain rfl := harg6.eq_unread hfa; obtain rfl := harg7.eq_unread hfq
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HA]; · iexists _; iexact HA
    iexists _; iexact HQ

set_option maxHeartbeats 2000000 in
/-- At a LAST point: the accumulators at what the point before left, the output buffers at anything; the body adds the
    block's sums and copies each accumulator into its output block. -/
noncomputable def runLast (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i)
    (x0 : Vec F S8x128x8x64 .f32) (xa xq : Vec F S8x128x1x1 .f32) :
    Σ' (L1 : List (View.Piece (Elt F) S8x128x1x1 .f32)) (L2 : List (View.Piece (Elt F) S8x128x1x1 .f32)) (LA : List (View.Piece (Elt F) S8x128x1x1 .f32)), { LQ : List (View.Piece (Elt F) S8x128x1x1 .f32) //
      ∀ (E : Set ℕ) (K : PUnit → sProp 𝕄),
        iprop(owns (c : Thread nD τ) arg3 fullShare x0 ∗ (∃ d, owns (c : Thread nD τ) arg4 fullShare d) ∗ (∃ d, owns (c : Thread nD τ) arg5 fullShare d) ∗ owns (c : Thread nD τ) arg6 fullShare xa ∗ owns (c : Thread nD τ) arg7 fullShare xq
            ∗ (iprop(owns (c : Thread nD τ) arg3 fullShare x0 ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LQ)) -∗ K ⟨⟩))
          ⊢ wp frame (wpE (defs₀ (F := F)) Variants.none c none) E (cc0__reduce_kernel i arg3 harg3 arg4 harg4 arg5 harg5 arg6 harg6 arg7 harg7) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, ⟨%fa, %hfa, HA⟩, ⟨%fq, %hfq, HQ⟩, Hk⟩
    obtain rfl := harg3.eq_unread hf0
    obtain rfl := harg6.eq_unread hfa; obtain rfl := harg7.eq_unread hfq
    sl_exec (disch := first | exact hc0 | exact hc1)
    sl_step
    iapply Hk
    isplitl [H0]
    · iexists _; isplitr; · ipureintro; exact harg3.read_unread _
      iexact H0
    isplitl [H1]; · iexists _; iexact H1
    isplitl [H2]; · iexists _; iexact H2
    isplitl [HA]; · iexists _; iexact HA
    iexists _; iexact HQ

end Cert.KernelIdeal.Stats

end
-- ==== Proof.StatsBody.lean ====
/-
  The statistics launch at a PARAMETER `V` (the buffer contents when the region is entered): what its two output blocks
  and its two scratch accumulators hold after each grid point, by recursion on the point (a first point starts the
  accumulators afresh from the block's sums; a later one adds the block's sums to what the point before left; a last
  one also copies them out); the region invariant that carries the two accumulators from point to point; the
  pipeline's proof data; and the body obligation at every point, by cases on the point's position modulo 8.
-/
import proofs.«175668_j16295105921565_2_alg».proof.Proof.Gen.KernelIdeal.Launch
import proofs.«175668_j16295105921565_2_alg».proof.Proof.Gen.KernelIdeal.Skeleton
import proofs.«175668_j16295105921565_2_alg».proof.Proof.Gen.KernelIdeal.Points
import proofs.«175668_j16295105921565_2_alg».proof.Proof.StatsRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block of the entry contents at every point. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The case of a point, from its position modulo 8 -/

theorem first_of (t : Fin cfg0.N) (h0 : t.val % 8 = 0) : condFirst (grid0.coords t) := (hcondFirst t).mpr h0
theorem notFirst_of (t : Fin cfg0.N) (h0 : ¬t.val % 8 = 0) : ¬condFirst (grid0.coords t) := fun h => h0 ((hcondFirst t).mp h)
theorem last_of (t : Fin cfg0.N) (h1 : t.val % 8 = 7) : condLast (grid0.coords t) := (hcondLast t).mpr h1
theorem notLast_of (t : Fin cfg0.N) (h1 : ¬t.val % 8 = 7) : ¬condLast (grid0.coords t) := fun h => h1 ((hcondLast t).mp h)
theorem notLast_of_first (t : Fin cfg0.N) (h0 : t.val % 8 = 0) : ¬condLast (grid0.coords t) :=
  notLast_of t (by omega)
theorem notFirst_of_last (t : Fin cfg0.N) (h1 : t.val % 8 = 7) : ¬condFirst (grid0.coords t) :=
  notFirst_of t (by omega)

/-! ## The runs at a grid point, and what their pieces read back to -/

/-- Pieces read back through each buffer's view, over contents that do not matter once the pieces cover it. -/
def accOf (L : List (View.Piece (Elt F) S8x128x1x1 .f32)) : Vec F S8x128x1x1 .f32 := VAcc.read (Elt F) (VAcc.writes (Elt F) VAcc.junk L)
def sqOf (L : List (View.Piece (Elt F) S8x128x1x1 .f32)) : Vec F S8x128x1x1 .f32 := VSq.read (Elt F) (VSq.writes (Elt F) VSq.junk L)
def o1Of (L : List (View.Piece (Elt F) S8x128x1x1 .f32)) : Vec F S8x128x1x1 .f32 := VO1.read (Elt F) (VO1.writes (Elt F) VO1.junk L)
def o2Of (L : List (View.Piece (Elt F) S8x128x1x1 .f32)) : Vec F S8x128x1x1 .f32 := VO2.read (Elt F) (VO2.writes (Elt F) VO2.junk L)

noncomputable def runFirstAt (c : Dev nD) (t : Fin cfg0.N) (h0 : t.val % 8 = 0) :=
  runFirst (F := F) c (grid0.coords t) (ms0 t) (hs0 t) (ms1 t) (hs1 t) (ms2 t) (hs2 t) accM (Memref.isWhole_whole _) sqM (Memref.isWhole_whole _) (first_of t h0) (notLast_of_first t h0) (iblk V c 0 t)
noncomputable def runMidAt (c : Dev nD) (t : Fin cfg0.N) (h0 : ¬t.val % 8 = 0) (h1 : ¬t.val % 8 = 7) (xa xq : Vec F S8x128x1x1 .f32) :=
  runMid (F := F) c (grid0.coords t) (ms0 t) (hs0 t) (ms1 t) (hs1 t) (ms2 t) (hs2 t) accM (Memref.isWhole_whole _) sqM (Memref.isWhole_whole _) (notFirst_of t h0) (notLast_of t h1) (iblk V c 0 t) xa xq
noncomputable def runLastAt (c : Dev nD) (t : Fin cfg0.N) (h1 : t.val % 8 = 7) (xa xq : Vec F S8x128x1x1 .f32) :=
  runLast (F := F) c (grid0.coords t) (ms0 t) (hs0 t) (ms1 t) (hs1 t) (ms2 t) (hs2 t) accM (Memref.isWhole_whole _) sqM (Memref.isWhole_whole _) (notFirst_of_last t h1) (last_of t h1) (iblk V c 0 t) xa xq

/-- Each run's pieces for each buffer tile it (one whole store at least), so they cover it. -/
theorem coverFirstA (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : condFirst i) (hc1 : ¬condLast i) (x0 : Vec F S8x128x8x64 .f32) (y : S8x128x1x1.Idx) :
    ∃ pc ∈ (runFirst (F := F) c i arg3 harg3 arg4 harg4 arg5 harg5 arg6 harg6 arg7 harg7 hc0 hc1 x0).1, y ∈ pc.1.set := View.cover_of_tiledL _ S8x128x1x1.size (by sl_kernel_rfl) y
theorem coverFirstQ (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : condFirst i) (hc1 : ¬condLast i) (x0 : Vec F S8x128x8x64 .f32) (y : S8x128x1x1.Idx) :
    ∃ pc ∈ (runFirst (F := F) c i arg3 harg3 arg4 harg4 arg5 harg5 arg6 harg6 arg7 harg7 hc0 hc1 x0).2.1, y ∈ pc.1.set := View.cover_of_tiledL _ S8x128x1x1.size (by sl_kernel_rfl) y
theorem coverMidA (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : ¬condLast i) (x0 : Vec F S8x128x8x64 .f32) (xa xq : Vec F S8x128x1x1 .f32) (y : S8x128x1x1.Idx) :
    ∃ pc ∈ (runMid (F := F) c i arg3 harg3 arg4 harg4 arg5 harg5 arg6 harg6 arg7 harg7 hc0 hc1 x0 xa xq).1, y ∈ pc.1.set := View.cover_of_tiledL _ S8x128x1x1.size (by sl_kernel_rfl) y
theorem coverMidQ (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : ¬condLast i) (x0 : Vec F S8x128x8x64 .f32) (xa xq : Vec F S8x128x1x1 .f32) (y : S8x128x1x1.Idx) :
    ∃ pc ∈ (runMid (F := F) c i arg3 harg3 arg4 harg4 arg5 harg5 arg6 harg6 arg7 harg7 hc0 hc1 x0 xa xq).2.1, y ∈ pc.1.set := View.cover_of_tiledL _ S8x128x1x1.size (by sl_kernel_rfl) y
theorem coverLast1 (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i) (x0 : Vec F S8x128x8x64 .f32) (xa xq : Vec F S8x128x1x1 .f32) (y : S8x128x1x1.Idx) :
    ∃ pc ∈ (runLast (F := F) c i arg3 harg3 arg4 harg4 arg5 harg5 arg6 harg6 arg7 harg7 hc0 hc1 x0 xa xq).1, y ∈ pc.1.set := View.cover_of_tiledL _ S8x128x1x1.size (by sl_kernel_rfl) y
theorem coverLast2 (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i) (x0 : Vec F S8x128x8x64 .f32) (xa xq : Vec F S8x128x1x1 .f32) (y : S8x128x1x1.Idx) :
    ∃ pc ∈ (runLast (F := F) c i arg3 harg3 arg4 harg4 arg5 harg5 arg6 harg6 arg7 harg7 hc0 hc1 x0 xa xq).2.1, y ∈ pc.1.set := View.cover_of_tiledL _ S8x128x1x1.size (by sl_kernel_rfl) y
theorem coverLastA (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i) (x0 : Vec F S8x128x8x64 .f32) (xa xq : Vec F S8x128x1x1 .f32) (y : S8x128x1x1.Idx) :
    ∃ pc ∈ (runLast (F := F) c i arg3 harg3 arg4 harg4 arg5 harg5 arg6 harg6 arg7 harg7 hc0 hc1 x0 xa xq).2.2.1, y ∈ pc.1.set := View.cover_of_tiledL _ S8x128x1x1.size (by sl_kernel_rfl) y
theorem coverLastQ (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i) (x0 : Vec F S8x128x8x64 .f32) (xa xq : Vec F S8x128x1x1 .f32) (y : S8x128x1x1.Idx) :
    ∃ pc ∈ (runLast (F := F) c i arg3 harg3 arg4 harg4 arg5 harg5 arg6 harg6 arg7 harg7 hc0 hc1 x0 xa xq).2.2.2.1, y ∈ pc.1.set := View.cover_of_tiledL _ S8x128x1x1.size (by sl_kernel_rfl) y

/-! ## The accumulation -/

/-- What nothing consults: an output block's contents at a point where the body does not store into it and the
    pipeline does not write it back. -/
def idleOut : Vec F S8x128x1x1 .f32 := VO1.read (Elt F) VO1.junk

/-- After the body at position `n`: (output block 1, output block 2, the sum accumulator, the sum-of-squares
    accumulator). -/
def outsAt (c : Dev nD) : (n : ℕ) → n < cfg0.N → Vec F S8x128x1x1 .f32 × Vec F S8x128x1x1 .f32 × Vec F S8x128x1x1 .f32 × Vec F S8x128x1x1 .f32
  | 0, hn => (idleOut, idleOut, accOf (runFirstAt V c ⟨0, hn⟩ (Nat.zero_mod _)).1, sqOf (runFirstAt V c ⟨0, hn⟩ (Nat.zero_mod _)).2.1)
  | n + 1, hn =>
    if h0 : (n + 1) % 8 = 0 then
      (idleOut, idleOut, accOf (runFirstAt V c ⟨n + 1, hn⟩ h0).1, sqOf (runFirstAt V c ⟨n + 1, hn⟩ h0).2.1)
    else if h1 : (n + 1) % 8 = 7 then
      (o1Of (runLastAt V c ⟨n + 1, hn⟩ h1 (outsAt c n (Nat.lt_of_succ_lt hn)).2.2.1 (outsAt c n (Nat.lt_of_succ_lt hn)).2.2.2).1,
       o2Of (runLastAt V c ⟨n + 1, hn⟩ h1 (outsAt c n (Nat.lt_of_succ_lt hn)).2.2.1 (outsAt c n (Nat.lt_of_succ_lt hn)).2.2.2).2.1,
       accOf (runLastAt V c ⟨n + 1, hn⟩ h1 (outsAt c n (Nat.lt_of_succ_lt hn)).2.2.1 (outsAt c n (Nat.lt_of_succ_lt hn)).2.2.2).2.2.1,
       sqOf (runLastAt V c ⟨n + 1, hn⟩ h1 (outsAt c n (Nat.lt_of_succ_lt hn)).2.2.1 (outsAt c n (Nat.lt_of_succ_lt hn)).2.2.2).2.2.2.1)
    else
      (idleOut, idleOut,
       accOf (runMidAt V c ⟨n + 1, hn⟩ h0 h1 (outsAt c n (Nat.lt_of_succ_lt hn)).2.2.1 (outsAt c n (Nat.lt_of_succ_lt hn)).2.2.2).1,
       sqOf (runMidAt V c ⟨n + 1, hn⟩ h0 h1 (outsAt c n (Nat.lt_of_succ_lt hn)).2.2.1 (outsAt c n (Nat.lt_of_succ_lt hn)).2.2.2).2.1)

/-- The contents the point before `t` left (for a point that is not the first of all). -/
abbrev prevAt (c : Dev nD) (t : Fin cfg0.N) : Vec F S8x128x1x1 .f32 × Vec F S8x128x1x1 .f32 × Vec F S8x128x1x1 .f32 × Vec F S8x128x1x1 .f32 :=
  outsAt V c (t.val - 1) (Nat.lt_of_le_of_lt (Nat.sub_le _ _) t.isLt)

theorem outsAt_first (c : Dev nD) (t : Fin cfg0.N) (h0 : t.val % 8 = 0) :
    outsAt V c t.val t.isLt = (idleOut, idleOut, accOf (runFirstAt V c t h0).1, sqOf (runFirstAt V c t h0).2.1) := by
  obtain ⟨n, hn⟩ := t
  cases n with
  | zero => exact rfl
  | succ n => exact (dif_pos h0).trans rfl

theorem outsAt_mid (c : Dev nD) (t : Fin cfg0.N) (h0 : ¬t.val % 8 = 0) (h1 : ¬t.val % 8 = 7) :
    outsAt V c t.val t.isLt = (idleOut, idleOut,
      accOf (runMidAt V c t h0 h1 (prevAt V c t).2.2.1 (prevAt V c t).2.2.2).1,
      sqOf (runMidAt V c t h0 h1 (prevAt V c t).2.2.1 (prevAt V c t).2.2.2).2.1) := by
  obtain ⟨n, hn⟩ := t
  cases n with
  | zero => exact absurd (Nat.zero_mod _) h0
  | succ n => exact (dif_neg h0).trans ((dif_neg h1).trans rfl)

theorem outsAt_last (c : Dev nD) (t : Fin cfg0.N) (h1 : t.val % 8 = 7) :
    outsAt V c t.val t.isLt =
      (o1Of (runLastAt V c t h1 (prevAt V c t).2.2.1 (prevAt V c t).2.2.2).1,
       o2Of (runLastAt V c t h1 (prevAt V c t).2.2.1 (prevAt V c t).2.2.2).2.1,
       accOf (runLastAt V c t h1 (prevAt V c t).2.2.1 (prevAt V c t).2.2.2).2.2.1,
       sqOf (runLastAt V c t h1 (prevAt V c t).2.2.1 (prevAt V c t).2.2.2).2.2.2.1) := by
  obtain ⟨n, hn⟩ := t
  cases n with
  | zero => exact absurd (show (0 : ℕ) % 8 = 7 from h1) (by decide)
  | succ n => exact (dif_neg (show ¬(n + 1) % 8 = 0 by have : (n + 1) % 8 = 7 := h1; omega)).trans ((dif_pos h1).trans rfl)

/-! ## The region invariant: the accumulators carried from point to point -/

/-- The scoped buffers of the core that are neither a staging buffer of this launch nor an accumulator (the other
    launch's staging buffers), each at some contents. -/
def otherStage (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA_eq (c : Dev nD) :
    (Pipeline.ΦA spec0 c : sProp 𝕄)
      = iprop(iprop((∃ d, owns (c : Thread nD τ) accM fullShare d) ∗ (∃ d, owns (c : Thread nD τ) sqM fullShare d) ∗ otherStage c) ∗ (∃ r, prngReg c r)) := by
  unfold Pipeline.ΦA otherStage; rw [scopedRest0_eq]; simp only [accM, sqM, owns_whole]; try rfl

/-- Before position `n`: at the very first point whatever the launch hands over; afterwards the two accumulators at what
    the point before left in them, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accM fullShare (outsAt V c n hn).2.2.1 ∗ owns (c : Thread nD τ) sqM fullShare (outsAt V c n hn).2.2.2 ∗ otherStage c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare (outsAt V c n hn).2.2.1 ∗ owns (c : Thread nD τ) sqM fullShare (outsAt V c n hn).2.2.2 ∗ otherStage c) ∗ (∃ r, prngReg c r)) := rfl

theorem PhiS_pos (c : Dev nD) (n : ℕ) (h : n ≤ cfg0.N) (hz : n ≠ 0) :
    PhiS V c n h = iprop(iprop(owns (c : Thread nD τ) accM fullShare (outsAt V c (n - 1) (by omega)).2.2.1 ∗ owns (c : Thread nD τ) sqM fullShare (outsAt V c (n - 1) (by omega)).2.2.2 ∗ otherStage c) ∗ (∃ r, prngReg c r)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
    | ⟨2, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = (outsAt V c t.val t.isLt).1 := by dsimp only [dat]
theorem after2 (c : Dev nD) (t : Fin cfg0.N) : (dat V c).after 2 t = (outsAt V c t.val t.isLt).2.1 := by dsimp only [dat]

theorem before0 (c : Dev nD) (t : Fin cfg0.N) (d) : (dat V c).before 0 t d = iblk V c 0 t :=
  before0_of V (dat V c) (A_eq V c 0) (after0 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves0 (c : Dev nD) (t : Fin cfg0.N) :
    (dat V c).leavesExact 0 t = owns (c : Thread nD τ) (ms0 t) fullShare (iblk V c 0 t) := by
  unfold Dat.leavesExact; rw [live0 t, after0]

set_option maxHeartbeats 4800000 in
/-- The body at any point, by its case. The invariant hands the body the accumulators at what the point before left
    (at anything, at the very first point; a first point does not read them) and takes them back at this point's
    contents; an idle output's buffer goes through untouched; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0]
  rw [show (dat V c).owesAt () t.succ = (dat V c).owesAt () t.castSucc from rfl]
  rw [show (dat V c).Φ t.succ = PhiS V c (t.val + 1) t.isLt from rfl, PhiS_succ, leaves0]
  by_cases h0 : t.val % 8 = 0
  · rw [Dat.leavesExact_idle (dat V c) 1 t (idle1 t (notLast_of_first t h0)) (noFlush1 t (notLast_of_first t h0)),
      Dat.leavesExact_idle (dat V c) 2 t (idle2 t (notLast_of_first t h0)) (noFlush2 t (notLast_of_first t h0))]
    rw [outsAt_first V c t h0]
    unfold accOf sqOf runFirstAt; (try dsimp only)
    by_cases hz : t.val = 0
    · rw [PhiS_castSucc V c t, PhiS_zero V c _ _ hz, PhiA_eq]
      iintro ⟨⟨⟨HA, HQ, HR⟩, Hg⟩, Ho, ⟨%d0, H0⟩, ⟨%d1, H1⟩, ⟨%d2, H2⟩⟩
      iapply ((runFirst c (grid0.coords t) (ms0 t) (hs0 t) (ms1 t) (hs1 t) (ms2 t) (hs2 t) accM (Memref.isWhole_whole _) sqM (Memref.isWhole_whole _) (first_of t h0) (notLast_of_first t h0) (iblk V c 0 t)).2.2 _ _ Set.univ _)
      isplitl [H0]; · iexact H0
      isplitl [H1]; · iexact H1
      isplitl [H2]; · iexact H2
      isplitl [HA]; · iexact HA
      isplitl [HQ]; · iexact HQ
      iintro ⟨H0, H1, H2, ⟨%ea, HA⟩, ⟨%eq, HQ⟩⟩
      isplitl [HA HQ HR Hg]
      · isplitl [HA HQ HR]
        · isplitl [HA]
          · unfold owns; iexists _; isplitr
            swap; · iexact HA
            ipureintro; exact View.read_writes_of_cover _ _ _ _ _ (coverFirstA c _ _ _ _ _ _ _ _ _ _ _ _ _ _)
          isplitl [HQ]
          · unfold owns; iexists _; isplitr
            swap; · iexact HQ
            ipureintro; exact View.read_writes_of_cover _ _ _ _ _ (coverFirstQ c _ _ _ _ _ _ _ _ _ _ _ _ _ _)
          iexact HR
        iexact Hg
      isplitl [Ho]; · iexact Ho
      isplitl [H0]; · iexact H0
      isplitl [H1]; · iexists _; iexact H1
      iexists _; iexact H2
    · rw [PhiS_castSucc V c t, PhiS_pos V c _ _ hz]
      iintro ⟨⟨⟨HA, HQ, HR⟩, Hg⟩, Ho, ⟨%d0, H0⟩, ⟨%d1, H1⟩, ⟨%d2, H2⟩⟩
      iapply ((runFirst c (grid0.coords t) (ms0 t) (hs0 t) (ms1 t) (hs1 t) (ms2 t) (hs2 t) accM (Memref.isWhole_whole _) sqM (Memref.isWhole_whole _) (first_of t h0) (notLast_of_first t h0) (iblk V c 0 t)).2.2 _ _ Set.univ _)
      isplitl [H0]; · iexact H0
      isplitl [H1]; · iexact H1
      isplitl [H2]; · iexact H2
      isplitl [HA]; · iexists _; iexact HA
      isplitl [HQ]; · iexists _; iexact HQ
      iintro ⟨H0, H1, H2, ⟨%ea, HA⟩, ⟨%eq, HQ⟩⟩
      isplitl [HA HQ HR Hg]
      · isplitl [HA HQ HR]
        · isplitl [HA]
          · unfold owns; iexists _; isplitr
            swap; · iexact HA
            ipureintro; exact View.read_writes_of_cover _ _ _ _ _ (coverFirstA c _ _ _ _ _ _ _ _ _ _ _ _ _ _)
          isplitl [HQ]
          · unfold owns; iexists _; isplitr
            swap; · iexact HQ
            ipureintro; exact View.read_writes_of_cover _ _ _ _ _ (coverFirstQ c _ _ _ _ _ _ _ _ _ _ _ _ _ _)
          iexact HR
        iexact Hg
      isplitl [Ho]; · iexact Ho
      isplitl [H0]; · iexact H0
      isplitl [H1]; · iexists _; iexact H1
      iexists _; iexact H2
  · have hz : t.val ≠ 0 := fun e => h0 (by rw [e])
    by_cases h1 : t.val % 8 = 7
    · rw [show (dat V c).leavesExact 1 t = owns (c : Thread nD τ) (ms1 t) fullShare ((dat V c).after 1 t) from by
          unfold Dat.leavesExact; rw [live1 t (last_of t h1)], after1]
      rw [show (dat V c).leavesExact 2 t = owns (c : Thread nD τ) (ms2 t) fullShare ((dat V c).after 2 t) from by
          unfold Dat.leavesExact; rw [live2 t (last_of t h1)], after2]
      rw [outsAt_last V c t h1]
      unfold o1Of o2Of accOf sqOf runLastAt; (try dsimp only)
      rw [PhiS_castSucc V c t, PhiS_pos V c _ _ hz]
      iintro ⟨⟨⟨HA, HQ, HR⟩, Hg⟩, Ho, ⟨%d0, H0⟩, ⟨%d1, H1⟩, ⟨%d2, H2⟩⟩
      iapply ((runLast c (grid0.coords t) (ms0 t) (hs0 t) (ms1 t) (hs1 t) (ms2 t) (hs2 t) accM (Memref.isWhole_whole _) sqM (Memref.isWhole_whole _) (notFirst_of_last t h1) (last_of t h1) (iblk V c 0 t) _ _).2.2.2.2 Set.univ _)
      isplitl [H0]; · iexact H0
      isplitl [H1]; · iexists _; iexact H1
      isplitl [H2]; · iexists _; iexact H2
      isplitl [HA]; · iexact HA
      isplitl [HQ]; · iexact HQ
      iintro ⟨H0, ⟨%e1, H1⟩, ⟨%e2, H2⟩, ⟨%ea, HA⟩, ⟨%eq, HQ⟩⟩
      isplitl [HA HQ HR Hg]
      · isplitl [HA HQ HR]
        · isplitl [HA]
          · unfold owns; iexists _; isplitr
            swap; · iexact HA
            ipureintro; exact View.read_writes_of_cover _ _ _ _ _ (coverLastA c _ _ _ _ _ _ _ _ _ _ _ _ _ _ _ _)
          isplitl [HQ]
          · unfold owns; iexists _; isplitr
            swap; · iexact HQ
            ipureintro; exact View.read_writes_of_cover _ _ _ _ _ (coverLastQ c _ _ _ _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (coverLast1 c _ _ _ _ _ _ _ _ _ _ _ _ _ _ _ _)
      unfold owns; iexists _; isplitr
      swap; · iexact H2
      ipureintro; exact View.read_writes_of_cover _ _ _ _ _ (coverLast2 c _ _ _ _ _ _ _ _ _ _ _ _ _ _ _ _)
    · rw [Dat.leavesExact_idle (dat V c) 1 t (idle1 t (notLast_of t h1)) (noFlush1 t (notLast_of t h1)),
        Dat.leavesExact_idle (dat V c) 2 t (idle2 t (notLast_of t h1)) (noFlush2 t (notLast_of t h1))]
      rw [outsAt_mid V c t h0 h1]
      unfold accOf sqOf runMidAt; (try dsimp only)
      rw [PhiS_castSucc V c t, PhiS_pos V c _ _ hz]
      iintro ⟨⟨⟨HA, HQ, HR⟩, Hg⟩, Ho, ⟨%d0, H0⟩, ⟨%d1, H1⟩, ⟨%d2, H2⟩⟩
      iapply ((runMid c (grid0.coords t) (ms0 t) (hs0 t) (ms1 t) (hs1 t) (ms2 t) (hs2 t) accM (Memref.isWhole_whole _) sqM (Memref.isWhole_whole _) (notFirst_of t h0) (notLast_of t h1) (iblk V c 0 t) _ _).2.2 _ _ Set.univ _)
      isplitl [H0]; · iexact H0
      isplitl [H1]; · iexact H1
      isplitl [H2]; · iexact H2
      isplitl [HA]; · iexact HA
      isplitl [HQ]; · iexact HQ
      iintro ⟨H0, H1, H2, ⟨%ea, HA⟩, ⟨%eq, HQ⟩⟩
      isplitl [HA HQ HR Hg]
      · isplitl [HA HQ HR]
        · isplitl [HA]
          · unfold owns; iexists _; isplitr
            swap; · iexact HA
            ipureintro; exact View.read_writes_of_cover _ _ _ _ _ (coverMidA c _ _ _ _ _ _ _ _ _ _ _ _ _ _ _ _)
          isplitl [HQ]
          · unfold owns; iexists _; isplitr
            swap; · iexact HQ
            ipureintro; exact View.read_writes_of_cover _ _ _ _ _ (coverMidQ c _ _ _ _ _ _ _ _ _ _ _ _ _ _ _ _)
          iexact HR
        iexact Hg
      isplitl [Ho]; · iexact Ho
      isplitl [H0]; · iexact H0
      isplitl [H1]; · iexists _; iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives that back: the accumulators' named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  iintro ⟨⟨HA, HQ, HR⟩, Hg⟩
  isplitl [HA HQ HR]
  · isplitl [HA]; · iexists _; iexact HA
    isplitl [HQ]; · iexists _; iexact HQ
    iexact HR
  iexact Hg

end Region

end Cert.KernelIdeal.Stats

end
-- ==== Proof.NormBody.lean ====
/-
  The normalize-and-affine launch (the program's second kernel region) at a PARAMETER `V`, the buffer contents when the
  region is entered. At every grid point the body loads a block of x [8,128,8,64], the per-(n,c) mean and variance
  columns [8,128,1,1] and the per-channel weight and bias columns [1,128,1,1], and stores ((x - mean) / sqrt var) * weight
  + bias, broadcast over the block, into the output block, which it covers with one whole store. Nothing is kept between
  points. Stated here: what the output block holds after the body as a function of the five input blocks (`outBlock`),
  the body's triple, the pipeline's proof data over the region invariant that only lends the scoped rest and the
  generator register, and the body obligation at every point.
-/
import proofs.«175668_j16295105921565_2_alg».proof.Proof.Gen.KernelIdeal.Launch
import proofs.«175668_j16295105921565_2_alg».proof.Proof.Gen.KernelIdeal.Skeleton
import proofs.«175668_j16295105921565_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the entry contents at every grid point, whether the
    pipeline fetched it there or kept it from the point before (its block index has not moved then). -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the entry contents at every grid point, whether the
    pipeline fetched it there or kept it from the point before (its block index has not moved then). -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the entry contents at every grid point, whether the
    pipeline fetched it there or kept it from the point before (its block index has not moved then). -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the entry contents at every grid point, whether the
    pipeline fetched it there or kept it from the point before (its block index has not moved then). -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block of the entry contents at every grid point, whether the
    pipeline fetched it there or kept it from the point before (its block index has not moved then). -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rX : Rect S8x128x8x64 := Rect.unit (s := S8x128x8x64) ![0, 0, 0, 0] S8x128x8x64.size inb_S8x128x8x64_S8x128x8x64_0_0_0_0
abbrev rM : Rect S8x128x1x1 := Rect.unit (s := S8x128x1x1) ![0, 0, 0, 0] S8x128x1x1.size inb_S8x128x1x1_S8x128x1x1_0_0_0_0
abbrev rC : Rect S1x128x1x1 := Rect.unit (s := S1x128x1x1) ![0, 0, 0, 0] S1x128x1x1.size inb_S1x128x1x1_S1x128x1x1_0_0_0_0

/-- The output block after the body: its one whole store of the normalized, scaled and shifted block. -/
def outBlock (x0 : Vec F S8x128x8x64 .f32) (x1 x2 : Vec F S8x128x1x1 .f32) (x3 x4 : Vec F S1x128x1x1 .f32) : Vec F S8x128x8x64 .f32 :=
  View.canon [⟨rX, k1_pay1 (View.ld x0 rX) (View.ld x1 rM) (View.ld x2 rM) (View.ld x3 rC) (View.ld x4 rC)⟩]

/-- The one store covers the block. -/
theorem outCover (p0 : Vec F S8x128x8x64 .f32) (y : S8x128x8x64.Idx) :
    ∃ pc ∈ ([⟨rX, p0⟩] : List (View.Piece (Elt F) S8x128x8x64 .f32)), y ∈ pc.1.set :=
  View.cover_of_tiled [⟨rX, p0⟩] S8x128x8x64.size (by rfl) y

set_option maxHeartbeats 2000000 in
/-- The body on whole staging buffers, the inputs' at contents `x0 … x4` and the output's at anything, runs to a
    state holding the inputs' as they were and the output's at `outBlock` of them. -/
theorem sound_kernel (c : Dev nD) (E : Set ℕ) (i : grid1.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S1x128x1x1 .f32) (harg6 : arg6.IsWhole) (arg7 : Memref sig .tc .vmem S1x128x1x1 .f32) (harg7 : arg7.IsWhole) (arg8 : Memref sig .tc .vmem S8x128x8x64 .f32) (harg8 : arg8.IsWhole)
    (x0 : Vec F S8x128x8x64 .f32) (x1 x2 : Vec F S8x128x1x1 .f32) (x3 x4 : Vec F S1x128x1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (outBlock x0 x1 x2 x3 x4)) -∗ K ⟨⟩))
      ⊢ wp frame (wpE (defs₀ (F := F)) Variants.none c none) E (cc1__norm_kernel i arg3 harg3 arg4 harg4 arg5 harg5 arg6 harg6 arg7 harg7 arg8 harg8) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-- The proof data of this pipeline on core `c`: the arrays as the region finds them; after the body each input's
    buffer still at its block and the output's at `outBlock` of the input blocks; the invariant lends the scoped rest and
    the generator register; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) :
    (dat V c).after 5 t = outBlock (iblk V c 0 t) (iblk V c 1 t) (iblk V c 2 t) (iblk V c 3 t) (iblk V c 4 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

set_option maxHeartbeats 2000000 in
/-- The body at any point: the inputs' buffers hold their blocks, so `sound_kernel` applies; the invariant and the
    core's tally pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Region

end Cert.KernelIdeal.Norm

end
-- ==== Proof.KernelRun.lean ====
/-
  The program's run from launch to return: the buffer contents at every boundary of @main as a fold from the launch
  memory (the statistics launch's two outputs at what its write-backs leave; the host stretch between the launches,
  in three pieces; the normalize launch's output at what its write-backs leave), the two launches and the three host
  pieces as segments over one thread state (every unscoped buffer at the boundary's contents, the generator register,
  nothing owed), and the launch theorem over them: every weakly fair execution terminates without a fault, and the
  final memory holds every unscoped buffer at the last boundary's contents. Each argument array read back through the
  fold is its launch contents.
-/
import proofs.«175668_j16295105921565_2_alg».proof.Proof.Gen.KernelIdeal.Launch
import proofs.«175668_j16295105921565_2_alg».proof.Proof.Gen.KernelIdeal.Skeleton
import proofs.«175668_j16295105921565_2_alg».proof.Proof.Gen.KernelIdeal.Points
import proofs.«175668_j16295105921565_2_alg».proof.Proof.StatsBody
import proofs.«175668_j16295105921565_2_alg».proof.Proof.NormBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the statistics launch: its arrays at what the pipeline leaves, every other buffer as entered. -/
def W1 (c : Dev nD) : Valuation τ sig (Elt F) :=
  Pipeline.withArrays spec0 c (W0 m ρ c) fun w => (Stats.dat (V0 m ρ) c).arrAt w cfg0.N
theorem W1_arr (c : Dev nD) (w : Fin cfg0.W) :
    W1 m ρ c (Proc.devRef .tc (Pipeline.arrRef spec0 w)) = (Stats.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Stats.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After each of the three pieces of the host stretch between the launches. -/
abbrev W2 : Dev nD → Valuation τ sig (Elt F) := fun c => StableHlo.after main_part0_ops0 (W1 m ρ c)
abbrev W3 : Dev nD → Valuation τ sig (Elt F) := fun c => StableHlo.after main_part1_ops0 (W2 m ρ c)
abbrev W4 : Dev nD → Valuation τ sig (Elt F) := fun c => StableHlo.after main_part2_ops0 (W3 m ρ c)
abbrev V4 : (c : Dev nD) → (b : Ref sig .tc) → Buf (Elt F) ((c : Thread nD τ).loc b) := fun c b => W4 m ρ c b
/-- After the normalize launch. -/
def W5 (c : Dev nD) : Valuation τ sig (Elt F) :=
  Pipeline.withArrays spec1 c (W4 m ρ c) fun w => (Norm.dat (V4 m ρ) c).arrAt w cfg1.N
theorem W5_arr (c : Dev nD) (w : Fin cfg1.W) :
    W5 m ρ c (Proc.devRef .tc (Pipeline.arrRef spec1 w)) = (Norm.dat (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (Norm.dat (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((Norm.dat (V4 m ρ) c).arrAt_in 0 rfl _).trans (Norm.A_eq (V4 m ρ) c 0))
    _ = W3 m ρ c (Proc.devRef .tc main_arg0) := StableHlo.after_of_forall_not_mem (b := Proc.devRef .tc main_arg0) _ _ (List.forall_iff_forall_mem.mp (by
          simp only [main_part2_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((Stats.dat (V0 m ρ) c).arrAt_in 0 rfl _).trans (Stats.A_eq (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [main_part2_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [main_part2_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [main_part2_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [main_part2_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Stats.dat (V0 m ρ) c
  | ⟨1, _⟩ => fun c => Norm.dat (V4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem part0_fresh : (main_part0_ops0 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor
theorem part2_fresh : (main_part2_ops0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The two launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stats.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Stats.hin (V0 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Stats.hout (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Norm.body_obligation (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg main_part0_ops0 main_part0_ops0_sub part0_fresh (W1 m ρ)),
    .host (hseg main_part1_ops0 main_part1_ops0_sub part1_fresh (W2 m ρ)),
    .host (hseg main_part2_ops0 main_part2_ops0_sub part2_fresh (W3 m ρ)),
    .region (reg1 m ρ) ]

theorem main_run (c : Dev nD) : main (F := F) c = Pipeline.Seg.run (segs m ρ) := (main_chain_windows c).trans (by chain_rfl)

set_option backward.isDefEq.respectTransparency.types false in
/-- THE RUN: from any memory with zero counters every weakly fair execution of @main on the TensorCores terminates,
    nothing faulting, and the final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: the run, read at the five argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run m ρ)

end Cert.KernelIdeal.Run

end
-- ==== Proof.NormValue.lean ====
/-
  The normalize launch's output ARRAY after all its write-backs, as one function of the five arrays the launch reads
  (as the region finds them): at (n, c, h, w) it is ((x - mean(n,c)) / sqrt var(n,c)) * weight(c) + bias(c). Each grid
  point writes back one block [8,128,8,64] of that function (its block index is the point's coordinates; the mean and
  variance blocks follow the first two, the weight and bias blocks the second), and the 64 blocks tile the array.
-/
import proofs.«175668_j16295105921565_2_alg».proof.Proof.Gen.KernelIdeal.Launch
import proofs.«175668_j16295105921565_2_alg».proof.Proof.Gen.KernelIdeal.Skeleton
import proofs.«175668_j16295105921565_2_alg».proof.Proof.Gen.KernelIdeal.Points
import proofs.«175668_j16295105921565_2_alg».proof.Proof.NormBody
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Closed
variable (V : (c : Dev nD) → (b : Ref sig .tc) → Buf (Elt F) ((c : Thread nD τ).loc b))

theorem hz4 : (![0, 0, 0, 0] : Fin 4 → Nat) = fun _ => 0 := funext fun a => by fin_cases a <;> rfl

/-- The (n, c) column and the channel c of an index of the array, and of an index inside a block. -/
def colOf (i : S32x256x64x64.Idx) : S32x256x1x1.Idx := ix4 (⟨(i 0).val, (i 0).isLt⟩ : Fin 32) (⟨(i 1).val, (i 1).isLt⟩ : Fin 256) (0 : Fin 1) (0 : Fin 1)
def chanOf (i : S32x256x64x64.Idx) : S1x256x1x1.Idx := ix4 (0 : Fin 1) (⟨(i 1).val, (i 1).isLt⟩ : Fin 256) (0 : Fin 1) (0 : Fin 1)
def bcolOf (j : S8x128x8x64.Idx) : S8x128x1x1.Idx := ix4 (⟨(j 0).val, (j 0).isLt⟩ : Fin 8) (⟨(j 1).val, (j 1).isLt⟩ : Fin 128) (0 : Fin 1) (0 : Fin 1)
def bchanOf (j : S8x128x8x64.Idx) : S1x128x1x1.Idx := ix4 (0 : Fin 1) (⟨(j 1).val, (j 1).isLt⟩ : Fin 128) (0 : Fin 1) (0 : Fin 1)

/-- The output array: the normalized, scaled and shifted x, index by index. -/
def G (a0 : S32x256x64x64.Idx → Elt F .f32) (a1 a2 : S32x256x1x1.Idx → Elt F .f32) (a3 a4 : S1x256x1x1.Idx → Elt F .f32) :
    S32x256x64x64.Idx → Elt F .f32 := fun i =>
  FloatOps.addf (FloatOps.mulf (FloatOps.divf (FloatOps.subf (a0 i) (a1 (colOf i))) (FloatOps.sqrt (a2 (colOf i)))) (a3 (chanOf i))) (a4 (chanOf i))

theorem hbcol (j : S8x128x8x64.Idx) : ∀ a : Fin S8x128x1x1.rank, ((bcolOf j) a).val = if S8x128x1x1.size a = 1 then 0 else (j ⟨a.val + (S8x128x8x64.rank - S8x128x1x1.rank), by have := a.isLt; omega⟩).val := by
  intro a
  match a with
  | ⟨0, _⟩ => rfl
  | ⟨1, _⟩ => rfl
  | ⟨2, _⟩ => rfl
  | ⟨3, _⟩ => rfl
theorem hbchan (j : S8x128x8x64.Idx) : ∀ a : Fin S1x128x1x1.rank, ((bchanOf j) a).val = if S1x128x1x1.size a = 1 then 0 else (j ⟨a.val + (S8x128x8x64.rank - S1x128x1x1.rank), by have := a.isLt; omega⟩).val := by
  intro a
  match a with
  | ⟨0, _⟩ => rfl
  | ⟨1, _⟩ => rfl
  | ⟨2, _⟩ => rfl
  | ⟨3, _⟩ => rfl

/-- The body's stored value at an index of the block: the same arithmetic on the loaded blocks, the four columns read
    at the index's column resp. channel. -/
theorem pay_apply (x0 : Vec F S8x128x8x64 .f32) (x1 x2 : Vec F S8x128x1x1 .f32) (x3 x4 : Vec F S1x128x1x1 .f32) (j : S8x128x8x64.Idx) :
    k1_pay1 x0 x1 x2 x3 x4 j
      = FloatOps.addf (FloatOps.mulf (FloatOps.divf (FloatOps.subf (x0 j) (x1 (bcolOf j))) (FloatOps.sqrt (x2 (bcolOf j)))) (x3 (bchanOf j))) (x4 (bchanOf j)) := by
  simp only [k1_pay1, shapeCast_self]
  show FloatOps.addf (FloatOps.mulf (FloatOps.divf (FloatOps.subf (x0 j) (broadcastTo S8x128x8x64 x1 broadcasts_S8x128x1x1_S8x128x8x64 j))
      (FloatOps.sqrt (broadcastTo S8x128x8x64 x2 broadcasts_S8x128x1x1_S8x128x8x64 j)))
      (broadcastTo S8x128x8x64 x3 broadcasts_S1x128x1x1_S8x128x8x64 j)) (broadcastTo S8x128x8x64 x4 broadcasts_S1x128x1x1_S8x128x8x64 j) = _
  rw [broadcastTo_apply x1 _ j (bcolOf j) (hbcol j), broadcastTo_apply x2 _ j (bcolOf j) (hbcol j),
    broadcastTo_apply x3 _ j (bchanOf j) (hbchan j), broadcastTo_apply x4 _ j (bchanOf j) (hbchan j)]

/-- The printed index maps, decided over the grid: x's block index is the output's; the mean and variance blocks
    follow its first two coordinates, the weight and bias blocks its second; the output's block index ranges. -/
theorem idx_facts : ∀ t : Fin cfg1.N,
    (win1_0.index t (0 : Fin 4) = win1_5.index t (0 : Fin 4) ∧ win1_0.index t (1 : Fin 4) = win1_5.index t (1 : Fin 4)
      ∧ win1_0.index t (2 : Fin 4) = win1_5.index t (2 : Fin 4) ∧ win1_0.index t (3 : Fin 4) = win1_5.index t (3 : Fin 4))
    ∧ (win1_1.index t (0 : Fin 4) = win1_5.index t (0 : Fin 4) ∧ win1_1.index t (1 : Fin 4) = win1_5.index t (1 : Fin 4)
      ∧ win1_1.index t (2 : Fin 4) = 0 ∧ win1_1.index t (3 : Fin 4) = 0)
    ∧ (win1_2.index t (0 : Fin 4) = win1_5.index t (0 : Fin 4) ∧ win1_2.index t (1 : Fin 4) = win1_5.index t (1 : Fin 4)
      ∧ win1_2.index t (2 : Fin 4) = 0 ∧ win1_2.index t (3 : Fin 4) = 0)
    ∧ (win1_3.index t (0 : Fin 4) = 0 ∧ win1_3.index t (1 : Fin 4) = win1_5.index t (1 : Fin 4)
      ∧ win1_3.index t (2 : Fin 4) = 0 ∧ win1_3.index t (3 : Fin 4) = 0)
    ∧ (win1_4.index t (0 : Fin 4) = 0 ∧ win1_4.index t (1 : Fin 4) = win1_5.index t (1 : Fin 4)
      ∧ win1_4.index t (2 : Fin 4) = 0 ∧ win1_4.index t (3 : Fin 4) = 0)
    ∧ (win1_5.index t (0 : Fin 4) ≤ 3 ∧ win1_5.index t (1 : Fin 4) ≤ 1 ∧ win1_5.index t (2 : Fin 4) ≤ 7 ∧ win1_5.index t (3 : Fin 4) = 0) :=
  (by decide +kernel : ∀ t : Fin grid1.N, _)

/-- Every block of the array is some point's. -/
theorem idx_onto : ∀ (q0 : Fin 4) (q1 : Fin 2) (q2 : Fin 8), ∃ t : Fin cfg1.N, win1_5.index t = ![q0.val, q1.val, q2.val, 0] :=
  (by decide +kernel : ∀ (q0 : Fin 4) (q1 : Fin 2) (q2 : Fin 8), ∃ t : Fin grid1.N, win1_5.index t = ![q0.val, q1.val, q2.val, 0])

set_option maxHeartbeats 1000000 in
/-- What point `t` writes back is block `t` of `G` of the five arrays as the region finds them. -/
theorem flushed_eq (c : Dev nD) (t : Fin cfg1.N) :
    (dat V c).flushed 5 t = ((cfg1.win 5).blk t).view.read (Elt F)
      (G (V c main_arg0) (V c main_v109) (V c main_v110) (V c main_v111) (V c main_v112)) := by
  show (cfg1.win 5).cut (grid1.coords t) ((dat V c).after 5 t) = _
  rw [after5]
  unfold outBlock
  rw [View.canon_unit_zero hz4]
  simp only [View.ld_unit_zero (S := S8x128x8x64) hz4, View.ld_unit_zero (S := S8x128x1x1) hz4, View.ld_unit_zero (S := S1x128x1x1) hz4]
  obtain ⟨⟨e00, e01, e02, e03⟩, ⟨e10, e11, e12, e13⟩, ⟨e20, e21, e22, e23⟩, ⟨e30, e31, e32, e33⟩, ⟨e40, e41, e42, e43⟩, -⟩ := idx_facts t
  funext j
  show k1_pay1 (iblk V c 0 t) (iblk V c 1 t) (iblk V c 2 t) (iblk V c 3 t) (iblk V c 4 t) j
    = G (V c main_arg0) (V c main_v109) (V c main_v110) (V c main_v111) (V c main_v112) (((cfg1.win 5).blk t).view.emb j)
  rw [pay_apply]
  unfold G
  have hj0 : (j 0).val < 8 := (j 0).isLt
  have hj1 : (j 1).val < 128 := (j 1).isLt
  have hj2 : (j 2).val < 8 := (j 2).isLt
  have hj3 : (j 3).val < 64 := (j 3).isLt
  have h0 : ((cfg1.win 0).blk t).view.emb j = ((cfg1.win 5).blk t).view.emb j := by
    funext a; apply Fin.ext
    match a with
    | ⟨0, _⟩ => show win1_0.index t (0 : Fin 4) * 8 + 1 * (j 0).val = win1_5.index t (0 : Fin 4) * 8 + 1 * (j 0).val; omega
    | ⟨1, _⟩ => show win1_0.index t (1 : Fin 4) * 128 + 1 * (j 1).val = win1_5.index t (1 : Fin 4) * 128 + 1 * (j 1).val; omega
    | ⟨2, _⟩ => show win1_0.index t (2 : Fin 4) * 8 + 1 * (j 2).val = win1_5.index t (2 : Fin 4) * 8 + 1 * (j 2).val; omega
    | ⟨3, _⟩ => show win1_0.index t (3 : Fin 4) * 64 + 1 * (j 3).val = win1_5.index t (3 : Fin 4) * 64 + 1 * (j 3).val; omega
  have h1 : ((cfg1.win 1).blk t).view.emb (bcolOf j) = colOf (((cfg1.win 5).blk t).view.emb j) := by
    funext a; apply Fin.ext
    match a with
    | ⟨0, _⟩ => show win1_1.index t (0 : Fin 4) * 8 + 1 * (j 0).val = win1_5.index t (0 : Fin 4) * 8 + 1 * (j 0).val; omega
    | ⟨1, _⟩ => show win1_1.index t (1 : Fin 4) * 128 + 1 * (j 1).val = win1_5.index t (1 : Fin 4) * 128 + 1 * (j 1).val; omega
    | ⟨2, _⟩ => show win1_1.index t (2 : Fin 4) * 1 + 1 * 0 = 0; omega
    | ⟨3, _⟩ => show win1_1.index t (3 : Fin 4) * 1 + 1 * 0 = 0; omega
  have h2 : ((cfg1.win 2).blk t).view.emb (bcolOf j) = colOf (((cfg1.win 5).blk t).view.emb j) := by
    funext a; apply Fin.ext
    match a with
    | ⟨0, _⟩ => show win1_2.index t (0 : Fin 4) * 8 + 1 * (j 0).val = win1_5.index t (0 : Fin 4) * 8 + 1 * (j 0).val; omega
    | ⟨1, _⟩ => show win1_2.index t (1 : Fin 4) * 128 + 1 * (j 1).val = win1_5.index t (1 : Fin 4) * 128 + 1 * (j 1).val; omega
    | ⟨2, _⟩ => show win1_2.index t (2 : Fin 4) * 1 + 1 * 0 = 0; omega
    | ⟨3, _⟩ => show win1_2.index t (3 : Fin 4) * 1 + 1 * 0 = 0; omega
  have h3 : ((cfg1.win 3).blk t).view.emb (bchanOf j) = chanOf (((cfg1.win 5).blk t).view.emb j) := by
    funext a; apply Fin.ext
    match a with
    | ⟨0, _⟩ => show win1_3.index t (0 : Fin 4) * 1 + 1 * 0 = 0; omega
    | ⟨1, _⟩ => show win1_3.index t (1 : Fin 4) * 128 + 1 * (j 1).val = win1_5.index t (1 : Fin 4) * 128 + 1 * (j 1).val; omega
    | ⟨2, _⟩ => show win1_3.index t (2 : Fin 4) * 1 + 1 * 0 = 0; omega
    | ⟨3, _⟩ => show win1_3.index t (3 : Fin 4) * 1 + 1 * 0 = 0; omega
  have h4 : ((cfg1.win 4).blk t).view.emb (bchanOf j) = chanOf (((cfg1.win 5).blk t).view.emb j) := by
    funext a; apply Fin.ext
    match a with
    | ⟨0, _⟩ => show win1_4.index t (0 : Fin 4) * 1 + 1 * 0 = 0; omega
    | ⟨1, _⟩ => show win1_4.index t (1 : Fin 4) * 128 + 1 * (j 1).val = win1_5.index t (1 : Fin 4) * 128 + 1 * (j 1).val; omega
    | ⟨2, _⟩ => show win1_4.index t (2 : Fin 4) * 1 + 1 * 0 = 0; omega
    | ⟨3, _⟩ => show win1_4.index t (3 : Fin 4) * 1 + 1 * 0 = 0; omega
  show FloatOps.addf (FloatOps.mulf (FloatOps.divf (FloatOps.subf (V c main_arg0 (((cfg1.win 0).blk t).view.emb j)) (V c main_v109 (((cfg1.win 1).blk t).view.emb (bcolOf j))))
      (FloatOps.sqrt (V c main_v110 (((cfg1.win 2).blk t).view.emb (bcolOf j))))) (V c main_v111 (((cfg1.win 3).blk t).view.emb (bchanOf j))))
      (V c main_v112 (((cfg1.win 4).blk t).view.emb (bchanOf j))) = _
  rw [h0, h1, h2, h3, h4]

/-- An index of the array is in point `t`'s block iff each coordinate is in the block's range on its axis. -/
theorem mem_blk (t : Fin cfg1.N) (i : S32x256x64x64.Idx) :
    i ∈ ((cfg1.win 5).blk t).view.set ↔ ∀ a : Fin 4, win1_5.index t a * S8x128x8x64.size a ≤ (i a).val ∧ (i a).val < win1_5.index t a * S8x128x8x64.size a + S8x128x8x64.size a := by
  show i ∈ ((View.whole main_v113).slice (win1_5.rect t)).set ↔ _
  rw [View.set_slice_whole, Rect.mem_set_unit]
  exact Iff.rfl

/-- Every index of the array lies in some written-back block: the point whose coordinates are the index's block. -/
theorem cover (i : S32x256x64x64.Idx) : ∃ t : Fin cfg1.N, (cfg1.win 5).flush t = true ∧ i ∈ ((cfg1.win 5).blk t).view.set := by
  have hi0 : (i 0).val < 32 := (i 0).isLt
  have hi1 : (i 1).val < 256 := (i 1).isLt
  have hi2 : (i 2).val < 64 := (i 2).isLt
  have hi3 : (i 3).val < 64 := (i 3).isLt
  obtain ⟨t, ht⟩ := idx_onto ⟨(i 0).val / 8, by omega⟩ ⟨(i 1).val / 128, by omega⟩ ⟨(i 2).val / 8, by omega⟩
  have q0 : win1_5.index t (0 : Fin 4) = (i 0).val / 8 := congrFun ht 0
  have q1 : win1_5.index t (1 : Fin 4) = (i 1).val / 128 := congrFun ht 1
  have q2 : win1_5.index t (2 : Fin 4) = (i 2).val / 8 := congrFun ht 2
  have q3 : win1_5.index t (3 : Fin 4) = 0 := congrFun ht 3
  refine ⟨t, flush1_5 t, ?_⟩
  rw [mem_blk]
  intro a
  match a with
  | ⟨0, _⟩ => show win1_5.index t (0 : Fin 4) * 8 ≤ (i 0).val ∧ (i 0).val < win1_5.index t (0 : Fin 4) * 8 + 8; omega
  | ⟨1, _⟩ => show win1_5.index t (1 : Fin 4) * 128 ≤ (i 1).val ∧ (i 1).val < win1_5.index t (1 : Fin 4) * 128 + 128; omega
  | ⟨2, _⟩ => show win1_5.index t (2 : Fin 4) * 8 ≤ (i 2).val ∧ (i 2).val < win1_5.index t (2 : Fin 4) * 8 + 8; omega
  | ⟨3, _⟩ => show win1_5.index t (3 : Fin 4) * 64 ≤ (i 3).val ∧ (i 3).val < win1_5.index t (3 : Fin 4) * 64 + 64; omega

/-- THE OUTPUT ARRAY after the launch. -/
theorem final (c : Dev nD) :
    (dat V c).arrAt 5 cfg1.N = G (V c main_arg0) (V c main_v109) (V c main_v110) (V c main_v111) (V c main_v112) :=
  (dat V c).arrAt_eq_of_cover 5 _ (fun t _ => flushed_eq V c t) (cover)

end Closed

end Cert.KernelIdeal.Norm

end
-- ==== Proof.StatsPieces.lean ====
/-
  What each case of the statistics body leaves in each buffer, as the body's named arithmetic: a first point leaves
  each accumulator at "zeros plus the block's sums"; a later point at "what the point before left plus the block's
  sums"; a last point also leaves each output block at that same value.
-/
import proofs.«175668_j16295105921565_2_alg».proof.Proof.Gen.KernelIdeal.Launch
import proofs.«175668_j16295105921565_2_alg».proof.Proof.Gen.KernelIdeal.Skeleton
import proofs.«175668_j16295105921565_2_alg».proof.Proof.Gen.KernelIdeal.Points
import proofs.«175668_j16295105921565_2_alg».proof.Proof.StatsBody
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz4 : (![0, 0, 0, 0] : Fin 4 → Nat) = fun _ => 0 := funext fun a => by fin_cases a <;> rfl

theorem accFirst_eq (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : condFirst i) (hc1 : ¬condLast i) (x0 : Vec F S8x128x8x64 .f32)  :
    accOf (runFirst (F := F) c i arg3 harg3 arg4 harg4 arg5 harg5 arg6 harg6 arg7 harg7 hc0 hc1 x0).1 = k0_pay3 x0 k0_pay1 := by
  unfold accOf
  rw [View.read_writes_eq_canon _ _ _ (coverFirstA c i arg3 harg3 arg4 harg4 arg5 harg5 arg6 harg6 arg7 harg7 hc0 hc1 x0)]
  unfold runFirst
  dsimp only
  sl_unfold_words
  rw [View.canon_cons_unit_zero hz4]
  simp only [View.readAt_eq_ld, harg3.read_unread, View.readCov_unit_zero (S := S8x128x1x1) _ hz4, View.ld_unit_zero (S := S8x128x8x64) hz4, View.ld_unit_zero (S := S8x128x1x1) hz4]

theorem sqFirst_eq (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : condFirst i) (hc1 : ¬condLast i) (x0 : Vec F S8x128x8x64 .f32)  :
    sqOf (runFirst (F := F) c i arg3 harg3 arg4 harg4 arg5 harg5 arg6 harg6 arg7 harg7 hc0 hc1 x0).2.1 = k0_pay4 x0 k0_pay2 := by
  unfold sqOf
  rw [View.read_writes_eq_canon _ _ _ (coverFirstQ c i arg3 harg3 arg4 harg4 arg5 harg5 arg6 harg6 arg7 harg7 hc0 hc1 x0)]
  unfold runFirst
  dsimp only
  sl_unfold_words
  rw [View.canon_cons_unit_zero hz4]
  simp only [View.readAt_eq_ld, harg3.read_unread, View.readCov_unit_zero (S := S8x128x1x1) _ hz4, View.ld_unit_zero (S := S8x128x8x64) hz4, View.ld_unit_zero (S := S8x128x1x1) hz4]

theorem accMid_eq (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : ¬condLast i) (x0 : Vec F S8x128x8x64 .f32) (xa xq : Vec F S8x128x1x1 .f32) :
    accOf (runMid (F := F) c i arg3 harg3 arg4 harg4 arg5 harg5 arg6 harg6 arg7 harg7 hc0 hc1 x0 xa xq).1 = k0_pay3 x0 xa := by
  unfold accOf
  rw [View.read_writes_eq_canon _ _ _ (coverMidA c i arg3 harg3 arg4 harg4 arg5 harg5 arg6 harg6 arg7 harg7 hc0 hc1 x0 xa xq)]
  unfold runMid
  dsimp only
  sl_unfold_words
  rw [View.canon_unit_zero hz4]
  simp only [View.readAt_eq_ld, harg3.read_unread, harg6.read_unread, View.readCov_unit_zero (S := S8x128x1x1) _ hz4, View.ld_unit_zero (S := S8x128x8x64) hz4, View.ld_unit_zero (S := S8x128x1x1) hz4]

theorem sqMid_eq (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : ¬condLast i) (x0 : Vec F S8x128x8x64 .f32) (xa xq : Vec F S8x128x1x1 .f32) :
    sqOf (runMid (F := F) c i arg3 harg3 arg4 harg4 arg5 harg5 arg6 harg6 arg7 harg7 hc0 hc1 x0 xa xq).2.1 = k0_pay4 x0 xq := by
  unfold sqOf
  rw [View.read_writes_eq_canon _ _ _ (coverMidQ c i arg3 harg3 arg4 harg4 arg5 harg5 arg6 harg6 arg7 harg7 hc0 hc1 x0 xa xq)]
  unfold runMid
  dsimp only
  sl_unfold_words
  rw [View.canon_unit_zero hz4]
  simp only [View.readAt_eq_ld, harg3.read_unread, harg7.read_unread, View.readCov_unit_zero (S := S8x128x1x1) _ hz4, View.ld_unit_zero (S := S8x128x8x64) hz4, View.ld_unit_zero (S := S8x128x1x1) hz4]

theorem out1Last_eq (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i) (x0 : Vec F S8x128x8x64 .f32) (xa xq : Vec F S8x128x1x1 .f32) :
    o1Of (runLast (F := F) c i arg3 harg3 arg4 harg4 arg5 harg5 arg6 harg6 arg7 harg7 hc0 hc1 x0 xa xq).1 = k0_pay3 x0 xa := by
  unfold o1Of
  rw [View.read_writes_eq_canon _ _ _ (coverLast1 c i arg3 harg3 arg4 harg4 arg5 harg5 arg6 harg6 arg7 harg7 hc0 hc1 x0 xa xq)]
  unfold runLast
  dsimp only
  sl_unfold_words
  rw [View.canon_unit_zero hz4]
  simp only [View.readAt_eq_ld, harg3.read_unread, harg6.read_unread, View.readCov_unit_zero (S := S8x128x1x1) _ hz4, View.ld_unit_zero (S := S8x128x8x64) hz4, View.ld_unit_zero (S := S8x128x1x1) hz4]

theorem out2Last_eq (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i) (x0 : Vec F S8x128x8x64 .f32) (xa xq : Vec F S8x128x1x1 .f32) :
    o2Of (runLast (F := F) c i arg3 harg3 arg4 harg4 arg5 harg5 arg6 harg6 arg7 harg7 hc0 hc1 x0 xa xq).2.1 = k0_pay4 x0 xq := by
  unfold o2Of
  rw [View.read_writes_eq_canon _ _ _ (coverLast2 c i arg3 harg3 arg4 harg4 arg5 harg5 arg6 harg6 arg7 harg7 hc0 hc1 x0 xa xq)]
  unfold runLast
  dsimp only
  sl_unfold_words
  rw [View.canon_unit_zero hz4]
  simp only [View.readAt_eq_ld, harg3.read_unread, harg7.read_unread, View.readCov_unit_zero (S := S8x128x1x1) _ hz4, View.ld_unit_zero (S := S8x128x8x64) hz4, View.ld_unit_zero (S := S8x128x1x1) hz4]

theorem accLast_eq (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i) (x0 : Vec F S8x128x8x64 .f32) (xa xq : Vec F S8x128x1x1 .f32) :
    accOf (runLast (F := F) c i arg3 harg3 arg4 harg4 arg5 harg5 arg6 harg6 arg7 harg7 hc0 hc1 x0 xa xq).2.2.1 = k0_pay3 x0 xa := by
  unfold accOf
  rw [View.read_writes_eq_canon _ _ _ (coverLastA c i arg3 harg3 arg4 harg4 arg5 harg5 arg6 harg6 arg7 harg7 hc0 hc1 x0 xa xq)]
  unfold runLast
  dsimp only
  sl_unfold_words
  rw [View.canon_unit_zero hz4]
  simp only [View.readAt_eq_ld, harg3.read_unread, harg6.read_unread, View.readCov_unit_zero (S := S8x128x1x1) _ hz4, View.ld_unit_zero (S := S8x128x8x64) hz4, View.ld_unit_zero (S := S8x128x1x1) hz4]

theorem sqLast_eq (c : Dev nD) (i : grid0.Coords) (arg3 : Memref sig .tc .vmem S8x128x8x64 .f32) (harg3 : arg3.IsWhole) (arg4 : Memref sig .tc .vmem S8x128x1x1 .f32) (harg4 : arg4.IsWhole) (arg5 : Memref sig .tc .vmem S8x128x1x1 .f32) (harg5 : arg5.IsWhole) (arg6 : Memref sig .tc .vmem S8x128x1x1 .f32) (harg6 : arg6.IsWhole) (arg7 : Memref sig .tc .vmem S8x128x1x1 .f32) (harg7 : arg7.IsWhole) (hc0 : ¬condFirst i) (hc1 : condLast i) (x0 : Vec F S8x128x8x64 .f32) (xa xq : Vec F S8x128x1x1 .f32) :
    sqOf (runLast (F := F) c i arg3 harg3 arg4 harg4 arg5 harg5 arg6 harg6 arg7 harg7 hc0 hc1 x0 xa xq).2.2.2.1 = k0_pay4 x0 xq := by
  unfold sqOf
  rw [View.read_writes_eq_canon _ _ _ (coverLastQ c i arg3 harg3 arg4 harg4 arg5 harg5 arg6 harg6 arg7 harg7 hc0 hc1 x0 xa xq)]
  unfold runLast
  dsimp only
  sl_unfold_words
  rw [View.canon_unit_zero hz4]
  simp only [View.readAt_eq_ld, harg3.read_unread, harg7.read_unread, View.readCov_unit_zero (S := S8x128x1x1) _ hz4, View.ld_unit_zero (S := S8x128x8x64) hz4, View.ld_unit_zero (S := S8x128x1x1) hz4]

end Cert.KernelIdeal.Stats

end
-- ==== Proof.StatsPay.lean ====
/-
  The statistics body's arithmetic at an index, over the extended reals: the new accumulator entry at (p, q) is the
  old one plus the sum of the block's row (p, q, ·, ·) over its last two axes (of its squares, for the second
  accumulator); the reset value is zero.
-/
import proofs.«175668_j16295105921565_2_alg».proof.Proof.Gen.KernelIdeal.Skeleton
import Idealize.ShloMosaic.PureOps.Ideal.Laws
import Idealize.ShloMosaic.Lib.Pipeline.Value
import Idealize.ShloMosaic.Lib.ValueIdx

set_option maxRecDepth 16384

noncomputable section

namespace Cert.KernelIdeal.Stats

open Cert.KernelIdeal Cert.KernelIdeal.Gen
open Idealize.ShloMosaic Idealize.ShloMosaic.ValueIdx

theorem pay3_apply (x0 : Vec Ideal S8x128x8x64 .f32) (xa : Vec Ideal S8x128x1x1 .f32) (p : Fin 8) (q : Fin 128) :
    k0_pay3 (F := Ideal) x0 xa (ix4 p q (0 : Fin 1) (0 : Fin 1))
      = xa (ix4 p q (0 : Fin 1) (0 : Fin 1)) + ∑ r : Fin 8, ∑ w : Fin 64, x0 (ix4 p q r w) := by
  simp only [k0_pay3, shapeCast_self]
  show xa (ix4 p q (0 : Fin 1) (0 : Fin 1)) + shapeCast S8x128x1x1 (multiReduction (F := Ideal) .add [2] S8x128x1 (shapeCast S8x128x8x1 (multiReduction (F := Ideal) .add [3] S8x128x8 x0 0x00000000#32 reduces_S8x128x8x64_S8x128x8 (.inl rfl) rfl) shapeCasts_S8x128x8_S8x128x8x1) 0x00000000#32 reduces_S8x128x8x1_S8x128x1 (.inl rfl) rfl) shapeCasts_S8x128x1_S8x128x1x1 (ix4 p q (0 : Fin 1) (0 : Fin 1)) = _
  refine congrArg (xa (ix4 p q (0 : Fin 1) (0 : Fin 1)) + ·) ?_
  rw [shapeCast_apply _ _ (ix4 p q (0 : Fin 1) (0 : Fin 1)) (ix3 p q (0 : Fin 1)) (by
    rw [Shape.rowMajor_val_three, Shape.rowMajor_val_four]
    show (p.val * 128 + q.val) * 1 + 0 = ((p.val * 128 + q.val) * 1 + 0) * 1 + 0
    omega)]
  refine (Ideal.multiReduction_add_single _ 0x00000000#32 reduces_S8x128x8x1_S8x128x1 _ _ (ix3 p q (0 : Fin 1))).trans ?_
  show (∑ r : Fin 8, _) = _
  refine Finset.sum_congr rfl fun r _ => ?_
  rw [shapeCast_apply _ _ _ (ix3 p q r) (by
    rw [Shape.rowMajor_val_three, Shape.rowMajor_val_four]
    show (p.val * 128 + q.val) * 8 + r.val = ((p.val * 128 + q.val) * 8 + r.val) * 1 + 0
    omega)]
  refine (Ideal.multiReduction_add_single _ 0x00000000#32 reduces_S8x128x8x64_S8x128x8 _ _ (ix3 p q r)).trans ?_
  show (∑ w : Fin 64, _) = _
  refine Finset.sum_congr rfl fun w _ => ?_
  have e : reduces_S8x128x8x64_S8x128x8.lift (ix3 p q r) w = ix4 p q r w := funext fun a => Fin.ext (by
    match a with
    | ⟨0, _⟩ => rfl
    | ⟨1, _⟩ => rfl
    | ⟨2, _⟩ => rfl
    | ⟨3, _⟩ => rfl)
  rw [e]
  try rfl

theorem pay4_apply (x0 : Vec Ideal S8x128x8x64 .f32) (xa : Vec Ideal S8x128x1x1 .f32) (p : Fin 8) (q : Fin 128) :
    k0_pay4 (F := Ideal) x0 xa (ix4 p q (0 : Fin 1) (0 : Fin 1))
      = xa (ix4 p q (0 : Fin 1) (0 : Fin 1)) + ∑ r : Fin 8, ∑ w : Fin 64, x0 (ix4 p q r w) * x0 (ix4 p q r w) := by
  simp only [k0_pay4, shapeCast_self]
  show xa (ix4 p q (0 : Fin 1) (0 : Fin 1)) + shapeCast S8x128x1x1 (multiReduction (F := Ideal) .add [2] S8x128x1 (shapeCast S8x128x8x1 (multiReduction (F := Ideal) .add [3] S8x128x8 (mulf (F := Ideal) x0 x0) 0x00000000#32 reduces_S8x128x8x64_S8x128x8 (.inl rfl) rfl) shapeCasts_S8x128x8_S8x128x8x1) 0x00000000#32 reduces_S8x128x8x1_S8x128x1 (.inl rfl) rfl) shapeCasts_S8x128x1_S8x128x1x1 (ix4 p q (0 : Fin 1) (0 : Fin 1)) = _
  refine congrArg (xa (ix4 p q (0 : Fin 1) (0 : Fin 1)) + ·) ?_
  rw [shapeCast_apply _ _ (ix4 p q (0 : Fin 1) (0 : Fin 1)) (ix3 p q (0 : Fin 1)) (by
    rw [Shape.rowMajor_val_three, Shape.rowMajor_val_four]
    show (p.val * 128 + q.val) * 1 + 0 = ((p.val * 128 + q.val) * 1 + 0) * 1 + 0
    omega)]
  refine (Ideal.multiReduction_add_single _ 0x00000000#32 reduces_S8x128x8x1_S8x128x1 _ _ (ix3 p q (0 : Fin 1))).trans ?_
  show (∑ r : Fin 8, _) = _
  refine Finset.sum_congr rfl fun r _ => ?_
  rw [shapeCast_apply _ _ _ (ix3 p q r) (by
    rw [Shape.rowMajor_val_three, Shape.rowMajor_val_four]
    show (p.val * 128 + q.val) * 8 + r.val = ((p.val * 128 + q.val) * 8 + r.val) * 1 + 0
    omega)]
  refine (Ideal.multiReduction_add_single _ 0x00000000#32 reduces_S8x128x8x64_S8x128x8 _ _ (ix3 p q r)).trans ?_
  show (∑ w : Fin 64, _) = _
  refine Finset.sum_congr rfl fun w _ => ?_
  have e : reduces_S8x128x8x64_S8x128x8.lift (ix3 p q r) w = ix4 p q r w := funext fun a => Fin.ext (by
    match a with
    | ⟨0, _⟩ => rfl
    | ⟨1, _⟩ => rfl
    | ⟨2, _⟩ => rfl
    | ⟨3, _⟩ => rfl)
  rw [e]
  try rfl

theorem pay1_apply (j : S8x128x1x1.Idx) : k0_pay1 (F := Ideal) j = 0 := by
  simp only [k0_pay1, shapeCast_self]
  exact Ideal.ofBits_zero_f32

theorem pay2_apply (j : S8x128x1x1.Idx) : k0_pay2 (F := Ideal) j = 0 := by
  simp only [k0_pay2, shapeCast_self]
  exact Ideal.ofBits_zero_f32

end Cert.KernelIdeal.Stats

end
-- ==== Proof.StatsArrays.lean ====
/-
  The per-(n, c) sums of a [32,256,64,64] array over its last two axes, the row axis cut into eight blocks of eight
  rows (the order in which the statistics launch meets them), and the same sums of squares, as [32,256,1,1] arrays
  over the extended reals.
-/
import proofs.«175668_j16295105921565_2_alg».proof.KernelIdeal
import Idealize.ShloMosaic.PureOps.Ideal
import Idealize.ShloMosaic.Lib.ValueIdx

noncomputable section

namespace Cert.KernelIdeal.Stats

open Cert.KernelIdeal
open Idealize.ShloMosaic Idealize.ShloMosaic.ValueIdx

def sumArr (x : S32x256x64x64.Idx → EReal) : S32x256x1x1.Idx → EReal := fun i =>
  0 + ∑ k : Fin 8, ∑ r : Fin 8, ∑ w : Fin 64,
    x (ix4 (⟨(i 0).val, (i 0).isLt⟩ : Fin 32) (⟨(i 1).val, (i 1).isLt⟩ : Fin 256) (⟨8 * k.val + r.val, by have := k.isLt; have := r.isLt; omega⟩ : Fin 64) w)
def sqArr (x : S32x256x64x64.Idx → EReal) : S32x256x1x1.Idx → EReal := fun i =>
  0 + ∑ k : Fin 8, ∑ r : Fin 8, ∑ w : Fin 64,
    x (ix4 (⟨(i 0).val, (i 0).isLt⟩ : Fin 32) (⟨(i 1).val, (i 1).isLt⟩ : Fin 256) (⟨8 * k.val + r.val, by have := k.isLt; have := r.isLt; omega⟩ : Fin 64) w)
      * x (ix4 (⟨(i 0).val, (i 0).isLt⟩ : Fin 32) (⟨(i 1).val, (i 1).isLt⟩ : Fin 256) (⟨8 * k.val + r.val, by have := k.isLt; have := r.isLt; omega⟩ : Fin 64) w)

end Cert.KernelIdeal.Stats

end
-- ==== Proof.StatsValue.lean ====
/-
  The statistics launch's two output ARRAYS after all its write-backs, over the extended reals, as functions of x as
  the region finds it: at (n, c, 0, 0) the first holds 0 + the sum over the eight row-blocks k, the rows r inside a
  block and the columns w of x(n, c, 8k + r, w); the second the same sum of squares. Along the summed grid axis the
  accumulator after point 8g + k is the partial sum of the first k + 1 blocks' row sums (induction on k: a first
  point starts from zero, a later one adds to what the point before left); the last point of each group copies the
  complete sum out, and the emitted blocks [8,128,1,1] tile the array.
-/
import proofs.«175668_j16295105921565_2_alg».proof.Proof.Gen.KernelIdeal.Launch
import proofs.«175668_j16295105921565_2_alg».proof.Proof.Gen.KernelIdeal.Skeleton
import proofs.«175668_j16295105921565_2_alg».proof.Proof.Gen.KernelIdeal.Points
import proofs.«175668_j16295105921565_2_alg».proof.Proof.StatsPieces
import proofs.«175668_j16295105921565_2_alg».proof.Proof.StatsPay
import proofs.«175668_j16295105921565_2_alg».proof.Proof.StatsArrays
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

section Closed
variable (V : (c : Dev nD) → (b : Ref sig .tc) → Buf (Elt Ideal) ((c : Thread nD τ).loc b))

/-! ## One step of each accumulator, as the body's arithmetic -/

theorem acc_first (c : Dev nD) (t : Fin cfg0.N) (h0 : t.val % 8 = 0) :
    (outsAt V c t.val t.isLt).2.2.1 = k0_pay3 (iblk V c 0 t) (k0_pay1 (F := Ideal)) := by
  rw [outsAt_first V c t h0]; unfold runFirstAt; dsimp only
  exact accFirst_eq (F := Ideal) c _ _ _ _ _ _ _ _ _ _ _ _ _ _
theorem acc_step (c : Dev nD) (t : Fin cfg0.N) (h0 : ¬t.val % 8 = 0) :
    (outsAt V c t.val t.isLt).2.2.1 = k0_pay3 (iblk V c 0 t) (prevAt V c t).2.2.1 := by
  by_cases h1 : t.val % 8 = 7
  · rw [outsAt_last V c t h1]; unfold runLastAt; dsimp only
    exact accLast_eq (F := Ideal) c _ _ _ _ _ _ _ _ _ _ _ _ _ _ _ _
  · rw [outsAt_mid V c t h0 h1]; unfold runMidAt; dsimp only
    exact accMid_eq (F := Ideal) c _ _ _ _ _ _ _ _ _ _ _ _ _ _ _ _

theorem sq_first (c : Dev nD) (t : Fin cfg0.N) (h0 : t.val % 8 = 0) :
    (outsAt V c t.val t.isLt).2.2.2 = k0_pay4 (iblk V c 0 t) (k0_pay2 (F := Ideal)) := by
  rw [outsAt_first V c t h0]; unfold runFirstAt; dsimp only
  exact sqFirst_eq (F := Ideal) c _ _ _ _ _ _ _ _ _ _ _ _ _ _
theorem sq_step (c : Dev nD) (t : Fin cfg0.N) (h0 : ¬t.val % 8 = 0) :
    (outsAt V c t.val t.isLt).2.2.2 = k0_pay4 (iblk V c 0 t) (prevAt V c t).2.2.2 := by
  by_cases h1 : t.val % 8 = 7
  · rw [outsAt_last V c t h1]; unfold runLastAt; dsimp only
    exact sqLast_eq (F := Ideal) c _ _ _ _ _ _ _ _ _ _ _ _ _ _ _ _
  · rw [outsAt_mid V c t h0 h1]; unfold runMidAt; dsimp only
    exact sqMid_eq (F := Ideal) c _ _ _ _ _ _ _ _ _ _ _ _ _ _ _ _

theorem out1_last (c : Dev nD) (t : Fin cfg0.N) (h1 : t.val % 8 = 7) :
    (outsAt V c t.val t.isLt).1 = k0_pay3 (iblk V c 0 t) (prevAt V c t).2.2.1 := by
  rw [outsAt_last V c t h1]; unfold runLastAt; dsimp only
  exact out1Last_eq (F := Ideal) c _ _ _ _ _ _ _ _ _ _ _ _ _ _ _ _
theorem out2_last (c : Dev nD) (t : Fin cfg0.N) (h1 : t.val % 8 = 7) :
    (outsAt V c t.val t.isLt).2.1 = k0_pay4 (iblk V c 0 t) (prevAt V c t).2.2.2 := by
  rw [outsAt_last V c t h1]; unfold runLastAt; dsimp only
  exact out2Last_eq (F := Ideal) c _ _ _ _ _ _ _ _ _ _ _ _ _ _ _ _

/-! ## The partial sums along the summed axis -/

/-- The x block at a point, and x as the region finds it, as extended-real arrays. -/
def xblk (c : Dev nD) (t : Fin cfg0.N) (j : S8x128x8x64.Idx) : EReal := iblk V c 0 t j
def xarr (c : Dev nD) (j : S32x256x64x64.Idx) : EReal := V c main_arg0 j

/-- The sum of the block at point `n` over its last two axes, at row (p, q) — and of its squares. -/
def rowSum (c : Dev nD) (n : ℕ) (p : Fin 8) (q : Fin 128) : EReal :=
  if h : n < cfg0.N then ∑ r : Fin 8, ∑ w : Fin 64, xblk V c ⟨n, h⟩ (ix4 p q r w) else 0
def rowSq (c : Dev nD) (n : ℕ) (p : Fin 8) (q : Fin 128) : EReal :=
  if h : n < cfg0.N then ∑ r : Fin 8, ∑ w : Fin 64, xblk V c ⟨n, h⟩ (ix4 p q r w) * xblk V c ⟨n, h⟩ (ix4 p q r w) else 0
theorem rowSum_at (c : Dev nD) (t : Fin cfg0.N) (p : Fin 8) (q : Fin 128) :
    rowSum V c t.val p q = ∑ r : Fin 8, ∑ w : Fin 64, xblk V c t (ix4 p q r w) := by
  unfold rowSum; rw [dif_pos t.isLt]
theorem rowSq_at (c : Dev nD) (t : Fin cfg0.N) (p : Fin 8) (q : Fin 128) :
    rowSq V c t.val p q = ∑ r : Fin 8, ∑ w : Fin 64, xblk V c t (ix4 p q r w) * xblk V c t (ix4 p q r w) := by
  unfold rowSq; rw [dif_pos t.isLt]

theorem acc_partial (c : Dev nD) (p : Fin 8) (q : Fin 128) (g : ℕ) :
    ∀ (k : ℕ) (t : Fin cfg0.N), k < 8 → t.val = 8 * g + k →
      (outsAt V c t.val t.isLt).2.2.1 (ix4 p q (0 : Fin 1) (0 : Fin 1)) = 0 + ∑ k' ∈ Finset.range (k + 1), rowSum V c (8 * g + k') p q := by
  intro k
  induction k with
  | zero =>
    intro t _ ht
    rw [acc_first V c t (by omega), pay3_apply, pay1_apply, Finset.sum_range_one]
    have e : rowSum V c (8 * g + 0) p q = rowSum V c t.val p q := by rw [ht]
    rw [e]
    exact congrArg (0 + ·) (rowSum_at V c t p q).symm
  | succ k ih =>
    intro t hk ht
    have hN : cfg0.N = 64 := N_0
    have hprev : t.val - 1 < cfg0.N := by have := t.isLt; omega
    rw [acc_step V c t (by omega), pay3_apply]
    rw [show (prevAt V c t).2.2.1 (ix4 p q (0 : Fin 1) (0 : Fin 1)) = _ from ih ⟨t.val - 1, hprev⟩ (by omega) (by show t.val - 1 = 8 * g + k; omega)]
    rw [Finset.sum_range_succ (fun k' => rowSum V c (8 * g + k') p q) (k + 1), ← add_assoc]
    have e : rowSum V c (8 * g + (k + 1)) p q = rowSum V c t.val p q := by rw [ht]
    rw [e]
    exact congrArg (_ + ·) (rowSum_at V c t p q).symm

theorem sq_partial (c : Dev nD) (p : Fin 8) (q : Fin 128) (g : ℕ) :
    ∀ (k : ℕ) (t : Fin cfg0.N), k < 8 → t.val = 8 * g + k →
      (outsAt V c t.val t.isLt).2.2.2 (ix4 p q (0 : Fin 1) (0 : Fin 1)) = 0 + ∑ k' ∈ Finset.range (k + 1), rowSq V c (8 * g + k') p q := by
  intro k
  induction k with
  | zero =>
    intro t _ ht
    rw [sq_first V c t (by omega), pay4_apply, pay2_apply, Finset.sum_range_one]
    have e : rowSq V c (8 * g + 0) p q = rowSq V c t.val p q := by rw [ht]
    rw [e]
    exact congrArg (0 + ·) (rowSq_at V c t p q).symm
  | succ k ih =>
    intro t hk ht
    have hN : cfg0.N = 64 := N_0
    have hprev : t.val - 1 < cfg0.N := by have := t.isLt; omega
    rw [sq_step V c t (by omega), pay4_apply]
    rw [show (prevAt V c t).2.2.2 (ix4 p q (0 : Fin 1) (0 : Fin 1)) = _ from ih ⟨t.val - 1, hprev⟩ (by omega) (by show t.val - 1 = 8 * g + k; omega)]
    rw [Finset.sum_range_succ (fun k' => rowSq V c (8 * g + k') p q) (k + 1), ← add_assoc]
    have e : rowSq V c (8 * g + (k + 1)) p q = rowSq V c t.val p q := by rw [ht]
    rw [e]
    exact congrArg (_ + ·) (rowSq_at V c t p q).symm

/-- At an emitting point the first output block holds the complete sum of its group's eight row sums. -/
theorem out1_total (c : Dev nD) (p : Fin 8) (q : Fin 128) (t : Fin cfg0.N) (h1 : t.val % 8 = 7) :
    (outsAt V c t.val t.isLt).1 (ix4 p q (0 : Fin 1) (0 : Fin 1)) = 0 + ∑ k' ∈ Finset.range 8, rowSum V c (8 * (t.val / 8) + k') p q := by
  have hN : cfg0.N = 64 := N_0
  have hprev : t.val - 1 < cfg0.N := by have := t.isLt; omega
  rw [out1_last V c t h1, pay3_apply]
  rw [show (prevAt V c t).2.2.1 (ix4 p q (0 : Fin 1) (0 : Fin 1)) = _ from
    acc_partial V c p q (t.val / 8) 6 ⟨t.val - 1, hprev⟩ (by omega) (by show t.val - 1 = 8 * (t.val / 8) + 6; omega)]
  rw [Finset.sum_range_succ (fun k' => rowSum V c (8 * (t.val / 8) + k') p q) 7, ← add_assoc]
  have e : rowSum V c (8 * (t.val / 8) + 7) p q = rowSum V c t.val p q := by rw [show 8 * (t.val / 8) + 7 = t.val by omega]
  rw [e]
  exact congrArg (_ + ·) (rowSum_at V c t p q).symm
theorem out2_total (c : Dev nD) (p : Fin 8) (q : Fin 128) (t : Fin cfg0.N) (h1 : t.val % 8 = 7) :
    (outsAt V c t.val t.isLt).2.1 (ix4 p q (0 : Fin 1) (0 : Fin 1)) = 0 + ∑ k' ∈ Finset.range 8, rowSq V c (8 * (t.val / 8) + k') p q := by
  have hN : cfg0.N = 64 := N_0
  have hprev : t.val - 1 < cfg0.N := by have := t.isLt; omega
  rw [out2_last V c t h1, pay4_apply]
  rw [show (prevAt V c t).2.2.2 (ix4 p q (0 : Fin 1) (0 : Fin 1)) = _ from
    sq_partial V c p q (t.val / 8) 6 ⟨t.val - 1, hprev⟩ (by omega) (by show t.val - 1 = 8 * (t.val / 8) + 6; omega)]
  rw [Finset.sum_range_succ (fun k' => rowSq V c (8 * (t.val / 8) + k') p q) 7, ← add_assoc]
  have e : rowSq V c (8 * (t.val / 8) + 7) p q = rowSq V c t.val p q := by rw [show 8 * (t.val / 8) + 7 = t.val by omega]
  rw [e]
  exact congrArg (_ + ·) (rowSq_at V c t p q).symm

/-! ## The two output arrays -/

/-- The grid point at position k of group g along the summed axis. -/
def pt (g k : Fin 8) : Fin cfg0.N :=
  ⟨8 * g.val + k.val, lt_of_lt_of_eq (by have := g.isLt; have := k.isLt; omega : 8 * g.val + k.val < 64) N_0.symm⟩

/-- The printed index maps along a group, decided: x's block follows the outputs' block on the first two axes, walks
    the eight row-blocks on the third and is the whole last axis; the outputs' blocks sit at 0 on their unit axes. -/
theorem grp_facts : ∀ g k : Fin 8,
    win0_0.index (pt g k) (0 : Fin 4) = win0_1.index (pt g 7) (0 : Fin 4) ∧ win0_0.index (pt g k) (1 : Fin 4) = win0_1.index (pt g 7) (1 : Fin 4)
    ∧ win0_0.index (pt g k) (2 : Fin 4) = k.val ∧ win0_0.index (pt g k) (3 : Fin 4) = 0
    ∧ win0_1.index (pt g 7) (2 : Fin 4) = 0 ∧ win0_1.index (pt g 7) (3 : Fin 4) = 0
    ∧ win0_2.index (pt g 7) (0 : Fin 4) = win0_1.index (pt g 7) (0 : Fin 4) ∧ win0_2.index (pt g 7) (1 : Fin 4) = win0_1.index (pt g 7) (1 : Fin 4)
    ∧ win0_2.index (pt g 7) (2 : Fin 4) = 0 ∧ win0_2.index (pt g 7) (3 : Fin 4) = 0 := by
  decide +kernel

/-- Every block of the output arrays is some emitting point's. -/
theorem idx_onto1 : ∀ (q0 : Fin 4) (q1 : Fin 2), ∃ t : Fin cfg0.N, (cfg0.win 1).flush t = true ∧ win0_1.index t = ![q0.val, q1.val, 0, 0]
    ∧ (cfg0.win 2).flush t = true ∧ win0_2.index t = ![q0.val, q1.val, 0, 0] :=
  (by decide +kernel : ∀ (q0 : Fin 4) (q1 : Fin 2), ∃ t : Fin grid0.N, win0_1.flush t = true ∧ win0_1.index t = ![q0.val, q1.val, 0, 0]
    ∧ win0_2.flush t = true ∧ win0_2.index t = ![q0.val, q1.val, 0, 0])
theorem idx_onto2 (q0 : Fin 4) (q1 : Fin 2) : ∃ t : Fin cfg0.N, (cfg0.win 2).flush t = true ∧ win0_2.index t = ![q0.val, q1.val, 0, 0] := by
  obtain ⟨t, -, -, h2, h3⟩ := idx_onto1 q0 q1
  exact ⟨t, h2, h3⟩

/-- What an emitting point writes back into output array 1 is its block of `sumArr` of x as the region finds it. -/
theorem flushed1_eq (c : Dev nD) (t : Fin cfg0.N) (hf : (cfg0.win 1).flush t = true) :
    (dat V c).flushed 1 t = ((cfg0.win 1).blk t).view.read (Elt Ideal) (sumArr (V c main_arg0)) := by
  have h1 : t.val % 8 = 7 := (flush0_1 t).mp hf
  have hN : cfg0.N = 64 := N_0
  have htlt : t.val < 64 := hN ▸ t.isLt
  have hg8 : t.val / 8 < 8 := by omega
  show (cfg0.win 1).cut (grid0.coords t) ((dat V c).after 1 t) = _
  rw [after1]
  funext y
  obtain ⟨p, q, u, v, rfl⟩ : ∃ (p : Fin 8) (q : Fin 128) (u v : Fin 1), y = ix4 p q u v := ⟨y 0, y 1, y 2, y 3, eq_ix4 y⟩
  obtain rfl : u = 0 := Subsingleton.elim _ _
  obtain rfl : v = 0 := Subsingleton.elim _ _
  show (outsAt V c t.val t.isLt).1 (ix4 p q (0 : Fin 1) (0 : Fin 1)) = sumArr (V c main_arg0) (((cfg0.win 1).blk t).view.emb (ix4 p q (0 : Fin 1) (0 : Fin 1)))
  rw [out1_total V c p q t h1, Finset.sum_range]
  unfold sumArr
  refine congrArg (0 + ·) (Finset.sum_congr rfl fun k _ => ?_)
  have ht : t = pt ⟨t.val / 8, hg8⟩ 7 := Fin.ext (by show t.val = 8 * (t.val / 8) + 7; omega)
  obtain ⟨e0, e1, e2, e3, f2, f3, g0, g1, g2, g3⟩ := grp_facts ⟨t.val / 8, hg8⟩ k
  rw [← ht] at e0 e1 f2 f3 g0 g1 g2 g3
  rw [show 8 * (t.val / 8) + k.val = (pt ⟨t.val / 8, hg8⟩ k).val from rfl, rowSum_at]
  refine Finset.sum_congr rfl fun r _ => Finset.sum_congr rfl fun w _ => ?_
  have hp : p.val < 8 := p.isLt
  have hq : q.val < 128 := q.isLt
  have hr : r.val < 8 := r.isLt
  have hk : k.val < 8 := k.isLt
  have e : @Eq S32x256x64x64.Idx (((cfg0.win 0).blk (pt ⟨t.val / 8, hg8⟩ k)).view.emb (ix4 p q r w))
      (ix4 (⟨((((cfg0.win 1).blk t).view.emb (ix4 p q (0 : Fin 1) (0 : Fin 1))) 0).val, ((((cfg0.win 1).blk t).view.emb (ix4 p q (0 : Fin 1) (0 : Fin 1))) 0).isLt⟩ : Fin 32)
          (⟨((((cfg0.win 1).blk t).view.emb (ix4 p q (0 : Fin 1) (0 : Fin 1))) 1).val, ((((cfg0.win 1).blk t).view.emb (ix4 p q (0 : Fin 1) (0 : Fin 1))) 1).isLt⟩ : Fin 256)
          (⟨8 * k.val + r.val, by omega⟩ : Fin 64) w) := by
    funext a; apply Fin.ext
    match a with
    | ⟨0, _⟩ => show win0_0.index (pt ⟨t.val / 8, hg8⟩ k) (0 : Fin 4) * 8 + 1 * p.val = win0_1.index t (0 : Fin 4) * 8 + 1 * p.val; omega
    | ⟨1, _⟩ => show win0_0.index (pt ⟨t.val / 8, hg8⟩ k) (1 : Fin 4) * 128 + 1 * q.val = win0_1.index t (1 : Fin 4) * 128 + 1 * q.val; omega
    | ⟨2, _⟩ => show win0_0.index (pt ⟨t.val / 8, hg8⟩ k) (2 : Fin 4) * 8 + 1 * r.val = 8 * k.val + r.val; omega
    | ⟨3, _⟩ => show win0_0.index (pt ⟨t.val / 8, hg8⟩ k) (3 : Fin 4) * 64 + 1 * w.val = w.val; omega
  exact congrArg (fun j => xarr V c j) e

theorem mem_blk1 (t : Fin cfg0.N) (i : S32x256x1x1.Idx) :
    i ∈ ((cfg0.win 1).blk t).view.set ↔ ∀ a : Fin 4, win0_1.index t a * S8x128x1x1.size a ≤ (i a).val ∧ (i a).val < win0_1.index t a * S8x128x1x1.size a + S8x128x1x1.size a := by
  show i ∈ ((View.whole main_v0_0).slice (win0_1.rect t)).set ↔ _
  rw [View.set_slice_whole, Rect.mem_set_unit]
  exact Iff.rfl

theorem cover1 (i : S32x256x1x1.Idx) : ∃ t : Fin cfg0.N, (cfg0.win 1).flush t = true ∧ i ∈ ((cfg0.win 1).blk t).view.set := by
  have hi0 : (i 0).val < 32 := (i 0).isLt
  have hi1 : (i 1).val < 256 := (i 1).isLt
  have hi2 : (i 2).val < 1 := (i 2).isLt
  have hi3 : (i 3).val < 1 := (i 3).isLt
  obtain ⟨t, hf, ht, -, -⟩ := idx_onto1 ⟨(i 0).val / 8, by omega⟩ ⟨(i 1).val / 128, by omega⟩
  have q0 : win0_1.index t (0 : Fin 4) = (i 0).val / 8 := congrFun ht 0
  have q1 : win0_1.index t (1 : Fin 4) = (i 1).val / 128 := congrFun ht 1
  have q2 : win0_1.index t (2 : Fin 4) = 0 := congrFun ht 2
  have q3 : win0_1.index t (3 : Fin 4) = 0 := congrFun ht 3
  refine ⟨t, hf, ?_⟩
  rw [mem_blk1]
  intro a
  match a with
  | ⟨0, _⟩ => show win0_1.index t (0 : Fin 4) * 8 ≤ (i 0).val ∧ (i 0).val < win0_1.index t (0 : Fin 4) * 8 + 8; omega
  | ⟨1, _⟩ => show win0_1.index t (1 : Fin 4) * 128 ≤ (i 1).val ∧ (i 1).val < win0_1.index t (1 : Fin 4) * 128 + 128; omega
  | ⟨2, _⟩ => show win0_1.index t (2 : Fin 4) * 1 ≤ (i 2).val ∧ (i 2).val < win0_1.index t (2 : Fin 4) * 1 + 1; omega
  | ⟨3, _⟩ => show win0_1.index t (3 : Fin 4) * 1 ≤ (i 3).val ∧ (i 3).val < win0_1.index t (3 : Fin 4) * 1 + 1; omega

/-- OUTPUT ARRAY 1 after the launch. -/
theorem final1 (c : Dev nD) : (dat V c).arrAt 1 cfg0.N = sumArr (V c main_arg0) :=
  (dat V c).arrAt_eq_of_cover 1 _ (fun t hf => flushed1_eq V c t hf) (cover1)

/-- What an emitting point writes back into output array 2 is its block of `sqArr` of x as the region finds it. -/
theorem flushed2_eq (c : Dev nD) (t : Fin cfg0.N) (hf : (cfg0.win 2).flush t = true) :
    (dat V c).flushed 2 t = ((cfg0.win 2).blk t).view.read (Elt Ideal) (sqArr (V c main_arg0)) := by
  have h1 : t.val % 8 = 7 := (flush0_2 t).mp hf
  have hN : cfg0.N = 64 := N_0
  have htlt : t.val < 64 := hN ▸ t.isLt
  have hg8 : t.val / 8 < 8 := by omega
  show (cfg0.win 2).cut (grid0.coords t) ((dat V c).after 2 t) = _
  rw [after2]
  funext y
  obtain ⟨p, q, u, v, rfl⟩ : ∃ (p : Fin 8) (q : Fin 128) (u v : Fin 1), y = ix4 p q u v := ⟨y 0, y 1, y 2, y 3, eq_ix4 y⟩
  obtain rfl : u = 0 := Subsingleton.elim _ _
  obtain rfl : v = 0 := Subsingleton.elim _ _
  show (outsAt V c t.val t.isLt).2.1 (ix4 p q (0 : Fin 1) (0 : Fin 1)) = sqArr (V c main_arg0) (((cfg0.win 2).blk t).view.emb (ix4 p q (0 : Fin 1) (0 : Fin 1)))
  rw [out2_total V c p q t h1, Finset.sum_range]
  unfold sqArr
  refine congrArg (0 + ·) (Finset.sum_congr rfl fun k _ => ?_)
  have ht : t = pt ⟨t.val / 8, hg8⟩ 7 := Fin.ext (by show t.val = 8 * (t.val / 8) + 7; omega)
  obtain ⟨e0, e1, e2, e3, f2, f3, g0, g1, g2, g3⟩ := grp_facts ⟨t.val / 8, hg8⟩ k
  rw [← ht] at e0 e1 f2 f3 g0 g1 g2 g3
  rw [show 8 * (t.val / 8) + k.val = (pt ⟨t.val / 8, hg8⟩ k).val from rfl, rowSq_at]
  refine Finset.sum_congr rfl fun r _ => Finset.sum_congr rfl fun w _ => ?_
  have hp : p.val < 8 := p.isLt
  have hq : q.val < 128 := q.isLt
  have hr : r.val < 8 := r.isLt
  have hk : k.val < 8 := k.isLt
  have e : @Eq S32x256x64x64.Idx (((cfg0.win 0).blk (pt ⟨t.val / 8, hg8⟩ k)).view.emb (ix4 p q r w))
      (ix4 (⟨((((cfg0.win 2).blk t).view.emb (ix4 p q (0 : Fin 1) (0 : Fin 1))) 0).val, ((((cfg0.win 2).blk t).view.emb (ix4 p q (0 : Fin 1) (0 : Fin 1))) 0).isLt⟩ : Fin 32)
          (⟨((((cfg0.win 2).blk t).view.emb (ix4 p q (0 : Fin 1) (0 : Fin 1))) 1).val, ((((cfg0.win 2).blk t).view.emb (ix4 p q (0 : Fin 1) (0 : Fin 1))) 1).isLt⟩ : Fin 256)
          (⟨8 * k.val + r.val, by omega⟩ : Fin 64) w) := by
    funext a; apply Fin.ext
    match a with
    | ⟨0, _⟩ => show win0_0.index (pt ⟨t.val / 8, hg8⟩ k) (0 : Fin 4) * 8 + 1 * p.val = win0_2.index t (0 : Fin 4) * 8 + 1 * p.val; omega
    | ⟨1, _⟩ => show win0_0.index (pt ⟨t.val / 8, hg8⟩ k) (1 : Fin 4) * 128 + 1 * q.val = win0_2.index t (1 : Fin 4) * 128 + 1 * q.val; omega
    | ⟨2, _⟩ => show win0_0.index (pt ⟨t.val / 8, hg8⟩ k) (2 : Fin 4) * 8 + 1 * r.val = 8 * k.val + r.val; omega
    | ⟨3, _⟩ => show win0_0.index (pt ⟨t.val / 8, hg8⟩ k) (3 : Fin 4) * 64 + 1 * w.val = w.val; omega
  exact congrArg (fun j => xarr V c j * xarr V c j) e

theorem mem_blk2 (t : Fin cfg0.N) (i : S32x256x1x1.Idx) :
    i ∈ ((cfg0.win 2).blk t).view.set ↔ ∀ a : Fin 4, win0_2.index t a * S8x128x1x1.size a ≤ (i a).val ∧ (i a).val < win0_2.index t a * S8x128x1x1.size a + S8x128x1x1.size a := by
  show i ∈ ((View.whole main_v0_1).slice (win0_2.rect t)).set ↔ _
  rw [View.set_slice_whole, Rect.mem_set_unit]
  exact Iff.rfl

theorem cover2 (i : S32x256x1x1.Idx) : ∃ t : Fin cfg0.N, (cfg0.win 2).flush t = true ∧ i ∈ ((cfg0.win 2).blk t).view.set := by
  have hi0 : (i 0).val < 32 := (i 0).isLt
  have hi1 : (i 1).val < 256 := (i 1).isLt
  have hi2 : (i 2).val < 1 := (i 2).isLt
  have hi3 : (i 3).val < 1 := (i 3).isLt
  obtain ⟨t, hf', ht'⟩ := idx_onto2 ⟨(i 0).val / 8, by omega⟩ ⟨(i 1).val / 128, by omega⟩
  have q0 : win0_2.index t (0 : Fin 4) = (i 0).val / 8 := congrFun ht' 0
  have q1 : win0_2.index t (1 : Fin 4) = (i 1).val / 128 := congrFun ht' 1
  have q2 : win0_2.index t (2 : Fin 4) = 0 := congrFun ht' 2
  have q3 : win0_2.index t (3 : Fin 4) = 0 := congrFun ht' 3
  refine ⟨t, hf', ?_⟩
  rw [mem_blk2]
  intro a
  match a with
  | ⟨0, _⟩ => show win0_2.index t (0 : Fin 4) * 8 ≤ (i 0).val ∧ (i 0).val < win0_2.index t (0 : Fin 4) * 8 + 8; omega
  | ⟨1, _⟩ => show win0_2.index t (1 : Fin 4) * 128 ≤ (i 1).val ∧ (i 1).val < win0_2.index t (1 : Fin 4) * 128 + 128; omega
  | ⟨2, _⟩ => show win0_2.index t (2 : Fin 4) * 1 ≤ (i 2).val ∧ (i 2).val < win0_2.index t (2 : Fin 4) * 1 + 1; omega
  | ⟨3, _⟩ => show win0_2.index t (3 : Fin 4) * 1 ≤ (i 3).val ∧ (i 3).val < win0_2.index t (3 : Fin 4) * 1 + 1; omega

/-- OUTPUT ARRAY 2 after the launch. -/
theorem final2 (c : Dev nD) : (dat V c).arrAt 2 cfg0.N = sqArr (V c main_arg0) :=
  (dat V c).arrAt_eq_of_cover 2 _ (fun t hf => flushed2_eq V c t hf) (cover2)

end Closed

end Cert.KernelIdeal.Stats

end
-- ==== Proof.MixWeights.lean ====
/-
  The mixing weights of a three-way blend: a three-element weight vector passed twice through the
  softmax, written with the host's operations exactly as a traced `softmax (softmax w)` spells them
  (subtract the maximum, exponentiate, divide by the sum), over literal shapes. No program is
  mentioned here; two programs that both apply this chain to a weight vector apply this one function.
-/
import Idealize.ShloMosaic.PureOps

noncomputable section

namespace Cert.MixWeights

open Idealize.ShloMosaic

variable {F : FTy → Type} [FloatOps F]

/-- Reducing a three-element vector along its one axis leaves a scalar. -/
theorem reduces3 : (⟨1, ![3]⟩ : Shape).ReducesTo [0] ⟨0, ![]⟩ := by decide
/-- A scalar has one element. -/
theorem scalar_pos : 0 < (⟨0, ![]⟩ : Shape).numel := by decide
/-- A scalar broadcasts to a one-element vector. -/
theorem bcast01 : (⟨0, ![]⟩ : Shape).BroadcastsInDim ⟨1, ![1]⟩ (![] : Fin 0 → Fin (⟨1, ![1]⟩ : Shape).rank) := by decide
/-- A one-element vector broadcasts to a three-element vector along the axis. -/
theorem bcast13 : (⟨1, ![1]⟩ : Shape).BroadcastsInDim ⟨1, ![3]⟩ (![0] : Fin 1 → Fin (⟨1, ![3]⟩ : Shape).rank) := by decide

/-- A scalar repeated into a three-element vector, in the two steps the trace takes
    (scalar to one element, one element to three). -/
def splat3 (x : FVec F ⟨0, ![]⟩ .f32) : FVec F ⟨1, ![3]⟩ .f32 :=
  broadcastInDim ⟨1, ![3]⟩ ![0] bcast13 (broadcastInDim ⟨1, ![1]⟩ ![] bcast01 x)

/-- The shifted exponentials of a softmax: `exp (w - max w)`, the maximum taken from `-∞` and once
    more against `-∞`, as the trace writes it. -/
def expShift (w : FVec F ⟨1, ![3]⟩ .f32) : FVec F ⟨1, ![3]⟩ .f32 :=
  Host.exp (subf w (splat3 (maximumf (constant ⟨0, ![]⟩ .f32 0xFF800000#32)
    (Host.reduce FloatOps.maximumf w (constant ⟨0, ![]⟩ .f32 0xFF800000#32) reduces3 scalar_pos))))

/-- One softmax: the shifted exponentials over their sum (the sum taken from `0`). -/
def softmax3 (w : FVec F ⟨1, ![3]⟩ .f32) : FVec F ⟨1, ![3]⟩ .f32 :=
  Host.divf (expShift w) (splat3 (Host.reduceAdd (expShift w) (constant ⟨0, ![]⟩ .f32 0x00000000#32) reduces3 scalar_pos))

/-- The softmax applied twice: the blend's three mixing weights. -/
def dsoftmax (w : FVec F ⟨1, ![3]⟩ .f32) : FVec F ⟨1, ![3]⟩ .f32 :=
  softmax3 (softmax3 w)

end Cert.MixWeights

end
-- ==== Proof.KernelHost.lean ====
/-
  What the host computes between the two kernels: from the per-image-per-channel sums and sums of
  squares the first kernel leaves, the blended mean and the blended variance (plus the stabilising
  constant) the second kernel reads, as pure terms of the buffers' contents when the stretch starts.
-/
import proofs.«175668_j16295105921565_2_alg».proof.Proof.Gen.KernelIdeal.Launch
import proofs.«175668_j16295105921565_2_alg».proof.Proof.MixWeights

set_option maxRecDepth 4000

noncomputable section

namespace Cert.KernelIdeal.HostMid

open Idealize.ShloMosaic Idealize.SL.Sem Cert.KernelIdeal Cert.KernelIdeal.Gen
open Idealize.ShloMosaic.StableHlo

variable {F : FTy → Type} [FloatOps F]

/-! ### The pure terms -/

/-- The sums as a 32 × 256 array (the two unit axes dropped). -/
def flat (s : FVec F S32x256x1x1 .f32) : FVec F S32x256 .f32 :=
  shapeCast S32x256 s shapeCasts_S32x256x1x1_S32x256

/-- A scalar constant repeated over a shape. -/
def splat (t : Shape) (h : S_.BroadcastsInDim t (![] : Fin 0 → Fin t.rank)) (b : BitVec 32) : FVec F t .f32 :=
  broadcastInDim t ![] h (constant S_ .f32 b)

/-- Per image and channel: the sum over the 4096 positions divided by 4096. -/
def perIn (s : FVec F S32x256x1x1 .f32) : FVec F S32x256 .f32 :=
  Host.divf (flat s) (splat S32x256 bcast_S_S32x256 0x45800000#32)

/-- Per channel: the sums added over the 32 images (from zero), divided by 131072. -/
def perBn (s : FVec F S32x256x1x1 .f32) : FVec F S256 .f32 :=
  Host.divf (Host.reduceAdd (flat s) (constant S_ .f32 0x00000000#32) reducesTo_S32x256_S256_d0 h_S_)
    (splat S256 bcast_S_S256 0x48000000#32)

/-- Per image: the sums added over the 256 channels (from zero), divided by 1048576. -/
def perLn (s : FVec F S32x256x1x1 .f32) : FVec F S32 .f32 :=
  Host.divf (Host.reduceAdd (flat s) (constant S_ .f32 0x00000000#32) reducesTo_S32x256_S32_d1 h_S_)
    (splat S32 bcast_S_S32 0x49800000#32)

/-- The instance-wise mean: the sums' `perIn`. -/
def meanIn (s1 : FVec F S32x256x1x1 .f32) : FVec F S32x256 .f32 := perIn s1
/-- The batch-wise mean. -/
def meanBn (s1 : FVec F S32x256x1x1 .f32) : FVec F S256 .f32 := perBn s1
/-- The layer-wise mean. -/
def meanLn (s1 : FVec F S32x256x1x1 .f32) : FVec F S32 .f32 := perLn s1

/-- The instance-wise variance: mean of squares less squared mean, bounded below by zero. -/
def varIn (s1 s2 : FVec F S32x256x1x1 .f32) : FVec F S32x256 .f32 :=
  maximumf (subf (perIn s2) (mulf (perIn s1) (perIn s1))) (splat S32x256 bcast_S_S32x256 0x00000000#32)
/-- The batch-wise variance. -/
def varBn (s1 s2 : FVec F S32x256x1x1 .f32) : FVec F S256 .f32 :=
  maximumf (subf (perBn s2) (mulf (perBn s1) (perBn s1))) (splat S256 bcast_S_S256 0x00000000#32)
/-- The layer-wise variance. -/
def varLn (s1 s2 : FVec F S32x256x1x1 .f32) : FVec F S32 .f32 :=
  maximumf (subf (perLn s2) (mulf (perLn s1) (perLn s1))) (splat S32 bcast_S_S32 0x00000000#32)

/-- Element 0 of a three-element vector, as a scalar. -/
def pick0 (w : FVec F S3 .f32) : FVec F S_ .f32 := shapeCast S_ (extractStridedSlice S1 ![0] w slices_S3_S1_0) shapeCasts_S1_S_
/-- Element 1 of a three-element vector, as a scalar. -/
def pick1 (w : FVec F S3 .f32) : FVec F S_ .f32 := shapeCast S_ (extractStridedSlice S1 ![1] w slices_S3_S1_1) shapeCasts_S1_S_
/-- Element 2 of a three-element vector, as a scalar. -/
def pick2 (w : FVec F S3 .f32) : FVec F S_ .f32 := shapeCast S_ (extractStridedSlice S1 ![2] w slices_S3_S1_2) shapeCasts_S1_S_

/-- The blend of a per-channel, a per-image-per-channel and a per-image statistic by the three weights `w`:
    `(bn · w₀ + in · w₁) + ln · w₂`, each factor broadcast to 32 × 256 as the trace does it. -/
def blend (bn : FVec F S256 .f32) (inn : FVec F S32x256 .f32) (ln : FVec F S32 .f32) (w : FVec F S3 .f32) :
    FVec F S32x256 .f32 :=
  addf
    (addf
      (broadcastInDim S32x256 ![0, 1] bcast_S1x256_S32x256_0_1
        (mulf (broadcastInDim S1x256 ![1] bcast_S256_S1x256_1 bn) (broadcastInDim S1x256 ![] bcast_S_S1x256 (pick0 w))))
      (mulf inn (broadcastInDim S32x256 ![] bcast_S_S32x256 (pick1 w))))
    (broadcastInDim S32x256 ![0, 1] bcast_S32x1_S32x256_0_1
      (mulf (broadcastInDim S32x1 ![0] bcast_S32_S32x1_0 ln) (broadcastInDim S32x1 ![] bcast_S_S32x1 (pick2 w))))

/-- The blended mean as a 32 × 256 array. -/
def mean2d (s1 : FVec F S32x256x1x1 .f32) (w3 : FVec F S3 .f32) : FVec F S32x256 .f32 :=
  blend (meanBn s1) (meanIn s1) (meanLn s1) (Cert.MixWeights.dsoftmax w3)

/-- The blended variance plus the constant `0x3727C5AC`, as a 32 × 256 array. -/
def var2d (s1 s2 : FVec F S32x256x1x1 .f32) (w4 : FVec F S3 .f32) : FVec F S32x256 .f32 :=
  addf (blend (varBn s1 s2) (varIn s1 s2) (varLn s1 s2) (Cert.MixWeights.dsoftmax w4))
    (splat S32x256 bcast_S_S32x256 0x3727C5AC#32)

/-- A 32 × 256 array as a 32 × 256 × 1 × 1 one. -/
def cols (x : FVec F S32x256 .f32) : FVec F S32x256x1x1 .f32 :=
  broadcastInDim S32x256x1x1 ![0, 1] bcast_S32x256_S32x256x1x1_0_1 x

/-- The blended mean the second kernel reads. -/
def meanCols (s1 : FVec F S32x256x1x1 .f32) (w3 : FVec F S3 .f32) : FVec F S32x256x1x1 .f32 := cols (mean2d s1 w3)
/-- The blended variance plus the constant, which the second kernel reads. -/
def varCols (s1 s2 : FVec F S32x256x1x1 .f32) (w4 : FVec F S3 .f32) : FVec F S32x256x1x1 .f32 := cols (var2d s1 s2 w4)

/-- A 256-element vector as a 1 × 256 × 1 × 1 array. -/
def chan (g : FVec F S256 .f32) : FVec F S1x256x1x1 .f32 := shapeCast S1x256x1x1 g shapeCasts_S256_S1x256x1x1

/-! ### What the stretch leaves in the four buffers the second kernel reads -/

set_option maxHeartbeats 4000000 in
/-- After the 138 host operations, from any contents `W`: the buffer of the blended mean holds `meanCols` of the
    first kernel's sums and the mean's weight vector as `W` has them. -/
theorem mid_v109 (W : Valuation τ sig (Elt F)) :
    StableHlo.after main_part2_ops0 (StableHlo.after main_part1_ops0 (StableHlo.after main_part0_ops0 W)) (Proc.devRef .tc main_v109)
      = meanCols (W (Proc.devRef .tc main_v0_0)) (W (Proc.devRef .tc main_arg3)) := by
  after_results_simp
  rfl

set_option maxHeartbeats 4000000 in
/-- … the buffer of the blended variance holds `varCols` of the sums, the sums of squares and the variance's weight
    vector; -/
theorem mid_v110 (W : Valuation τ sig (Elt F)) :
    StableHlo.after main_part2_ops0 (StableHlo.after main_part1_ops0 (StableHlo.after main_part0_ops0 W)) (Proc.devRef .tc main_v110)
      = varCols (W (Proc.devRef .tc main_v0_0)) (W (Proc.devRef .tc main_v0_1)) (W (Proc.devRef .tc main_arg4)) := by
  after_results_simp
  rfl

/-- … the scale's buffer holds the scale vector as a 1 × 256 × 1 × 1 array; -/
theorem mid_v111 (W : Valuation τ sig (Elt F)) :
    StableHlo.after main_part2_ops0 (StableHlo.after main_part1_ops0 (StableHlo.after main_part0_ops0 W)) (Proc.devRef .tc main_v111)
      = chan (W (Proc.devRef .tc main_arg1)) := by
  after_results_simp
  rfl

/-- … and the shift's buffer the shift vector likewise. -/
theorem mid_v112 (W : Valuation τ sig (Elt F)) :
    StableHlo.after main_part2_ops0 (StableHlo.after main_part1_ops0 (StableHlo.after main_part0_ops0 W)) (Proc.devRef .tc main_v112)
      = chan (W (Proc.devRef .tc main_arg2)) := by
  after_results_simp
  rfl

/-- The stretch writes none of the program's arguments: the input array is as it was. -/
theorem mid_arg0 (W : Valuation τ sig (Elt F)) :
    StableHlo.after main_part2_ops0 (StableHlo.after main_part1_ops0 (StableHlo.after main_part0_ops0 W)) (Proc.devRef .tc main_arg0)
      = W (Proc.devRef .tc main_arg0) := by
  after_results_simp

end Cert.KernelIdeal.HostMid

end
-- ==== Proof.KernelValue.lean ====
/-
  The idealized kernel program's result as ONE function of its five argument arrays: the normalize launch's closed form
  over what the host stretch leaves (the mixed mean and variance columns and the per-channel weight and bias columns),
  those over what the statistics launch leaves (the per-(n, c) sums of x and of its squares), each boundary's contents
  read back through the run's fold.
-/
import proofs.«175668_j16295105921565_2_alg».proof.Proof.Gen.KernelIdeal.Launch
import proofs.«175668_j16295105921565_2_alg».proof.Proof.Gen.KernelIdeal.Skeleton
import proofs.«175668_j16295105921565_2_alg».proof.Proof.Gen.KernelIdeal.Points
import proofs.«175668_j16295105921565_2_alg».proof.Proof.KernelRun
import proofs.«175668_j16295105921565_2_alg».proof.Proof.NormValue
import proofs.«175668_j16295105921565_2_alg».proof.Proof.StatsValue
import proofs.«175668_j16295105921565_2_alg».proof.Proof.KernelHost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Run

variable (m : (ℓ : Loc nD τ sig) → Buf (Elt Ideal) ℓ) (ρ : Dev nD → PrngReg)

/-- After the statistics launch its two outputs hold the per-(n, c) sums of x and of its squares. -/
theorem W1_sums (c : Dev nD) :
    W1 m ρ c (Proc.devRef .tc main_v0_0) = Stats.sumArr (m ((c : Thread nD τ).loc main_arg0)) :=
  (W1_arr m ρ c 1).trans (Stats.final1 (V0 m ρ) c)
theorem W1_squares (c : Dev nD) :
    W1 m ρ c (Proc.devRef .tc main_v0_1) = Stats.sqArr (m ((c : Thread nD τ).loc main_arg0)) :=
  (W1_arr m ρ c 2).trans (Stats.final2 (V0 m ρ) c)
theorem W1_arg0 (c : Dev nD) : W1 m ρ c (Proc.devRef .tc main_arg0) = m ((c : Thread nD τ).loc main_arg0) :=
  (W1_arr m ρ c 0).trans (((Stats.dat (V0 m ρ) c).arrAt_in 0 rfl _).trans (Stats.A_eq (V0 m ρ) c 0))
theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg4 (c : Dev nD) : W1 m ρ c (Proc.devRef .tc main_arg4) = m ((c : Thread nD τ).loc main_arg4) := W1_of_ne m ρ c main_arg4 (by decide)

/-- THE RESULT ARRAY after the run. -/
theorem result_eq (c : Dev nD) :
    W5 m ρ c (Proc.devRef .tc main_v113)
      = Norm.G (m ((c : Thread nD τ).loc main_arg0))
          (HostMid.meanCols (F := Ideal) (Stats.sumArr (m ((c : Thread nD τ).loc main_arg0))) (m ((c : Thread nD τ).loc main_arg3)))
          (HostMid.varCols (F := Ideal) (Stats.sumArr (m ((c : Thread nD τ).loc main_arg0))) (Stats.sqArr (m ((c : Thread nD τ).loc main_arg0))) (m ((c : Thread nD τ).loc main_arg4)))
          (HostMid.chan (F := Ideal) (m ((c : Thread nD τ).loc main_arg1))) (HostMid.chan (F := Ideal) (m ((c : Thread nD τ).loc main_arg2))) := by
  refine (W5_arr m ρ c 5).trans ((Norm.final (V4 m ρ) c).trans ?_)
  have e0 : V4 m ρ c main_arg0 = m ((c : Thread nD τ).loc main_arg0) :=
    (HostMid.mid_arg0 (W1 m ρ c)).trans (W1_arg0 m ρ c)
  have e1 : V4 m ρ c main_v109 = HostMid.meanCols (F := Ideal) (Stats.sumArr (m ((c : Thread nD τ).loc main_arg0))) (m ((c : Thread nD τ).loc main_arg3)) := by
    refine (HostMid.mid_v109 (W1 m ρ c)).trans ?_
    rw [W1_sums, W1_arg3]
  have e2 : V4 m ρ c main_v110 = HostMid.varCols (F := Ideal) (Stats.sumArr (m ((c : Thread nD τ).loc main_arg0))) (Stats.sqArr (m ((c : Thread nD τ).loc main_arg0))) (m ((c : Thread nD τ).loc main_arg4)) := by
    refine (HostMid.mid_v110 (W1 m ρ c)).trans ?_
    rw [W1_sums, W1_squares, W1_arg4]
  have e3 : V4 m ρ c main_v111 = HostMid.chan (F := Ideal) (m ((c : Thread nD τ).loc main_arg1)) := by
    refine (HostMid.mid_v111 (W1 m ρ c)).trans ?_
    rw [W1_arg1]
  have e4 : V4 m ρ c main_v112 = HostMid.chan (F := Ideal) (m ((c : Thread nD τ).loc main_arg2)) := by
    refine (HostMid.mid_v112 (W1 m ρ c)).trans ?_
    rw [W1_arg2]
  rw [e0, e1, e2, e3, e4]

end Cert.KernelIdeal.Whole

end
-- ==== Proof.RefRun.lean ====
/- The reference program's run, read back.

   @main of the reference is a straight line of 188 host operations once its three calls of the outlined variance
   functions (each calling the outlined `where`) are unfolded at the calls' own buffers. The line is listed in ten
   windows; `main c = seq ops` holds by unfolding. From any memory with zero counters every weakly fair execution
   terminates with each buffer at the fold of the operations over the launch contents (`run_seq`); the fold at the
   result buffer is the named value `out` of the five argument arrays — three means and three two-pass variances of
   the first argument, blended by the softmax applied twice (`Cert.MixWeights.dsoftmax`) to the fourth and to the fifth, then the normalization —
   and the fold at each argument buffer is the argument. The values are generic in the float instance. -/
import proofs.«175668_j16295105921565_2_alg».proof.Defs
import proofs.«175668_j16295105921565_2_alg».proof.Proof.Gen.ReferenceIdeal
import proofs.«175668_j16295105921565_2_alg».proof.Proof.Gen.Pre_finite_inputs
import Idealize.ShloMosaic.Lib.StableHlo.Run
import Idealize.ShloMosaic.Lib.Pipeline.Frame
import proofs.«175668_j16295105921565_2_alg».proof.Proof.MixWeights

noncomputable section

namespace Cert.ReferenceIdeal.RefRun

open Cert.MixWeights (dsoftmax)
open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.2 fun a ha =>
    (List.mem_append.1 ha).elim (List.forall_iff_forall_mem.1 h₁ a) (List.forall_iff_forall_mem.1 h₂ a)

/-! ## The operations, in ten windows -/

/-- The mean over axes (0,2,3), per channel: the sum, the count, the quotient, its reshape; then the `ddof` constant of the first variance call. (7 operations.) -/
abbrev opsMeanBn : List (HloOp τ sig (Elt F)) :=
  [ StableHlo.nullary main_cst (constant S_ .f32 0x00000000#32),
    StableHlo.binary main_arg0 main_cst main_v0 ((fun x v => Host.reduceAdd x v reducesTo_S32x256x64x64_S256_d0_2_3 h_S_) : (⟨S32x256x64x64, .f32⟩ : BufTy).Contents (Elt F) → (⟨S_, .f32⟩ : BufTy).Contents (Elt F) → (⟨S256, .f32⟩ : BufTy).Contents (Elt F)),
    StableHlo.nullary main_cst_0 (constant S_ .f32 0x48000000#32),
    StableHlo.unary main_cst_0 main_v1 (broadcastInDim S256 ![] bcast_S_S256 : (⟨S_, .f32⟩ : BufTy).Contents (Elt F) → (⟨S256, .f32⟩ : BufTy).Contents (Elt F)),
    StableHlo.binary main_v0 main_v1 main_v2 (Host.divf : (⟨S256, .f32⟩ : BufTy).Contents (Elt F) → (⟨S256, .f32⟩ : BufTy).Contents (Elt F) → (⟨S256, .f32⟩ : BufTy).Contents (Elt F)),
    StableHlo.reshape main_v2 main_v3 rfl shapeCasts_S256_S1x256x1x1,
    StableHlo.nullary main_c (constantI S_ 32 0#32) ]

theorem opsMeanBn_sub : (opsMeanBn : List (HloOp τ sig (Elt F))).Forall fun op => op.bufs ⊆ tcRefs τ sig :=
  ⟨nullary_bufs_sub .., binary_bufs_sub .., nullary_bufs_sub .., unary_bufs_sub .., binary_bufs_sub .., reshape_bufs_sub ..,
    nullary_bufs_sub ..⟩
theorem opsMeanBn_fresh : (opsMeanBn : List (HloOp τ sig (Elt F))).Forall fun op => op.fresh = ∅ := by
  simp only [List.Forall]; repeat' constructor
/-- The buffers these operations write. -/
abbrev opsMeanBn_W : List (Ref sig .tc) :=
  [main_cst, main_v0, main_cst_0, main_v1, main_v2, main_v3, main_c]
theorem opsMeanBn_writes : (opsMeanBn : List (HloOp τ sig (Elt F))).Forall fun op =>
    op.writes ⊆ (opsMeanBn_W.map (Proc.devRef (τ := τ) .tc)).toFinset := by
  simp only [List.Forall]
  refine ⟨?_, ?_, ?_, ?_, ?_, ?_, ?_⟩ <;>
    (simp only [nullary_writes, unary_writes, binary_writes, ternary_writes, reshape_writes, Finset.singleton_subset_iff, List.mem_toFinset]
     exact List.mem_map_of_mem (by decide))

/-- The first call, the variance over axes (0,2,3), its operations at the call's own buffers. (22 operations.) -/
abbrev opsVarBn : List (HloOp τ sig (Elt F)) :=
  [ StableHlo.TRef.nullary main_call0.cst (constant S_ .f32 0x00000000#32),
    StableHlo.TRef.binary (TRef.of main_arg0 : TRef sig ⟨S32x256x64x64, .f32⟩) main_call0.cst main_call0.v0 (fun x v => Host.reduceAdd x v reducesTo_S32x256x64x64_S256_d0_2_3 h_S_),
    StableHlo.TRef.unary main_call0.v0 main_call0.v1 (broadcastInDim S1x256x1x1 ![1] bcast_S256_S1x256x1x1_1),
    StableHlo.TRef.nullary main_call0.cst_0 (constant S_ .f32 0x48000000#32),
    StableHlo.TRef.unary main_call0.cst_0 main_call0.v2 (broadcastInDim S1x256x1x1 ![] bcast_S_S1x256x1x1),
    StableHlo.TRef.binary main_call0.v1 main_call0.v2 main_call0.v3 Host.divf,
    StableHlo.TRef.unary main_call0.v3 main_call0.v4 (broadcastInDim S32x256x64x64 ![0, 1, 2, 3] bcast_S1x256x1x1_S32x256x64x64_0_1_2_3),
    StableHlo.TRef.binary (TRef.of main_arg0 : TRef sig ⟨S32x256x64x64, .f32⟩) main_call0.v4 main_call0.v5 subf,
    StableHlo.TRef.binary main_call0.v5 main_call0.v5 main_call0.v6 mulf,
    StableHlo.TRef.unary (TRef.of main_c : TRef sig ⟨S_, .i32⟩) main_call0.v7 (sitofp .f32),
    StableHlo.TRef.nullary main_call0.cst_1 (constant S_ .f32 0x48000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S32x256x64x64_S256_d0_2_3 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

theorem opsVarBn_sub : (opsVarBn : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩
theorem opsVarBn_fresh : (opsVarBn : List (HloOp τ sig (Elt F))).Forall fun op => op.fresh = ∅ := by
  simp only [List.Forall]; repeat' constructor
/-- The buffers these operations write. -/
abbrev opsVarBn_W : List (Ref sig .tc) :=
  [main_call0_cst, main_call0_v0, main_call0_v1, main_call0_cst_0, main_call0_v2, main_call0_v3, main_call0_v4, main_call0_v5,
   main_call0_v6, main_call0_v7, main_call0_cst_1, main_call0_v8, main_call0_cst_2, main_call0_v9, main_call0_v10, main_call0_v11,
   main_call0_cst_3, main_call0_v12, main_call0_cst_4, main_call0_call0_v0, main_call0_call0_v1, main_v4]
theorem opsVarBn_writes : (opsVarBn : List (HloOp τ sig (Elt F))).Forall fun op =>
    op.writes ⊆ (opsVarBn_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- The first variance reshaped; the mean over axes (2,3), per sample and channel; the second `ddof` constant. (8 operations.) -/
abbrev opsMeanIn : List (HloOp τ sig (Elt F)) :=
  [ StableHlo.reshape main_v4 main_v5 rfl shapeCasts_S256_S1x256x1x1,
    StableHlo.nullary main_cst_1 (constant S_ .f32 0x00000000#32),
    StableHlo.binary main_arg0 main_cst_1 main_v6 ((fun x v => Host.reduceAdd x v reducesTo_S32x256x64x64_S32x256_d2_3 h_S_) : (⟨S32x256x64x64, .f32⟩ : BufTy).Contents (Elt F) → (⟨S_, .f32⟩ : BufTy).Contents (Elt F) → (⟨S32x256, .f32⟩ : BufTy).Contents (Elt F)),
    StableHlo.unary main_v6 main_v7 (broadcastInDim S32x256x1x1 ![0, 1] bcast_S32x256_S32x256x1x1_0_1 : (⟨S32x256, .f32⟩ : BufTy).Contents (Elt F) → (⟨S32x256x1x1, .f32⟩ : BufTy).Contents (Elt F)),
    StableHlo.nullary main_cst_2 (constant S_ .f32 0x45800000#32),
    StableHlo.unary main_cst_2 main_v8 (broadcastInDim S32x256x1x1 ![] bcast_S_S32x256x1x1 : (⟨S_, .f32⟩ : BufTy).Contents (Elt F) → (⟨S32x256x1x1, .f32⟩ : BufTy).Contents (Elt F)),
    StableHlo.binary main_v7 main_v8 main_v9 (Host.divf : (⟨S32x256x1x1, .f32⟩ : BufTy).Contents (Elt F) → (⟨S32x256x1x1, .f32⟩ : BufTy).Contents (Elt F) → (⟨S32x256x1x1, .f32⟩ : BufTy).Contents (Elt F)),
    StableHlo.nullary main_c_3 (constantI S_ 32 0#32) ]

theorem opsMeanIn_sub : (opsMeanIn : List (HloOp τ sig (Elt F))).Forall fun op => op.bufs ⊆ tcRefs τ sig :=
  ⟨reshape_bufs_sub .., nullary_bufs_sub .., binary_bufs_sub .., unary_bufs_sub .., nullary_bufs_sub .., unary_bufs_sub ..,
    binary_bufs_sub .., nullary_bufs_sub ..⟩
theorem opsMeanIn_fresh : (opsMeanIn : List (HloOp τ sig (Elt F))).Forall fun op => op.fresh = ∅ := by
  simp only [List.Forall]; repeat' constructor
/-- The buffers these operations write. -/
abbrev opsMeanIn_W : List (Ref sig .tc) :=
  [main_v5, main_cst_1, main_v6, main_v7, main_cst_2, main_v8, main_v9, main_c_3]
theorem opsMeanIn_writes : (opsMeanIn : List (HloOp τ sig (Elt F))).Forall fun op =>
    op.writes ⊆ (opsMeanIn_W.map (Proc.devRef (τ := τ) .tc)).toFinset := by
  simp only [List.Forall]
  refine ⟨?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- The second call, the variance over axes (2,3). (23 operations.) -/
abbrev opsVarIn : List (HloOp τ sig (Elt F)) :=
  [ StableHlo.TRef.nullary main_call1.cst (constant S_ .f32 0x00000000#32),
    StableHlo.TRef.binary (TRef.of main_arg0 : TRef sig ⟨S32x256x64x64, .f32⟩) main_call1.cst main_call1.v0 (fun x v => Host.reduceAdd x v reducesTo_S32x256x64x64_S32x256_d2_3 h_S_),
    StableHlo.TRef.unary main_call1.v0 main_call1.v1 (broadcastInDim S32x256x1x1 ![0, 1] bcast_S32x256_S32x256x1x1_0_1),
    StableHlo.TRef.nullary main_call1.cst_0 (constant S_ .f32 0x45800000#32),
    StableHlo.TRef.unary main_call1.cst_0 main_call1.v2 (broadcastInDim S32x256x1x1 ![] bcast_S_S32x256x1x1),
    StableHlo.TRef.binary main_call1.v1 main_call1.v2 main_call1.v3 Host.divf,
    StableHlo.TRef.unary main_call1.v3 main_call1.v4 (broadcastInDim S32x256x64x64 ![0, 1, 2, 3] bcast_S32x256x1x1_S32x256x64x64_0_1_2_3),
    StableHlo.TRef.binary (TRef.of main_arg0 : TRef sig ⟨S32x256x64x64, .f32⟩) main_call1.v4 main_call1.v5 subf,
    StableHlo.TRef.binary main_call1.v5 main_call1.v5 main_call1.v6 mulf,
    StableHlo.TRef.unary (TRef.of main_c_3 : TRef sig ⟨S_, .i32⟩) main_call1.v7 (sitofp .f32),
    StableHlo.TRef.nullary main_call1.cst_1 (constant S_ .f32 0x45800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S32x256x64x64_S32x256_d2_3 h_S_),
    StableHlo.TRef.unary main_call1.v9 main_call1.v10 (broadcastInDim S32x256x1x1 ![0, 1] bcast_S32x256_S32x256x1x1_0_1),
    StableHlo.TRef.unary main_call1.v8 main_call1.v11 (broadcastInDim S32x256x1x1 ![] bcast_S_S32x256x1x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S32x256x1x1 ![] bcast_S_S32x256x1x1),
    StableHlo.TRef.ternary main_call1.v13 main_call1.v12 main_call1.call0.v1 main_call1.call0.v2 (fun p a b => select (broadcastInDim S32x256x1x1 ![] bcast_S_S32x256x1x1 p) a b) ]

theorem opsVarIn_sub : (opsVarIn : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..⟩
theorem opsVarIn_fresh : (opsVarIn : List (HloOp τ sig (Elt F))).Forall fun op => op.fresh = ∅ := by
  simp only [List.Forall]; repeat' constructor
/-- The buffers these operations write. -/
abbrev opsVarIn_W : List (Ref sig .tc) :=
  [main_call1_cst, main_call1_v0, main_call1_v1, main_call1_cst_0, main_call1_v2, main_call1_v3, main_call1_v4, main_call1_v5,
   main_call1_v6, main_call1_v7, main_call1_cst_1, main_call1_v8, main_call1_cst_2, main_call1_v9, main_call1_v10, main_call1_v11,
   main_call1_v12, main_call1_cst_3, main_call1_v13, main_call1_cst_4, main_call1_call0_v0, main_call1_call0_v1, main_v10]
theorem opsVarIn_writes : (opsVarIn : List (HloOp τ sig (Elt F))).Forall fun op =>
    op.writes ⊆ (opsVarIn_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- The mean over axes (1,2,3), per sample; the third `ddof` constant. (7 operations.) -/
abbrev opsMeanLn : List (HloOp τ sig (Elt F)) :=
  [ StableHlo.nullary main_cst_4 (constant S_ .f32 0x00000000#32),
    StableHlo.binary main_arg0 main_cst_4 main_v11 ((fun x v => Host.reduceAdd x v reducesTo_S32x256x64x64_S32_d1_2_3 h_S_) : (⟨S32x256x64x64, .f32⟩ : BufTy).Contents (Elt F) → (⟨S_, .f32⟩ : BufTy).Contents (Elt F) → (⟨S32, .f32⟩ : BufTy).Contents (Elt F)),
    StableHlo.unary main_v11 main_v12 (broadcastInDim S32x1x1x1 ![0] bcast_S32_S32x1x1x1_0 : (⟨S32, .f32⟩ : BufTy).Contents (Elt F) → (⟨S32x1x1x1, .f32⟩ : BufTy).Contents (Elt F)),
    StableHlo.nullary main_cst_5 (constant S_ .f32 0x49800000#32),
    StableHlo.unary main_cst_5 main_v13 (broadcastInDim S32x1x1x1 ![] bcast_S_S32x1x1x1 : (⟨S_, .f32⟩ : BufTy).Contents (Elt F) → (⟨S32x1x1x1, .f32⟩ : BufTy).Contents (Elt F)),
    StableHlo.binary main_v12 main_v13 main_v14 (Host.divf : (⟨S32x1x1x1, .f32⟩ : BufTy).Contents (Elt F) → (⟨S32x1x1x1, .f32⟩ : BufTy).Contents (Elt F) → (⟨S32x1x1x1, .f32⟩ : BufTy).Contents (Elt F)),
    StableHlo.nullary main_c_6 (constantI S_ 32 0#32) ]

theorem opsMeanLn_sub : (opsMeanLn : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..⟩
theorem opsMeanLn_fresh : (opsMeanLn : List (HloOp τ sig (Elt F))).Forall fun op => op.fresh = ∅ := by
  simp only [List.Forall]; repeat' constructor
/-- The buffers these operations write. -/
abbrev opsMeanLn_W : List (Ref sig .tc) :=
  [main_cst_4, main_v11, main_v12, main_cst_5, main_v13, main_v14, main_c_6]
theorem opsMeanLn_writes : (opsMeanLn : List (HloOp τ sig (Elt F))).Forall fun op =>
    op.writes ⊆ (opsMeanLn_W.map (Proc.devRef (τ := τ) .tc)).toFinset := by
  simp only [List.Forall]
  refine ⟨?_, ?_, ?_, ?_, ?_, ?_, ?_⟩ <;>
    (simp only [nullary_writes, unary_writes, binary_writes, ternary_writes, reshape_writes, Finset.singleton_subset_iff, List.mem_toFinset]
     exact List.mem_map_of_mem (by decide))

/-- The third call, the variance over axes (1,2,3). (23 operations.) -/
abbrev opsVarLn : List (HloOp τ sig (Elt F)) :=
  [ StableHlo.TRef.nullary main_call2.cst (constant S_ .f32 0x00000000#32),
    StableHlo.TRef.binary (TRef.of main_arg0 : TRef sig ⟨S32x256x64x64, .f32⟩) main_call2.cst main_call2.v0 (fun x v => Host.reduceAdd x v reducesTo_S32x256x64x64_S32_d1_2_3 h_S_),
    StableHlo.TRef.unary main_call2.v0 main_call2.v1 (broadcastInDim S32x1x1x1 ![0] bcast_S32_S32x1x1x1_0),
    StableHlo.TRef.nullary main_call2.cst_0 (constant S_ .f32 0x49800000#32),
    StableHlo.TRef.unary main_call2.cst_0 main_call2.v2 (broadcastInDim S32x1x1x1 ![] bcast_S_S32x1x1x1),
    StableHlo.TRef.binary main_call2.v1 main_call2.v2 main_call2.v3 Host.divf,
    StableHlo.TRef.unary main_call2.v3 main_call2.v4 (broadcastInDim S32x256x64x64 ![0, 1, 2, 3] bcast_S32x1x1x1_S32x256x64x64_0_1_2_3),
    StableHlo.TRef.binary (TRef.of main_arg0 : TRef sig ⟨S32x256x64x64, .f32⟩) main_call2.v4 main_call2.v5 subf,
    StableHlo.TRef.binary main_call2.v5 main_call2.v5 main_call2.v6 mulf,
    StableHlo.TRef.unary (TRef.of main_c_6 : TRef sig ⟨S_, .i32⟩) main_call2.v7 (sitofp .f32),
    StableHlo.TRef.nullary main_call2.cst_1 (constant S_ .f32 0x49800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S32x256x64x64_S32_d1_2_3 h_S_),
    StableHlo.TRef.unary main_call2.v9 main_call2.v10 (broadcastInDim S32x1x1x1 ![0] bcast_S32_S32x1x1x1_0),
    StableHlo.TRef.unary main_call2.v8 main_call2.v11 (broadcastInDim S32x1x1x1 ![] bcast_S_S32x1x1x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32x1x1x1 ![] bcast_S_S32x1x1x1),
    StableHlo.TRef.ternary main_call2.v13 main_call2.v12 main_call2.call0.v1 main_call2.call0.v2 (fun p a b => select (broadcastInDim S32x1x1x1 ![] bcast_S_S32x1x1x1 p) a b) ]

theorem opsVarLn_sub : (opsVarLn : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..⟩
theorem opsVarLn_fresh : (opsVarLn : List (HloOp τ sig (Elt F))).Forall fun op => op.fresh = ∅ := by
  simp only [List.Forall]; repeat' constructor
/-- The buffers these operations write. -/
abbrev opsVarLn_W : List (Ref sig .tc) :=
  [main_call2_cst, main_call2_v0, main_call2_v1, main_call2_cst_0, main_call2_v2, main_call2_v3, main_call2_v4, main_call2_v5,
   main_call2_v6, main_call2_v7, main_call2_cst_1, main_call2_v8, main_call2_cst_2, main_call2_v9, main_call2_v10, main_call2_v11,
   main_call2_v12, main_call2_cst_3, main_call2_v13, main_call2_cst_4, main_call2_call0_v0, main_call2_call0_v1, main_v15]
theorem opsVarLn_writes : (opsVarLn : List (HloOp τ sig (Elt F))).Forall fun op =>
    op.writes ⊆ (opsVarLn_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- The softmax applied twice to the mean weights (argument 3). (26 operations.) -/
abbrev opsMeanW : List (HloOp τ sig (Elt F)) :=
  [ StableHlo.nullary main_cst_7 (constant S_ .f32 0xFF800000#32),
    StableHlo.binary main_arg3 main_cst_7 main_v16 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_8 (constant S_ .f32 0xFF800000#32),
    StableHlo.binary main_cst_8 main_v16 main_v17 (maximumf : (⟨S_, .f32⟩ : BufTy).Contents (Elt F) → (⟨S_, .f32⟩ : BufTy).Contents (Elt F) → (⟨S_, .f32⟩ : BufTy).Contents (Elt F)),
    StableHlo.unary main_v17 main_v18 (broadcastInDim S1 ![] bcast_S_S1 : (⟨S_, .f32⟩ : BufTy).Contents (Elt F) → (⟨S1, .f32⟩ : BufTy).Contents (Elt F)),
    StableHlo.unary main_v18 main_v19 (broadcastInDim S3 ![0] bcast_S1_S3_0 : (⟨S1, .f32⟩ : BufTy).Contents (Elt F) → (⟨S3, .f32⟩ : BufTy).Contents (Elt F)),
    StableHlo.binary main_arg3 main_v19 main_v20 (subf : (⟨S3, .f32⟩ : BufTy).Contents (Elt F) → (⟨S3, .f32⟩ : BufTy).Contents (Elt F) → (⟨S3, .f32⟩ : BufTy).Contents (Elt F)),
    StableHlo.unary main_v20 main_v21 (Host.exp : (⟨S3, .f32⟩ : BufTy).Contents (Elt F) → (⟨S3, .f32⟩ : BufTy).Contents (Elt F)),
    StableHlo.nullary main_cst_9 (constant S_ .f32 0x00000000#32),
    StableHlo.binary main_v21 main_cst_9 main_v22 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.unary main_v22 main_v23 (broadcastInDim S1 ![] bcast_S_S1 : (⟨S_, .f32⟩ : BufTy).Contents (Elt F) → (⟨S1, .f32⟩ : BufTy).Contents (Elt F)),
    StableHlo.unary main_v23 main_v24 (broadcastInDim S3 ![0] bcast_S1_S3_0 : (⟨S1, .f32⟩ : BufTy).Contents (Elt F) → (⟨S3, .f32⟩ : BufTy).Contents (Elt F)),
    StableHlo.binary main_v21 main_v24 main_v25 (Host.divf : (⟨S3, .f32⟩ : BufTy).Contents (Elt F) → (⟨S3, .f32⟩ : BufTy).Contents (Elt F) → (⟨S3, .f32⟩ : BufTy).Contents (Elt F)),
    StableHlo.nullary main_cst_10 (constant S_ .f32 0xFF800000#32),
    StableHlo.binary main_v25 main_cst_10 main_v26 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_11 (constant S_ .f32 0xFF800000#32),
    StableHlo.binary main_cst_11 main_v26 main_v27 (maximumf : (⟨S_, .f32⟩ : BufTy).Contents (Elt F) → (⟨S_, .f32⟩ : BufTy).Contents (Elt F) → (⟨S_, .f32⟩ : BufTy).Contents (Elt F)),
    StableHlo.unary main_v27 main_v28 (broadcastInDim S1 ![] bcast_S_S1 : (⟨S_, .f32⟩ : BufTy).Contents (Elt F) → (⟨S1, .f32⟩ : BufTy).Contents (Elt F)),
    StableHlo.unary main_v28 main_v29 (broadcastInDim S3 ![0] bcast_S1_S3_0 : (⟨S1, .f32⟩ : BufTy).Contents (Elt F) → (⟨S3, .f32⟩ : BufTy).Contents (Elt F)),
    StableHlo.binary main_v25 main_v29 main_v30 (subf : (⟨S3, .f32⟩ : BufTy).Contents (Elt F) → (⟨S3, .f32⟩ : BufTy).Contents (Elt F) → (⟨S3, .f32⟩ : BufTy).Contents (Elt F)),
    StableHlo.unary main_v30 main_v31 (Host.exp : (⟨S3, .f32⟩ : BufTy).Contents (Elt F) → (⟨S3, .f32⟩ : BufTy).Contents (Elt F)),
    StableHlo.nullary main_cst_12 (constant S_ .f32 0x00000000#32),
    StableHlo.binary main_v31 main_cst_12 main_v32 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.unary main_v32 main_v33 (broadcastInDim S1 ![] bcast_S_S1 : (⟨S_, .f32⟩ : BufTy).Contents (Elt F) → (⟨S1, .f32⟩ : BufTy).Contents (Elt F)),
    StableHlo.unary main_v33 main_v34 (broadcastInDim S3 ![0] bcast_S1_S3_0 : (⟨S1, .f32⟩ : BufTy).Contents (Elt F) → (⟨S3, .f32⟩ : BufTy).Contents (Elt F)),
    StableHlo.binary main_v31 main_v34 main_v35 (Host.divf : (⟨S3, .f32⟩ : BufTy).Contents (Elt F) → (⟨S3, .f32⟩ : BufTy).Contents (Elt F) → (⟨S3, .f32⟩ : BufTy).Contents (Elt F)) ]

theorem opsMeanW_sub : (opsMeanW : List (HloOp τ sig (Elt F))).Forall fun op => op.bufs ⊆ tcRefs τ sig :=
  ⟨nullary_bufs_sub .., binary_bufs_sub .., nullary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., nullary_bufs_sub .., binary_bufs_sub .., nullary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub ..⟩
theorem opsMeanW_fresh : (opsMeanW : List (HloOp τ sig (Elt F))).Forall fun op => op.fresh = ∅ := by
  simp only [List.Forall]; repeat' constructor
/-- The buffers these operations write. -/
abbrev opsMeanW_W : List (Ref sig .tc) :=
  [main_cst_7, main_v16, main_cst_8, main_v17, main_v18, main_v19, main_v20, main_v21,
   main_cst_9, main_v22, main_v23, main_v24, main_v25, main_cst_10, main_v26, main_cst_11,
   main_v27, main_v28, main_v29, main_v30, main_v31, main_cst_12, main_v32, main_v33,
   main_v34, main_v35]
theorem opsMeanW_writes : (opsMeanW : List (HloOp τ sig (Elt F))).Forall fun op =>
    op.writes ⊆ (opsMeanW_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- The softmax applied twice to the variance weights (argument 4). (26 operations.) -/
abbrev opsVarW : List (HloOp τ sig (Elt F)) :=
  [ StableHlo.nullary main_cst_13 (constant S_ .f32 0xFF800000#32),
    StableHlo.binary main_arg4 main_cst_13 main_v36 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_14 (constant S_ .f32 0xFF800000#32),
    StableHlo.binary main_cst_14 main_v36 main_v37 (maximumf : (⟨S_, .f32⟩ : BufTy).Contents (Elt F) → (⟨S_, .f32⟩ : BufTy).Contents (Elt F) → (⟨S_, .f32⟩ : BufTy).Contents (Elt F)),
    StableHlo.unary main_v37 main_v38 (broadcastInDim S1 ![] bcast_S_S1 : (⟨S_, .f32⟩ : BufTy).Contents (Elt F) → (⟨S1, .f32⟩ : BufTy).Contents (Elt F)),
    StableHlo.unary main_v38 main_v39 (broadcastInDim S3 ![0] bcast_S1_S3_0 : (⟨S1, .f32⟩ : BufTy).Contents (Elt F) → (⟨S3, .f32⟩ : BufTy).Contents (Elt F)),
    StableHlo.binary main_arg4 main_v39 main_v40 (subf : (⟨S3, .f32⟩ : BufTy).Contents (Elt F) → (⟨S3, .f32⟩ : BufTy).Contents (Elt F) → (⟨S3, .f32⟩ : BufTy).Contents (Elt F)),
    StableHlo.unary main_v40 main_v41 (Host.exp : (⟨S3, .f32⟩ : BufTy).Contents (Elt F) → (⟨S3, .f32⟩ : BufTy).Contents (Elt F)),
    StableHlo.nullary main_cst_15 (constant S_ .f32 0x00000000#32),
    StableHlo.binary main_v41 main_cst_15 main_v42 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.unary main_v42 main_v43 (broadcastInDim S1 ![] bcast_S_S1 : (⟨S_, .f32⟩ : BufTy).Contents (Elt F) → (⟨S1, .f32⟩ : BufTy).Contents (Elt F)),
    StableHlo.unary main_v43 main_v44 (broadcastInDim S3 ![0] bcast_S1_S3_0 : (⟨S1, .f32⟩ : BufTy).Contents (Elt F) → (⟨S3, .f32⟩ : BufTy).Contents (Elt F)),
    StableHlo.binary main_v41 main_v44 main_v45 (Host.divf : (⟨S3, .f32⟩ : BufTy).Contents (Elt F) → (⟨S3, .f32⟩ : BufTy).Contents (Elt F) → (⟨S3, .f32⟩ : BufTy).Contents (Elt F)),
    StableHlo.nullary main_cst_16 (constant S_ .f32 0xFF800000#32),
    StableHlo.binary main_v45 main_cst_16 main_v46 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_17 (constant S_ .f32 0xFF800000#32),
    StableHlo.binary main_cst_17 main_v46 main_v47 (maximumf : (⟨S_, .f32⟩ : BufTy).Contents (Elt F) → (⟨S_, .f32⟩ : BufTy).Contents (Elt F) → (⟨S_, .f32⟩ : BufTy).Contents (Elt F)),
    StableHlo.unary main_v47 main_v48 (broadcastInDim S1 ![] bcast_S_S1 : (⟨S_, .f32⟩ : BufTy).Contents (Elt F) → (⟨S1, .f32⟩ : BufTy).Contents (Elt F)),
    StableHlo.unary main_v48 main_v49 (broadcastInDim S3 ![0] bcast_S1_S3_0 : (⟨S1, .f32⟩ : BufTy).Contents (Elt F) → (⟨S3, .f32⟩ : BufTy).Contents (Elt F)),
    StableHlo.binary main_v45 main_v49 main_v50 (subf : (⟨S3, .f32⟩ : BufTy).Contents (Elt F) → (⟨S3, .f32⟩ : BufTy).Contents (Elt F) → (⟨S3, .f32⟩ : BufTy).Contents (Elt F)),
    StableHlo.unary main_v50 main_v51 (Host.exp : (⟨S3, .f32⟩ : BufTy).Contents (Elt F) → (⟨S3, .f32⟩ : BufTy).Contents (Elt F)),
    StableHlo.nullary main_cst_18 (constant S_ .f32 0x00000000#32),
    StableHlo.binary main_v51 main_cst_18 main_v52 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.unary main_v52 main_v53 (broadcastInDim S1 ![] bcast_S_S1 : (⟨S_, .f32⟩ : BufTy).Contents (Elt F) → (⟨S1, .f32⟩ : BufTy).Contents (Elt F)),
    StableHlo.unary main_v53 main_v54 (broadcastInDim S3 ![0] bcast_S1_S3_0 : (⟨S1, .f32⟩ : BufTy).Contents (Elt F) → (⟨S3, .f32⟩ : BufTy).Contents (Elt F)),
    StableHlo.binary main_v51 main_v54 main_v55 (Host.divf : (⟨S3, .f32⟩ : BufTy).Contents (Elt F) → (⟨S3, .f32⟩ : BufTy).Contents (Elt F) → (⟨S3, .f32⟩ : BufTy).Contents (Elt F)) ]

theorem opsVarW_sub : (opsVarW : List (HloOp τ sig (Elt F))).Forall fun op => op.bufs ⊆ tcRefs τ sig :=
  ⟨nullary_bufs_sub .., binary_bufs_sub .., nullary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., nullary_bufs_sub .., binary_bufs_sub .., nullary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub ..⟩
theorem opsVarW_fresh : (opsVarW : List (HloOp τ sig (Elt F))).Forall fun op => op.fresh = ∅ := by
  simp only [List.Forall]; repeat' constructor
/-- The buffers these operations write. -/
abbrev opsVarW_W : List (Ref sig .tc) :=
  [main_cst_13, main_v36, main_cst_14, main_v37, main_v38, main_v39, main_v40, main_v41,
   main_cst_15, main_v42, main_v43, main_v44, main_v45, main_cst_16, main_v46, main_cst_17,
   main_v47, main_v48, main_v49, main_v50, main_v51, main_cst_18, main_v52, main_v53,
   main_v54, main_v55]
theorem opsVarW_writes : (opsVarW : List (HloOp τ sig (Elt F))).Forall fun op =>
    op.writes ⊆ (opsVarW_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- The three means blended by the mean weights, the three variances by the variance weights, plus epsilon. (35 operations.) -/
abbrev opsBlend : List (HloOp τ sig (Elt F)) :=
  [ StableHlo.unary main_v35 main_v56 ((extractStridedSlice S1 ![0] · slices_S3_S1_0) : (⟨S3, .f32⟩ : BufTy).Contents (Elt F) → (⟨S1, .f32⟩ : BufTy).Contents (Elt F)),
    StableHlo.reshape main_v56 main_v57 rfl shapeCasts_S1_S_,
    StableHlo.unary main_v57 main_v58 (broadcastInDim S1x256x1x1 ![] bcast_S_S1x256x1x1 : (⟨S_, .f32⟩ : BufTy).Contents (Elt F) → (⟨S1x256x1x1, .f32⟩ : BufTy).Contents (Elt F)),
    StableHlo.binary main_v3 main_v58 main_v59 (mulf : (⟨S1x256x1x1, .f32⟩ : BufTy).Contents (Elt F) → (⟨S1x256x1x1, .f32⟩ : BufTy).Contents (Elt F) → (⟨S1x256x1x1, .f32⟩ : BufTy).Contents (Elt F)),
    StableHlo.unary main_v35 main_v60 ((extractStridedSlice S1 ![1] · slices_S3_S1_1) : (⟨S3, .f32⟩ : BufTy).Contents (Elt F) → (⟨S1, .f32⟩ : BufTy).Contents (Elt F)),
    StableHlo.reshape main_v60 main_v61 rfl shapeCasts_S1_S_,
    StableHlo.unary main_v61 main_v62 (broadcastInDim S32x256x1x1 ![] bcast_S_S32x256x1x1 : (⟨S_, .f32⟩ : BufTy).Contents (Elt F) → (⟨S32x256x1x1, .f32⟩ : BufTy).Contents (Elt F)),
    StableHlo.binary main_v9 main_v62 main_v63 (mulf : (⟨S32x256x1x1, .f32⟩ : BufTy).Contents (Elt F) → (⟨S32x256x1x1, .f32⟩ : BufTy).Contents (Elt F) → (⟨S32x256x1x1, .f32⟩ : BufTy).Contents (Elt F)),
    StableHlo.unary main_v59 main_v64 (broadcastInDim S32x256x1x1 ![0, 1, 2, 3] bcast_S1x256x1x1_S32x256x1x1_0_1_2_3 : (⟨S1x256x1x1, .f32⟩ : BufTy).Contents (Elt F) → (⟨S32x256x1x1, .f32⟩ : BufTy).Contents (Elt F)),
    StableHlo.binary main_v64 main_v63 main_v65 (addf : (⟨S32x256x1x1, .f32⟩ : BufTy).Contents (Elt F) → (⟨S32x256x1x1, .f32⟩ : BufTy).Contents (Elt F) → (⟨S32x256x1x1, .f32⟩ : BufTy).Contents (Elt F)),
    StableHlo.unary main_v35 main_v66 ((extractStridedSlice S1 ![2] · slices_S3_S1_2) : (⟨S3, .f32⟩ : BufTy).Contents (Elt F) → (⟨S1, .f32⟩ : BufTy).Contents (Elt F)),
    StableHlo.reshape main_v66 main_v67 rfl shapeCasts_S1_S_,
    StableHlo.unary main_v67 main_v68 (broadcastInDim S32x1x1x1 ![] bcast_S_S32x1x1x1 : (⟨S_, .f32⟩ : BufTy).Contents (Elt F) → (⟨S32x1x1x1, .f32⟩ : BufTy).Contents (Elt F)),
    StableHlo.binary main_v14 main_v68 main_v69 (mulf : (⟨S32x1x1x1, .f32⟩ : BufTy).Contents (Elt F) → (⟨S32x1x1x1, .f32⟩ : BufTy).Contents (Elt F) → (⟨S32x1x1x1, .f32⟩ : BufTy).Contents (Elt F)),
    StableHlo.unary main_v69 main_v70 (broadcastInDim S32x256x1x1 ![0, 1, 2, 3] bcast_S32x1x1x1_S32x256x1x1_0_1_2_3 : (⟨S32x1x1x1, .f32⟩ : BufTy).Contents (Elt F) → (⟨S32x256x1x1, .f32⟩ : BufTy).Contents (Elt F)),
    StableHlo.binary main_v65 main_v70 main_v71 (addf : (⟨S32x256x1x1, .f32⟩ : BufTy).Contents (Elt F) → (⟨S32x256x1x1, .f32⟩ : BufTy).Contents (Elt F) → (⟨S32x256x1x1, .f32⟩ : BufTy).Contents (Elt F)),
    StableHlo.unary main_v55 main_v72 ((extractStridedSlice S1 ![0] · slices_S3_S1_0) : (⟨S3, .f32⟩ : BufTy).Contents (Elt F) → (⟨S1, .f32⟩ : BufTy).Contents (Elt F)),
    StableHlo.reshape main_v72 main_v73 rfl shapeCasts_S1_S_,
    StableHlo.unary main_v73 main_v74 (broadcastInDim S1x256x1x1 ![] bcast_S_S1x256x1x1 : (⟨S_, .f32⟩ : BufTy).Contents (Elt F) → (⟨S1x256x1x1, .f32⟩ : BufTy).Contents (Elt F)),
    StableHlo.binary main_v5 main_v74 main_v75 (mulf : (⟨S1x256x1x1, .f32⟩ : BufTy).Contents (Elt F) → (⟨S1x256x1x1, .f32⟩ : BufTy).Contents (Elt F) → (⟨S1x256x1x1, .f32⟩ : BufTy).Contents (Elt F)),
    StableHlo.unary main_v55 main_v76 ((extractStridedSlice S1 ![1] · slices_S3_S1_1) : (⟨S3, .f32⟩ : BufTy).Contents (Elt F) → (⟨S1, .f32⟩ : BufTy).Contents (Elt F)),
    StableHlo.reshape main_v76 main_v77 rfl shapeCasts_S1_S_,
    StableHlo.unary main_v77 main_v78 (broadcastInDim S32x256x1x1 ![] bcast_S_S32x256x1x1 : (⟨S_, .f32⟩ : BufTy).Contents (Elt F) → (⟨S32x256x1x1, .f32⟩ : BufTy).Contents (Elt F)),
    StableHlo.binary main_v10 main_v78 main_v79 (mulf : (⟨S32x256x1x1, .f32⟩ : BufTy).Contents (Elt F) → (⟨S32x256x1x1, .f32⟩ : BufTy).Contents (Elt F) → (⟨S32x256x1x1, .f32⟩ : BufTy).Contents (Elt F)),
    StableHlo.unary main_v75 main_v80 (broadcastInDim S32x256x1x1 ![0, 1, 2, 3] bcast_S1x256x1x1_S32x256x1x1_0_1_2_3 : (⟨S1x256x1x1, .f32⟩ : BufTy).Contents (Elt F) → (⟨S32x256x1x1, .f32⟩ : BufTy).Contents (Elt F)),
    StableHlo.binary main_v80 main_v79 main_v81 (addf : (⟨S32x256x1x1, .f32⟩ : BufTy).Contents (Elt F) → (⟨S32x256x1x1, .f32⟩ : BufTy).Contents (Elt F) → (⟨S32x256x1x1, .f32⟩ : BufTy).Contents (Elt F)),
    StableHlo.unary main_v55 main_v82 ((extractStridedSlice S1 ![2] · slices_S3_S1_2) : (⟨S3, .f32⟩ : BufTy).Contents (Elt F) → (⟨S1, .f32⟩ : BufTy).Contents (Elt F)),
    StableHlo.reshape main_v82 main_v83 rfl shapeCasts_S1_S_,
    StableHlo.unary main_v83 main_v84 (broadcastInDim S32x1x1x1 ![] bcast_S_S32x1x1x1 : (⟨S_, .f32⟩ : BufTy).Contents (Elt F) → (⟨S32x1x1x1, .f32⟩ : BufTy).Contents (Elt F)),
    StableHlo.binary main_v15 main_v84 main_v85 (mulf : (⟨S32x1x1x1, .f32⟩ : BufTy).Contents (Elt F) → (⟨S32x1x1x1, .f32⟩ : BufTy).Contents (Elt F) → (⟨S32x1x1x1, .f32⟩ : BufTy).Contents (Elt F)),
    StableHlo.unary main_v85 main_v86 (broadcastInDim S32x256x1x1 ![0, 1, 2, 3] bcast_S32x1x1x1_S32x256x1x1_0_1_2_3 : (⟨S32x1x1x1, .f32⟩ : BufTy).Contents (Elt F) → (⟨S32x256x1x1, .f32⟩ : BufTy).Contents (Elt F)),
    StableHlo.binary main_v81 main_v86 main_v87 (addf : (⟨S32x256x1x1, .f32⟩ : BufTy).Contents (Elt F) → (⟨S32x256x1x1, .f32⟩ : BufTy).Contents (Elt F) → (⟨S32x256x1x1, .f32⟩ : BufTy).Contents (Elt F)),
    StableHlo.nullary main_cst_19 (constant S_ .f32 0x3727C5AC#32),
    StableHlo.unary main_cst_19 main_v88 (broadcastInDim S32x256x1x1 ![] bcast_S_S32x256x1x1 : (⟨S_, .f32⟩ : BufTy).Contents (Elt F) → (⟨S32x256x1x1, .f32⟩ : BufTy).Contents (Elt F)),
    StableHlo.binary main_v87 main_v88 main_v89 (addf : (⟨S32x256x1x1, .f32⟩ : BufTy).Contents (Elt F) → (⟨S32x256x1x1, .f32⟩ : BufTy).Contents (Elt F) → (⟨S32x256x1x1, .f32⟩ : BufTy).Contents (Elt F)) ]

theorem opsBlend_sub : (opsBlend : List (HloOp τ sig (Elt F))).Forall fun op => op.bufs ⊆ tcRefs τ sig :=
  ⟨unary_bufs_sub .., reshape_bufs_sub .., unary_bufs_sub .., binary_bufs_sub .., unary_bufs_sub .., reshape_bufs_sub ..,
    unary_bufs_sub .., binary_bufs_sub .., unary_bufs_sub .., binary_bufs_sub .., unary_bufs_sub .., reshape_bufs_sub ..,
    unary_bufs_sub .., binary_bufs_sub .., unary_bufs_sub .., binary_bufs_sub .., unary_bufs_sub .., reshape_bufs_sub ..,
    unary_bufs_sub .., binary_bufs_sub .., unary_bufs_sub .., reshape_bufs_sub .., unary_bufs_sub .., binary_bufs_sub ..,
    unary_bufs_sub .., binary_bufs_sub .., unary_bufs_sub .., reshape_bufs_sub .., unary_bufs_sub .., binary_bufs_sub ..,
    unary_bufs_sub .., binary_bufs_sub .., nullary_bufs_sub .., unary_bufs_sub .., binary_bufs_sub ..⟩
theorem opsBlend_fresh : (opsBlend : List (HloOp τ sig (Elt F))).Forall fun op => op.fresh = ∅ := by
  simp only [List.Forall]; repeat' constructor
/-- The buffers these operations write. -/
abbrev opsBlend_W : List (Ref sig .tc) :=
  [main_v56, main_v57, main_v58, main_v59, main_v60, main_v61, main_v62, main_v63,
   main_v64, main_v65, main_v66, main_v67, main_v68, main_v69, main_v70, main_v71,
   main_v72, main_v73, main_v74, main_v75, main_v76, main_v77, main_v78, main_v79,
   main_v80, main_v81, main_v82, main_v83, main_v84, main_v85, main_v86, main_v87,
   main_cst_19, main_v88, main_v89]
theorem opsBlend_writes : (opsBlend : List (HloOp τ sig (Elt F))).Forall fun op =>
    op.writes ⊆ (opsBlend_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- The normalization: centre, divide by the root of the variance, scale and shift. (11 operations.) -/
abbrev opsOut : List (HloOp τ sig (Elt F)) :=
  [ StableHlo.unary main_v71 main_v90 (broadcastInDim S32x256x64x64 ![0, 1, 2, 3] bcast_S32x256x1x1_S32x256x64x64_0_1_2_3 : (⟨S32x256x1x1, .f32⟩ : BufTy).Contents (Elt F) → (⟨S32x256x64x64, .f32⟩ : BufTy).Contents (Elt F)),
    StableHlo.binary main_arg0 main_v90 main_v91 (subf : (⟨S32x256x64x64, .f32⟩ : BufTy).Contents (Elt F) → (⟨S32x256x64x64, .f32⟩ : BufTy).Contents (Elt F) → (⟨S32x256x64x64, .f32⟩ : BufTy).Contents (Elt F)),
    StableHlo.unary main_v89 main_v92 (Host.sqrt : (⟨S32x256x1x1, .f32⟩ : BufTy).Contents (Elt F) → (⟨S32x256x1x1, .f32⟩ : BufTy).Contents (Elt F)),
    StableHlo.unary main_v92 main_v93 (broadcastInDim S32x256x64x64 ![0, 1, 2, 3] bcast_S32x256x1x1_S32x256x64x64_0_1_2_3 : (⟨S32x256x1x1, .f32⟩ : BufTy).Contents (Elt F) → (⟨S32x256x64x64, .f32⟩ : BufTy).Contents (Elt F)),
    StableHlo.binary main_v91 main_v93 main_v94 (Host.divf : (⟨S32x256x64x64, .f32⟩ : BufTy).Contents (Elt F) → (⟨S32x256x64x64, .f32⟩ : BufTy).Contents (Elt F) → (⟨S32x256x64x64, .f32⟩ : BufTy).Contents (Elt F)),
    StableHlo.reshape main_arg1 main_v95 rfl shapeCasts_S256_S1x256x1x1,
    StableHlo.unary main_v95 main_v96 (broadcastInDim S32x256x64x64 ![0, 1, 2, 3] bcast_S1x256x1x1_S32x256x64x64_0_1_2_3 : (⟨S1x256x1x1, .f32⟩ : BufTy).Contents (Elt F) → (⟨S32x256x64x64, .f32⟩ : BufTy).Contents (Elt F)),
    StableHlo.binary main_v94 main_v96 main_v97 (mulf : (⟨S32x256x64x64, .f32⟩ : BufTy).Contents (Elt F) → (⟨S32x256x64x64, .f32⟩ : BufTy).Contents (Elt F) → (⟨S32x256x64x64, .f32⟩ : BufTy).Contents (Elt F)),
    StableHlo.reshape main_arg2 main_v98 rfl shapeCasts_S256_S1x256x1x1,
    StableHlo.unary main_v98 main_v99 (broadcastInDim S32x256x64x64 ![0, 1, 2, 3] bcast_S1x256x1x1_S32x256x64x64_0_1_2_3 : (⟨S1x256x1x1, .f32⟩ : BufTy).Contents (Elt F) → (⟨S32x256x64x64, .f32⟩ : BufTy).Contents (Elt F)),
    StableHlo.binary main_v97 main_v99 main_v100 (addf : (⟨S32x256x64x64, .f32⟩ : BufTy).Contents (Elt F) → (⟨S32x256x64x64, .f32⟩ : BufTy).Contents (Elt F) → (⟨S32x256x64x64, .f32⟩ : BufTy).Contents (Elt F)) ]

theorem opsOut_sub : (opsOut : List (HloOp τ sig (Elt F))).Forall fun op => op.bufs ⊆ tcRefs τ sig :=
  ⟨unary_bufs_sub .., binary_bufs_sub .., unary_bufs_sub .., unary_bufs_sub .., binary_bufs_sub .., reshape_bufs_sub ..,
    unary_bufs_sub .., binary_bufs_sub .., reshape_bufs_sub .., unary_bufs_sub .., binary_bufs_sub ..⟩
theorem opsOut_fresh : (opsOut : List (HloOp τ sig (Elt F))).Forall fun op => op.fresh = ∅ := by
  simp only [List.Forall]; repeat' constructor
/-- The buffers these operations write. -/
abbrev opsOut_W : List (Ref sig .tc) :=
  [main_v90, main_v91, main_v92, main_v93, main_v94, main_v95, main_v96, main_v97,
   main_v98, main_v99, main_v100]
theorem opsOut_writes : (opsOut : List (HloOp τ sig (Elt F))).Forall fun op =>
    op.writes ⊆ (opsOut_W.map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- @main's 188 operations, in order, the calls unfolded at their buffers. -/
abbrev ops : List (HloOp τ sig (Elt F)) :=
  opsMeanBn ++ (opsVarBn ++ (opsMeanIn ++ (opsVarIn ++ (opsMeanLn ++ (opsVarLn ++ (opsMeanW ++ (opsVarW ++ (opsBlend ++ (opsOut)))))))))

/-- @main is that straight line: the outlined functions' bodies unfold at their calls, and sequencing reassociates
    by computation. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  forall_append opsMeanBn_sub (forall_append opsVarBn_sub (forall_append opsMeanIn_sub (forall_append opsVarIn_sub (forall_append opsMeanLn_sub (forall_append opsVarLn_sub (forall_append opsMeanW_sub (forall_append opsVarW_sub (forall_append opsBlend_sub (opsOut_sub)))))))))
theorem ops_fresh : (ops : List (HloOp τ sig (Elt F))).Forall fun op => op.fresh = ∅ :=
  forall_append opsMeanBn_fresh (forall_append opsVarBn_fresh (forall_append opsMeanIn_fresh (forall_append opsVarIn_fresh (forall_append opsMeanLn_fresh (forall_append opsVarLn_fresh (forall_append opsMeanW_fresh (forall_append opsVarW_fresh (forall_append opsBlend_fresh (opsOut_fresh)))))))))

/-- From any memory with zero counters every weakly fair execution of @main terminates, every buffer at the fold of
    the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

/-! ## The values, as functions of the argument arrays

Each is the program's own operations composed, in its order and spelling; the literals are kept as bit patterns. -/

section Values

/-- The `ddof` operand of the three variance calls, the integer 0, as a float. -/
def ddof : FVec F S_ .f32 := sitofp .f32 (constantI S_ 32 0#32)

/-- The mean over axes (0,2,3), per channel: the sum from 0 over the literal count, at shape [1,256,1,1]. -/
def meanBn (x : FVec F S32x256x64x64 .f32) : FVec F S1x256x1x1 .f32 :=
  shapeCast S1x256x1x1
    (Host.divf (Host.reduceAdd x (constant S_ .f32 0x00000000#32) reducesTo_S32x256x64x64_S256_d0_2_3 h_S_)
      (broadcastInDim S256 ![] bcast_S_S256 (constant S_ .f32 0x48000000#32)))
    shapeCasts_S256_S1x256x1x1

/-- The first variance call's own mean (its sum broadcast before the division), spread over the full shape. -/
def spreadBn (x : FVec F S32x256x64x64 .f32) : FVec F S32x256x64x64 .f32 :=
  broadcastInDim S32x256x64x64 ![0, 1, 2, 3] bcast_S1x256x1x1_S32x256x64x64_0_1_2_3
    (Host.divf
      (broadcastInDim S1x256x1x1 ![1] bcast_S256_S1x256x1x1_1
        (Host.reduceAdd x (constant S_ .f32 0x00000000#32) reducesTo_S32x256x64x64_S256_d0_2_3 h_S_))
      (broadcastInDim S1x256x1x1 ![] bcast_S_S1x256x1x1 (constant S_ .f32 0x48000000#32)))

/-- The first variance call's divisor: the literal count less `ddof`. -/
def cntBn : FVec F S_ .f32 := subf (constant S_ .f32 0x48000000#32) (ddof (F := F))

/-- The variance over axes (0,2,3), per channel, in two passes: the squared deviations summed from 0 over the
    divisor where the divisor is positive, the literal NaN elsewhere; at shape [256]. -/
def varBnFlat (x : FVec F S32x256x64x64 .f32) : FVec F S256 .f32 :=
  select (broadcastInDim S256 ![] bcast_S_S256 (cmpf .ogt (cntBn (F := F)) (constant S_ .f32 0x00000000#32)))
    (Host.divf
      (Host.reduceAdd (mulf (subf x (spreadBn x)) (subf x (spreadBn x))) (constant S_ .f32 0x00000000#32)
        reducesTo_S32x256x64x64_S256_d0_2_3 h_S_)
      (broadcastInDim S256 ![] bcast_S_S256 (cntBn (F := F))))
    (broadcastInDim S256 ![] bcast_S_S256 (constant S_ .f32 0x7FC00000#32))

/-- That variance at shape [1,256,1,1]. -/
def varBn (x : FVec F S32x256x64x64 .f32) : FVec F S1x256x1x1 .f32 :=
  shapeCast S1x256x1x1 (varBnFlat x) shapeCasts_S256_S1x256x1x1

/-- The mean over axes (2,3), per sample and channel, at shape [32,256,1,1]. -/
def meanIn (x : FVec F S32x256x64x64 .f32) : FVec F S32x256x1x1 .f32 :=
  Host.divf
    (broadcastInDim S32x256x1x1 ![0, 1] bcast_S32x256_S32x256x1x1_0_1
      (Host.reduceAdd x (constant S_ .f32 0x00000000#32) reducesTo_S32x256x64x64_S32x256_d2_3 h_S_))
    (broadcastInDim S32x256x1x1 ![] bcast_S_S32x256x1x1 (constant S_ .f32 0x45800000#32))

/-- That mean spread over the full shape (the second variance call computes it again, by the same operations). -/
def spreadIn (x : FVec F S32x256x64x64 .f32) : FVec F S32x256x64x64 .f32 :=
  broadcastInDim S32x256x64x64 ![0, 1, 2, 3] bcast_S32x256x1x1_S32x256x64x64_0_1_2_3 (meanIn x)

/-- The second variance call's divisor. -/
def cntIn : FVec F S_ .f32 := subf (constant S_ .f32 0x45800000#32) (ddof (F := F))

/-- The variance over axes (2,3), per sample and channel, at shape [32,256,1,1]. -/
def varIn (x : FVec F S32x256x64x64 .f32) : FVec F S32x256x1x1 .f32 :=
  select (broadcastInDim S32x256x1x1 ![] bcast_S_S32x256x1x1 (cmpf .ogt (cntIn (F := F)) (constant S_ .f32 0x00000000#32)))
    (Host.divf
      (broadcastInDim S32x256x1x1 ![0, 1] bcast_S32x256_S32x256x1x1_0_1
        (Host.reduceAdd (mulf (subf x (spreadIn x)) (subf x (spreadIn x))) (constant S_ .f32 0x00000000#32)
          reducesTo_S32x256x64x64_S32x256_d2_3 h_S_))
      (broadcastInDim S32x256x1x1 ![] bcast_S_S32x256x1x1 (cntIn (F := F))))
    (broadcastInDim S32x256x1x1 ![] bcast_S_S32x256x1x1 (constant S_ .f32 0x7FC00000#32))

/-- The mean over axes (1,2,3), per sample, at shape [32,1,1,1]. -/
def meanLn (x : FVec F S32x256x64x64 .f32) : FVec F S32x1x1x1 .f32 :=
  Host.divf
    (broadcastInDim S32x1x1x1 ![0] bcast_S32_S32x1x1x1_0
      (Host.reduceAdd x (constant S_ .f32 0x00000000#32) reducesTo_S32x256x64x64_S32_d1_2_3 h_S_))
    (broadcastInDim S32x1x1x1 ![] bcast_S_S32x1x1x1 (constant S_ .f32 0x49800000#32))

/-- That mean spread over the full shape. -/
def spreadLn (x : FVec F S32x256x64x64 .f32) : FVec F S32x256x64x64 .f32 :=
  broadcastInDim S32x256x64x64 ![0, 1, 2, 3] bcast_S32x1x1x1_S32x256x64x64_0_1_2_3 (meanLn x)

/-- The third variance call's divisor. -/
def cntLn : FVec F S_ .f32 := subf (constant S_ .f32 0x49800000#32) (ddof (F := F))

/-- The variance over axes (1,2,3), per sample, at shape [32,1,1,1]. -/
def varLn (x : FVec F S32x256x64x64 .f32) : FVec F S32x1x1x1 .f32 :=
  select (broadcastInDim S32x1x1x1 ![] bcast_S_S32x1x1x1 (cmpf .ogt (cntLn (F := F)) (constant S_ .f32 0x00000000#32)))
    (Host.divf
      (broadcastInDim S32x1x1x1 ![0] bcast_S32_S32x1x1x1_0
        (Host.reduceAdd (mulf (subf x (spreadLn x)) (subf x (spreadLn x))) (constant S_ .f32 0x00000000#32)
          reducesTo_S32x256x64x64_S32_d1_2_3 h_S_))
      (broadcastInDim S32x1x1x1 ![] bcast_S_S32x1x1x1 (cntLn (F := F))))
    (broadcastInDim S32x1x1x1 ![] bcast_S_S32x1x1x1 (constant S_ .f32 0x7FC00000#32))

/- The softmax applied twice is `Cert.MixWeights.dsoftmax`, the one function both programs apply to a weight vector. -/

/-- Entry `k` of a weight vector as a scalar: the slice [k:k+1], reshaped to rank 0. -/
def pick0 (w : FVec F S3 .f32) : FVec F S_ .f32 := shapeCast S_ (extractStridedSlice S1 ![0] w slices_S3_S1_0) shapeCasts_S1_S_
@[inherit_doc pick0]
def pick1 (w : FVec F S3 .f32) : FVec F S_ .f32 := shapeCast S_ (extractStridedSlice S1 ![1] w slices_S3_S1_1) shapeCasts_S1_S_
@[inherit_doc pick0]
def pick2 (w : FVec F S3 .f32) : FVec F S_ .f32 := shapeCast S_ (extractStridedSlice S1 ![2] w slices_S3_S1_2) shapeCasts_S1_S_

/-- Three statistics blended by a weight vector: `a·w₀ + b·w₁ + c·w₂`, broadcast to shape [32,256,1,1]. -/
def blend (a : FVec F S1x256x1x1 .f32) (b : FVec F S32x256x1x1 .f32) (c : FVec F S32x1x1x1 .f32) (w : FVec F S3 .f32) :
    FVec F S32x256x1x1 .f32 :=
  addf
    (addf
      (broadcastInDim S32x256x1x1 ![0, 1, 2, 3] bcast_S1x256x1x1_S32x256x1x1_0_1_2_3
        (mulf a (broadcastInDim S1x256x1x1 ![] bcast_S_S1x256x1x1 (pick0 w))))
      (mulf b (broadcastInDim S32x256x1x1 ![] bcast_S_S32x256x1x1 (pick1 w))))
    (broadcastInDim S32x256x1x1 ![0, 1, 2, 3] bcast_S32x1x1x1_S32x256x1x1_0_1_2_3
      (mulf c (broadcastInDim S32x1x1x1 ![] bcast_S_S32x1x1x1 (pick2 w))))

/-- The blended mean. -/
def meanMix (x : FVec F S32x256x64x64 .f32) (p : FVec F S3 .f32) : FVec F S32x256x1x1 .f32 :=
  blend (meanBn x) (meanIn x) (meanLn x) (dsoftmax p)

/-- The blended variance plus the literal epsilon. -/
def varMix (x : FVec F S32x256x64x64 .f32) (q : FVec F S3 .f32) : FVec F S32x256x1x1 .f32 :=
  addf (blend (varBn x) (varIn x) (varLn x) (dsoftmax q))
    (broadcastInDim S32x256x1x1 ![] bcast_S_S32x256x1x1 (constant S_ .f32 0x3727C5AC#32))

/-- The normalization by a mean and a variance of shape [32,256,1,1]: `(x − mean) / sqrt var · weight + bias`. -/
def normalize (x : FVec F S32x256x64x64 .f32) (wt bs : FVec F S256 .f32) (mean var : FVec F S32x256x1x1 .f32) :
    FVec F S32x256x64x64 .f32 :=
  addf
    (mulf
      (Host.divf
        (subf x (broadcastInDim S32x256x64x64 ![0, 1, 2, 3] bcast_S32x256x1x1_S32x256x64x64_0_1_2_3 mean))
        (broadcastInDim S32x256x64x64 ![0, 1, 2, 3] bcast_S32x256x1x1_S32x256x64x64_0_1_2_3 (Host.sqrt var)))
      (broadcastInDim S32x256x64x64 ![0, 1, 2, 3] bcast_S1x256x1x1_S32x256x64x64_0_1_2_3
        (shapeCast S1x256x1x1 wt shapeCasts_S256_S1x256x1x1)))
    (broadcastInDim S32x256x64x64 ![0, 1, 2, 3] bcast_S1x256x1x1_S32x256x64x64_0_1_2_3
      (shapeCast S1x256x1x1 bs shapeCasts_S256_S1x256x1x1))

/-- What @main returns, of its five argument arrays. -/
def out (x : FVec F S32x256x64x64 .f32) (wt bs : FVec F S256 .f32) (p q : FVec F S3 .f32) : FVec F S32x256x64x64 .f32 :=
  normalize x wt bs (meanMix x p) (varMix x q)

end Values

/-! ## The buffers window by window

`valK V0`: the device's buffer contents after the first `K` windows, from any contents `V0`; per window, that a
buffer it does not write keeps its contents, and what each buffer still read later holds, as a named value of
`V0` at the argument buffers. -/

section Windows

variable (V0 : Valuation τ sig (Elt F))

/-- The contents before the first window. -/
def val0 : Valuation τ sig (Elt F) := V0
theorem val0_main_arg0 : val0 V0 (no_index (Proc.devRef .tc main_arg0)) = V0 (Proc.devRef .tc main_arg0) := rfl
theorem val0_main_arg1 : val0 V0 (no_index (Proc.devRef .tc main_arg1)) = V0 (Proc.devRef .tc main_arg1) := rfl
theorem val0_main_arg2 : val0 V0 (no_index (Proc.devRef .tc main_arg2)) = V0 (Proc.devRef .tc main_arg2) := rfl
theorem val0_main_arg3 : val0 V0 (no_index (Proc.devRef .tc main_arg3)) = V0 (Proc.devRef .tc main_arg3) := rfl
theorem val0_main_arg4 : val0 V0 (no_index (Proc.devRef .tc main_arg4)) = V0 (Proc.devRef .tc main_arg4) := rfl

/-- The contents after the first 1 window. -/
def val1 : Valuation τ sig (Elt F) := after opsMeanBn (val0 V0)
theorem val1_keep (r : Ref sig .tc) (h : r ∉ opsMeanBn_W) :
    val1 V0 (Proc.devRef .tc r) = val0 V0 (Proc.devRef .tc r) :=
  after_of_writes_sub opsMeanBn _ opsMeanBn_writes h
theorem val1_main_arg0 : val1 V0 (no_index (Proc.devRef .tc main_arg0)) = V0 (Proc.devRef .tc main_arg0) :=
  (val1_keep V0 main_arg0 (by decide)).trans (val0_main_arg0 V0)
theorem val1_main_arg1 : val1 V0 (no_index (Proc.devRef .tc main_arg1)) = V0 (Proc.devRef .tc main_arg1) :=
  (val1_keep V0 main_arg1 (by decide)).trans (val0_main_arg1 V0)
theorem val1_main_arg2 : val1 V0 (no_index (Proc.devRef .tc main_arg2)) = V0 (Proc.devRef .tc main_arg2) :=
  (val1_keep V0 main_arg2 (by decide)).trans (val0_main_arg2 V0)
theorem val1_main_arg3 : val1 V0 (no_index (Proc.devRef .tc main_arg3)) = V0 (Proc.devRef .tc main_arg3) :=
  (val1_keep V0 main_arg3 (by decide)).trans (val0_main_arg3 V0)
theorem val1_main_arg4 : val1 V0 (no_index (Proc.devRef .tc main_arg4)) = V0 (Proc.devRef .tc main_arg4) :=
  (val1_keep V0 main_arg4 (by decide)).trans (val0_main_arg4 V0)
set_option maxRecDepth 4096 in
theorem val1_main_c : val1 V0 (no_index (Proc.devRef .tc main_c)) = constantI S_ 32 0#32 := by
  unfold val1
  simp only [opsMeanBn]
  after_results_simp
  all_goals rfl
set_option maxRecDepth 4096 in
theorem val1_main_v3 : val1 V0 (no_index (Proc.devRef .tc main_v3)) = meanBn (V0 (Proc.devRef .tc main_arg0)) := by
  unfold val1
  simp only [opsMeanBn]
  after_results_simp
  all_goals (try simp only [val0_main_arg0])
  all_goals rfl

/-- The contents after the first 2 windows. -/
def val2 : Valuation τ sig (Elt F) := after opsVarBn (val1 V0)
theorem val2_keep (r : Ref sig .tc) (h : r ∉ opsVarBn_W) :
    val2 V0 (Proc.devRef .tc r) = val1 V0 (Proc.devRef .tc r) :=
  after_of_writes_sub opsVarBn _ opsVarBn_writes h
theorem val2_main_arg0 : val2 V0 (no_index (Proc.devRef .tc main_arg0)) = V0 (Proc.devRef .tc main_arg0) :=
  (val2_keep V0 main_arg0 (by decide)).trans (val1_main_arg0 V0)
theorem val2_main_arg1 : val2 V0 (no_index (Proc.devRef .tc main_arg1)) = V0 (Proc.devRef .tc main_arg1) :=
  (val2_keep V0 main_arg1 (by decide)).trans (val1_main_arg1 V0)
theorem val2_main_arg2 : val2 V0 (no_index (Proc.devRef .tc main_arg2)) = V0 (Proc.devRef .tc main_arg2) :=
  (val2_keep V0 main_arg2 (by decide)).trans (val1_main_arg2 V0)
theorem val2_main_arg3 : val2 V0 (no_index (Proc.devRef .tc main_arg3)) = V0 (Proc.devRef .tc main_arg3) :=
  (val2_keep V0 main_arg3 (by decide)).trans (val1_main_arg3 V0)
theorem val2_main_arg4 : val2 V0 (no_index (Proc.devRef .tc main_arg4)) = V0 (Proc.devRef .tc main_arg4) :=
  (val2_keep V0 main_arg4 (by decide)).trans (val1_main_arg4 V0)
theorem val2_main_v3 : val2 V0 (no_index (Proc.devRef .tc main_v3)) = meanBn (V0 (Proc.devRef .tc main_arg0)) :=
  (val2_keep V0 main_v3 (by decide)).trans (val1_main_v3 V0)
set_option maxRecDepth 4096 in
theorem val2_main_v4 : val2 V0 (no_index (Proc.devRef .tc main_v4)) = varBnFlat (V0 (Proc.devRef .tc main_arg0)) := by
  unfold val2
  simp only [opsVarBn]
  after_results_simp
  all_goals (try simp only [val1_main_c, val1_main_arg0])
  all_goals rfl

/-- The contents after the first 3 windows. -/
def val3 : Valuation τ sig (Elt F) := after opsMeanIn (val2 V0)
theorem val3_keep (r : Ref sig .tc) (h : r ∉ opsMeanIn_W) :
    val3 V0 (Proc.devRef .tc r) = val2 V0 (Proc.devRef .tc r) :=
  after_of_writes_sub opsMeanIn _ opsMeanIn_writes h
theorem val3_main_arg0 : val3 V0 (no_index (Proc.devRef .tc main_arg0)) = V0 (Proc.devRef .tc main_arg0) :=
  (val3_keep V0 main_arg0 (by decide)).trans (val2_main_arg0 V0)
theorem val3_main_arg1 : val3 V0 (no_index (Proc.devRef .tc main_arg1)) = V0 (Proc.devRef .tc main_arg1) :=
  (val3_keep V0 main_arg1 (by decide)).trans (val2_main_arg1 V0)
theorem val3_main_arg2 : val3 V0 (no_index (Proc.devRef .tc main_arg2)) = V0 (Proc.devRef .tc main_arg2) :=
  (val3_keep V0 main_arg2 (by decide)).trans (val2_main_arg2 V0)
theorem val3_main_arg3 : val3 V0 (no_index (Proc.devRef .tc main_arg3)) = V0 (Proc.devRef .tc main_arg3) :=
  (val3_keep V0 main_arg3 (by decide)).trans (val2_main_arg3 V0)
theorem val3_main_arg4 : val3 V0 (no_index (Proc.devRef .tc main_arg4)) = V0 (Proc.devRef .tc main_arg4) :=
  (val3_keep V0 main_arg4 (by decide)).trans (val2_main_arg4 V0)
theorem val3_main_v3 : val3 V0 (no_index (Proc.devRef .tc main_v3)) = meanBn (V0 (Proc.devRef .tc main_arg0)) :=
  (val3_keep V0 main_v3 (by decide)).trans (val2_main_v3 V0)
set_option maxRecDepth 4096 in
theorem val3_main_c_3 : val3 V0 (no_index (Proc.devRef .tc main_c_3)) = constantI S_ 32 0#32 := by
  unfold val3
  simp only [opsMeanIn]
  after_results_simp
  all_goals rfl
set_option maxRecDepth 4096 in
theorem val3_main_v5 : val3 V0 (no_index (Proc.devRef .tc main_v5)) = varBn (V0 (Proc.devRef .tc main_arg0)) := by
  unfold val3
  simp only [opsMeanIn]
  after_results_simp
  all_goals (try simp only [val2_main_v4])
  all_goals rfl
set_option maxRecDepth 4096 in
theorem val3_main_v9 : val3 V0 (no_index (Proc.devRef .tc main_v9)) = meanIn (V0 (Proc.devRef .tc main_arg0)) := by
  unfold val3
  simp only [opsMeanIn]
  after_results_simp
  all_goals (try simp only [val2_main_arg0])
  all_goals rfl

/-- The contents after the first 4 windows. -/
def val4 : Valuation τ sig (Elt F) := after opsVarIn (val3 V0)
theorem val4_keep (r : Ref sig .tc) (h : r ∉ opsVarIn_W) :
    val4 V0 (Proc.devRef .tc r) = val3 V0 (Proc.devRef .tc r) :=
  after_of_writes_sub opsVarIn _ opsVarIn_writes h
theorem val4_main_arg0 : val4 V0 (no_index (Proc.devRef .tc main_arg0)) = V0 (Proc.devRef .tc main_arg0) :=
  (val4_keep V0 main_arg0 (by decide)).trans (val3_main_arg0 V0)
theorem val4_main_arg1 : val4 V0 (no_index (Proc.devRef .tc main_arg1)) = V0 (Proc.devRef .tc main_arg1) :=
  (val4_keep V0 main_arg1 (by decide)).trans (val3_main_arg1 V0)
theorem val4_main_arg2 : val4 V0 (no_index (Proc.devRef .tc main_arg2)) = V0 (Proc.devRef .tc main_arg2) :=
  (val4_keep V0 main_arg2 (by decide)).trans (val3_main_arg2 V0)
theorem val4_main_arg3 : val4 V0 (no_index (Proc.devRef .tc main_arg3)) = V0 (Proc.devRef .tc main_arg3) :=
  (val4_keep V0 main_arg3 (by decide)).trans (val3_main_arg3 V0)
theorem val4_main_arg4 : val4 V0 (no_index (Proc.devRef .tc main_arg4)) = V0 (Proc.devRef .tc main_arg4) :=
  (val4_keep V0 main_arg4 (by decide)).trans (val3_main_arg4 V0)
theorem val4_main_v3 : val4 V0 (no_index (Proc.devRef .tc main_v3)) = meanBn (V0 (Proc.devRef .tc main_arg0)) :=
  (val4_keep V0 main_v3 (by decide)).trans (val3_main_v3 V0)
theorem val4_main_v5 : val4 V0 (no_index (Proc.devRef .tc main_v5)) = varBn (V0 (Proc.devRef .tc main_arg0)) :=
  (val4_keep V0 main_v5 (by decide)).trans (val3_main_v5 V0)
theorem val4_main_v9 : val4 V0 (no_index (Proc.devRef .tc main_v9)) = meanIn (V0 (Proc.devRef .tc main_arg0)) :=
  (val4_keep V0 main_v9 (by decide)).trans (val3_main_v9 V0)
set_option maxRecDepth 4096 in
theorem val4_main_v10 : val4 V0 (no_index (Proc.devRef .tc main_v10)) = varIn (V0 (Proc.devRef .tc main_arg0)) := by
  unfold val4
  simp only [opsVarIn]
  after_results_simp
  all_goals (try simp only [val3_main_c_3, val3_main_arg0])
  all_goals rfl

/-- The contents after the first 5 windows. -/
def val5 : Valuation τ sig (Elt F) := after opsMeanLn (val4 V0)
theorem val5_keep (r : Ref sig .tc) (h : r ∉ opsMeanLn_W) :
    val5 V0 (Proc.devRef .tc r) = val4 V0 (Proc.devRef .tc r) :=
  after_of_writes_sub opsMeanLn _ opsMeanLn_writes h
theorem val5_main_arg0 : val5 V0 (no_index (Proc.devRef .tc main_arg0)) = V0 (Proc.devRef .tc main_arg0) :=
  (val5_keep V0 main_arg0 (by decide)).trans (val4_main_arg0 V0)
theorem val5_main_arg1 : val5 V0 (no_index (Proc.devRef .tc main_arg1)) = V0 (Proc.devRef .tc main_arg1) :=
  (val5_keep V0 main_arg1 (by decide)).trans (val4_main_arg1 V0)
theorem val5_main_arg2 : val5 V0 (no_index (Proc.devRef .tc main_arg2)) = V0 (Proc.devRef .tc main_arg2) :=
  (val5_keep V0 main_arg2 (by decide)).trans (val4_main_arg2 V0)
theorem val5_main_arg3 : val5 V0 (no_index (Proc.devRef .tc main_arg3)) = V0 (Proc.devRef .tc main_arg3) :=
  (val5_keep V0 main_arg3 (by decide)).trans (val4_main_arg3 V0)
theorem val5_main_arg4 : val5 V0 (no_index (Proc.devRef .tc main_arg4)) = V0 (Proc.devRef .tc main_arg4) :=
  (val5_keep V0 main_arg4 (by decide)).trans (val4_main_arg4 V0)
theorem val5_main_v3 : val5 V0 (no_index (Proc.devRef .tc main_v3)) = meanBn (V0 (Proc.devRef .tc main_arg0)) :=
  (val5_keep V0 main_v3 (by decide)).trans (val4_main_v3 V0)
theorem val5_main_v5 : val5 V0 (no_index (Proc.devRef .tc main_v5)) = varBn (V0 (Proc.devRef .tc main_arg0)) :=
  (val5_keep V0 main_v5 (by decide)).trans (val4_main_v5 V0)
theorem val5_main_v9 : val5 V0 (no_index (Proc.devRef .tc main_v9)) = meanIn (V0 (Proc.devRef .tc main_arg0)) :=
  (val5_keep V0 main_v9 (by decide)).trans (val4_main_v9 V0)
theorem val5_main_v10 : val5 V0 (no_index (Proc.devRef .tc main_v10)) = varIn (V0 (Proc.devRef .tc main_arg0)) :=
  (val5_keep V0 main_v10 (by decide)).trans (val4_main_v10 V0)
set_option maxRecDepth 4096 in
theorem val5_main_c_6 : val5 V0 (no_index (Proc.devRef .tc main_c_6)) = constantI S_ 32 0#32 := by
  unfold val5
  simp only [opsMeanLn]
  after_results_simp
  all_goals rfl
set_option maxRecDepth 4096 in
theorem val5_main_v14 : val5 V0 (no_index (Proc.devRef .tc main_v14)) = meanLn (V0 (Proc.devRef .tc main_arg0)) := by
  unfold val5
  simp only [opsMeanLn]
  after_results_simp
  all_goals (try simp only [val4_main_arg0])
  all_goals rfl

/-- The contents after the first 6 windows. -/
def val6 : Valuation τ sig (Elt F) := after opsVarLn (val5 V0)
theorem val6_keep (r : Ref sig .tc) (h : r ∉ opsVarLn_W) :
    val6 V0 (Proc.devRef .tc r) = val5 V0 (Proc.devRef .tc r) :=
  after_of_writes_sub opsVarLn _ opsVarLn_writes h
theorem val6_main_arg0 : val6 V0 (no_index (Proc.devRef .tc main_arg0)) = V0 (Proc.devRef .tc main_arg0) :=
  (val6_keep V0 main_arg0 (by decide)).trans (val5_main_arg0 V0)
theorem val6_main_arg1 : val6 V0 (no_index (Proc.devRef .tc main_arg1)) = V0 (Proc.devRef .tc main_arg1) :=
  (val6_keep V0 main_arg1 (by decide)).trans (val5_main_arg1 V0)
theorem val6_main_arg2 : val6 V0 (no_index (Proc.devRef .tc main_arg2)) = V0 (Proc.devRef .tc main_arg2) :=
  (val6_keep V0 main_arg2 (by decide)).trans (val5_main_arg2 V0)
theorem val6_main_arg3 : val6 V0 (no_index (Proc.devRef .tc main_arg3)) = V0 (Proc.devRef .tc main_arg3) :=
  (val6_keep V0 main_arg3 (by decide)).trans (val5_main_arg3 V0)
theorem val6_main_arg4 : val6 V0 (no_index (Proc.devRef .tc main_arg4)) = V0 (Proc.devRef .tc main_arg4) :=
  (val6_keep V0 main_arg4 (by decide)).trans (val5_main_arg4 V0)
theorem val6_main_v3 : val6 V0 (no_index (Proc.devRef .tc main_v3)) = meanBn (V0 (Proc.devRef .tc main_arg0)) :=
  (val6_keep V0 main_v3 (by decide)).trans (val5_main_v3 V0)
theorem val6_main_v5 : val6 V0 (no_index (Proc.devRef .tc main_v5)) = varBn (V0 (Proc.devRef .tc main_arg0)) :=
  (val6_keep V0 main_v5 (by decide)).trans (val5_main_v5 V0)
theorem val6_main_v9 : val6 V0 (no_index (Proc.devRef .tc main_v9)) = meanIn (V0 (Proc.devRef .tc main_arg0)) :=
  (val6_keep V0 main_v9 (by decide)).trans (val5_main_v9 V0)
theorem val6_main_v10 : val6 V0 (no_index (Proc.devRef .tc main_v10)) = varIn (V0 (Proc.devRef .tc main_arg0)) :=
  (val6_keep V0 main_v10 (by decide)).trans (val5_main_v10 V0)
theorem val6_main_v14 : val6 V0 (no_index (Proc.devRef .tc main_v14)) = meanLn (V0 (Proc.devRef .tc main_arg0)) :=
  (val6_keep V0 main_v14 (by decide)).trans (val5_main_v14 V0)
set_option maxRecDepth 4096 in
theorem val6_main_v15 : val6 V0 (no_index (Proc.devRef .tc main_v15)) = varLn (V0 (Proc.devRef .tc main_arg0)) := by
  unfold val6
  simp only [opsVarLn]
  after_results_simp
  all_goals (try simp only [val5_main_c_6, val5_main_arg0])
  all_goals rfl

/-- The contents after the first 7 windows. -/
def val7 : Valuation τ sig (Elt F) := after opsMeanW (val6 V0)
theorem val7_keep (r : Ref sig .tc) (h : r ∉ opsMeanW_W) :
    val7 V0 (Proc.devRef .tc r) = val6 V0 (Proc.devRef .tc r) :=
  after_of_writes_sub opsMeanW _ opsMeanW_writes h
theorem val7_main_arg0 : val7 V0 (no_index (Proc.devRef .tc main_arg0)) = V0 (Proc.devRef .tc main_arg0) :=
  (val7_keep V0 main_arg0 (by decide)).trans (val6_main_arg0 V0)
theorem val7_main_arg1 : val7 V0 (no_index (Proc.devRef .tc main_arg1)) = V0 (Proc.devRef .tc main_arg1) :=
  (val7_keep V0 main_arg1 (by decide)).trans (val6_main_arg1 V0)
theorem val7_main_arg2 : val7 V0 (no_index (Proc.devRef .tc main_arg2)) = V0 (Proc.devRef .tc main_arg2) :=
  (val7_keep V0 main_arg2 (by decide)).trans (val6_main_arg2 V0)
theorem val7_main_arg3 : val7 V0 (no_index (Proc.devRef .tc main_arg3)) = V0 (Proc.devRef .tc main_arg3) :=
  (val7_keep V0 main_arg3 (by decide)).trans (val6_main_arg3 V0)
theorem val7_main_arg4 : val7 V0 (no_index (Proc.devRef .tc main_arg4)) = V0 (Proc.devRef .tc main_arg4) :=
  (val7_keep V0 main_arg4 (by decide)).trans (val6_main_arg4 V0)
theorem val7_main_v3 : val7 V0 (no_index (Proc.devRef .tc main_v3)) = meanBn (V0 (Proc.devRef .tc main_arg0)) :=
  (val7_keep V0 main_v3 (by decide)).trans (val6_main_v3 V0)
theorem val7_main_v5 : val7 V0 (no_index (Proc.devRef .tc main_v5)) = varBn (V0 (Proc.devRef .tc main_arg0)) :=
  (val7_keep V0 main_v5 (by decide)).trans (val6_main_v5 V0)
theorem val7_main_v9 : val7 V0 (no_index (Proc.devRef .tc main_v9)) = meanIn (V0 (Proc.devRef .tc main_arg0)) :=
  (val7_keep V0 main_v9 (by decide)).trans (val6_main_v9 V0)
theorem val7_main_v10 : val7 V0 (no_index (Proc.devRef .tc main_v10)) = varIn (V0 (Proc.devRef .tc main_arg0)) :=
  (val7_keep V0 main_v10 (by decide)).trans (val6_main_v10 V0)
theorem val7_main_v14 : val7 V0 (no_index (Proc.devRef .tc main_v14)) = meanLn (V0 (Proc.devRef .tc main_arg0)) :=
  (val7_keep V0 main_v14 (by decide)).trans (val6_main_v14 V0)
theorem val7_main_v15 : val7 V0 (no_index (Proc.devRef .tc main_v15)) = varLn (V0 (Proc.devRef .tc main_arg0)) :=
  (val7_keep V0 main_v15 (by decide)).trans (val6_main_v15 V0)
set_option maxRecDepth 4096 in
theorem val7_main_v35 : val7 V0 (no_index (Proc.devRef .tc main_v35)) = dsoftmax (V0 (Proc.devRef .tc main_arg3)) := by
  unfold val7
  simp only [opsMeanW]
  after_results_simp
  all_goals (try simp only [val6_main_arg3])
  all_goals rfl

/-- The contents after the first 8 windows. -/
def val8 : Valuation τ sig (Elt F) := after opsVarW (val7 V0)
theorem val8_keep (r : Ref sig .tc) (h : r ∉ opsVarW_W) :
    val8 V0 (Proc.devRef .tc r) = val7 V0 (Proc.devRef .tc r) :=
  after_of_writes_sub opsVarW _ opsVarW_writes h
theorem val8_main_arg0 : val8 V0 (no_index (Proc.devRef .tc main_arg0)) = V0 (Proc.devRef .tc main_arg0) :=
  (val8_keep V0 main_arg0 (by decide)).trans (val7_main_arg0 V0)
theorem val8_main_arg1 : val8 V0 (no_index (Proc.devRef .tc main_arg1)) = V0 (Proc.devRef .tc main_arg1) :=
  (val8_keep V0 main_arg1 (by decide)).trans (val7_main_arg1 V0)
theorem val8_main_arg2 : val8 V0 (no_index (Proc.devRef .tc main_arg2)) = V0 (Proc.devRef .tc main_arg2) :=
  (val8_keep V0 main_arg2 (by decide)).trans (val7_main_arg2 V0)
theorem val8_main_arg3 : val8 V0 (no_index (Proc.devRef .tc main_arg3)) = V0 (Proc.devRef .tc main_arg3) :=
  (val8_keep V0 main_arg3 (by decide)).trans (val7_main_arg3 V0)
theorem val8_main_arg4 : val8 V0 (no_index (Proc.devRef .tc main_arg4)) = V0 (Proc.devRef .tc main_arg4) :=
  (val8_keep V0 main_arg4 (by decide)).trans (val7_main_arg4 V0)
theorem val8_main_v3 : val8 V0 (no_index (Proc.devRef .tc main_v3)) = meanBn (V0 (Proc.devRef .tc main_arg0)) :=
  (val8_keep V0 main_v3 (by decide)).trans (val7_main_v3 V0)
theorem val8_main_v5 : val8 V0 (no_index (Proc.devRef .tc main_v5)) = varBn (V0 (Proc.devRef .tc main_arg0)) :=
  (val8_keep V0 main_v5 (by decide)).trans (val7_main_v5 V0)
theorem val8_main_v9 : val8 V0 (no_index (Proc.devRef .tc main_v9)) = meanIn (V0 (Proc.devRef .tc main_arg0)) :=
  (val8_keep V0 main_v9 (by decide)).trans (val7_main_v9 V0)
theorem val8_main_v10 : val8 V0 (no_index (Proc.devRef .tc main_v10)) = varIn (V0 (Proc.devRef .tc main_arg0)) :=
  (val8_keep V0 main_v10 (by decide)).trans (val7_main_v10 V0)
theorem val8_main_v14 : val8 V0 (no_index (Proc.devRef .tc main_v14)) = meanLn (V0 (Proc.devRef .tc main_arg0)) :=
  (val8_keep V0 main_v14 (by decide)).trans (val7_main_v14 V0)
theorem val8_main_v15 : val8 V0 (no_index (Proc.devRef .tc main_v15)) = varLn (V0 (Proc.devRef .tc main_arg0)) :=
  (val8_keep V0 main_v15 (by decide)).trans (val7_main_v15 V0)
theorem val8_main_v35 : val8 V0 (no_index (Proc.devRef .tc main_v35)) = dsoftmax (V0 (Proc.devRef .tc main_arg3)) :=
  (val8_keep V0 main_v35 (by decide)).trans (val7_main_v35 V0)
set_option maxRecDepth 4096 in
theorem val8_main_v55 : val8 V0 (no_index (Proc.devRef .tc main_v55)) = dsoftmax (V0 (Proc.devRef .tc main_arg4)) := by
  unfold val8
  simp only [opsVarW]
  after_results_simp
  all_goals (try simp only [val7_main_arg4])
  all_goals rfl

/-- The contents after the first 9 windows. -/
def val9 : Valuation τ sig (Elt F) := after opsBlend (val8 V0)
theorem val9_keep (r : Ref sig .tc) (h : r ∉ opsBlend_W) :
    val9 V0 (Proc.devRef .tc r) = val8 V0 (Proc.devRef .tc r) :=
  after_of_writes_sub opsBlend _ opsBlend_writes h
theorem val9_main_arg0 : val9 V0 (no_index (Proc.devRef .tc main_arg0)) = V0 (Proc.devRef .tc main_arg0) :=
  (val9_keep V0 main_arg0 (by decide)).trans (val8_main_arg0 V0)
theorem val9_main_arg1 : val9 V0 (no_index (Proc.devRef .tc main_arg1)) = V0 (Proc.devRef .tc main_arg1) :=
  (val9_keep V0 main_arg1 (by decide)).trans (val8_main_arg1 V0)
theorem val9_main_arg2 : val9 V0 (no_index (Proc.devRef .tc main_arg2)) = V0 (Proc.devRef .tc main_arg2) :=
  (val9_keep V0 main_arg2 (by decide)).trans (val8_main_arg2 V0)
theorem val9_main_arg3 : val9 V0 (no_index (Proc.devRef .tc main_arg3)) = V0 (Proc.devRef .tc main_arg3) :=
  (val9_keep V0 main_arg3 (by decide)).trans (val8_main_arg3 V0)
theorem val9_main_arg4 : val9 V0 (no_index (Proc.devRef .tc main_arg4)) = V0 (Proc.devRef .tc main_arg4) :=
  (val9_keep V0 main_arg4 (by decide)).trans (val8_main_arg4 V0)
set_option maxRecDepth 4096 in
theorem val9_main_v71 : val9 V0 (no_index (Proc.devRef .tc main_v71)) = meanMix (V0 (Proc.devRef .tc main_arg0)) (V0 (Proc.devRef .tc main_arg3)) := by
  unfold val9
  simp only [opsBlend]
  after_results_simp
  all_goals (try simp only [val8_main_v14, val8_main_v35, val8_main_v9, val8_main_v3])
  all_goals rfl
set_option maxRecDepth 4096 in
theorem val9_main_v89 : val9 V0 (no_index (Proc.devRef .tc main_v89)) = varMix (V0 (Proc.devRef .tc main_arg0)) (V0 (Proc.devRef .tc main_arg4)) := by
  unfold val9
  simp only [opsBlend]
  after_results_simp
  all_goals (try simp only [val8_main_v15, val8_main_v55, val8_main_v10, val8_main_v5])
  all_goals rfl

/-- The contents after the first 10 windows. -/
def val10 : Valuation τ sig (Elt F) := after opsOut (val9 V0)
theorem val10_keep (r : Ref sig .tc) (h : r ∉ opsOut_W) :
    val10 V0 (Proc.devRef .tc r) = val9 V0 (Proc.devRef .tc r) :=
  after_of_writes_sub opsOut _ opsOut_writes h
theorem val10_main_arg0 : val10 V0 (no_index (Proc.devRef .tc main_arg0)) = V0 (Proc.devRef .tc main_arg0) :=
  (val10_keep V0 main_arg0 (by decide)).trans (val9_main_arg0 V0)
theorem val10_main_arg1 : val10 V0 (no_index (Proc.devRef .tc main_arg1)) = V0 (Proc.devRef .tc main_arg1) :=
  (val10_keep V0 main_arg1 (by decide)).trans (val9_main_arg1 V0)
theorem val10_main_arg2 : val10 V0 (no_index (Proc.devRef .tc main_arg2)) = V0 (Proc.devRef .tc main_arg2) :=
  (val10_keep V0 main_arg2 (by decide)).trans (val9_main_arg2 V0)
theorem val10_main_arg3 : val10 V0 (no_index (Proc.devRef .tc main_arg3)) = V0 (Proc.devRef .tc main_arg3) :=
  (val10_keep V0 main_arg3 (by decide)).trans (val9_main_arg3 V0)
theorem val10_main_arg4 : val10 V0 (no_index (Proc.devRef .tc main_arg4)) = V0 (Proc.devRef .tc main_arg4) :=
  (val10_keep V0 main_arg4 (by decide)).trans (val9_main_arg4 V0)
set_option maxRecDepth 4096 in
theorem val10_main_v100 : val10 V0 (no_index (Proc.devRef .tc main_v100)) = out (V0 (Proc.devRef .tc main_arg0)) (V0 (Proc.devRef .tc main_arg1)) (V0 (Proc.devRef .tc main_arg2)) (V0 (Proc.devRef .tc main_arg3)) (V0 (Proc.devRef .tc main_arg4)) := by
  unfold val10
  simp only [opsOut]
  after_results_simp
  all_goals (try simp only [val9_main_arg2, val9_main_arg1, val9_main_v89, val9_main_arg0, val9_main_v71])
  all_goals rfl

/-- The windows in a row are the whole line. -/
theorem val10_eq : val10 V0 = after ops V0 := by
  unfold val10 val9 val8 val7 val6 val5 val4 val3 val2 val1 val0
  simp only [ops, StableHlo.after_append]

end Windows

/-! ## The fold at the result and at the arguments -/

theorem out_eq (V0 : Valuation τ sig (Elt F)) :
    after ops V0 (Proc.devRef .tc main_v100)
      = out (V0 (Proc.devRef .tc main_arg0)) (V0 (Proc.devRef .tc main_arg1)) (V0 (Proc.devRef .tc main_arg2)) (V0 (Proc.devRef .tc main_arg3)) (V0 (Proc.devRef .tc main_arg4)) := by
  rw [← val10_eq]; exact val10_main_v100 V0
theorem arg0_eq (V0 : Valuation τ sig (Elt F)) : after ops V0 (Proc.devRef .tc main_arg0) = V0 (Proc.devRef .tc main_arg0) := by
  rw [← val10_eq]; exact val10_main_arg0 V0
theorem arg1_eq (V0 : Valuation τ sig (Elt F)) : after ops V0 (Proc.devRef .tc main_arg1) = V0 (Proc.devRef .tc main_arg1) := by
  rw [← val10_eq]; exact val10_main_arg1 V0
theorem arg2_eq (V0 : Valuation τ sig (Elt F)) : after ops V0 (Proc.devRef .tc main_arg2) = V0 (Proc.devRef .tc main_arg2) := by
  rw [← val10_eq]; exact val10_main_arg2 V0
theorem arg3_eq (V0 : Valuation τ sig (Elt F)) : after ops V0 (Proc.devRef .tc main_arg3) = V0 (Proc.devRef .tc main_arg3) := by
  rw [← val10_eq]; exact val10_main_arg3 V0
theorem arg4_eq (V0 : Valuation τ sig (Elt F)) : after ops V0 (Proc.devRef .tc main_arg4) = V0 (Proc.devRef .tc main_arg4) := by
  rw [← val10_eq]; exact val10_main_arg4 V0

/-! ## The run -/

/-- On the device, for any float values, from any memory with zero counters: every weakly fair execution of @main
    terminates with the result buffer at `out` of the five argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100)
          = out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v100).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_main m ρ)

/-- The reference runs and leaves its arguments unchanged: the run, less its result conjunct. -/
theorem frame : Cert.frame_ReferenceIdeal := fun m g _ =>
  (θ_run _ _ _).mono (fun _ h c => (h c).2) (run (F := Ideal) m g)

end Cert.ReferenceIdeal.RefRun

end
-- ==== Proof.LibReduceAxes.lean ====
/- Host sums over several axes, read at an index.

   At the ideal instance a host `reduce` with an `add` body is, at each result index `j`, the initial value plus the
   sum of the operand over the source indices that drop to `j`. The library reads that set for ONE reduced axis and for
   ALL of them; here it is read for any drop map given a parametrization of its fibre: a `lift` from a finite type of
   reduced coordinates into the source indices that lands in the fibre over `j`, with a `proj` back that is its
   inverse on the fibre. The sum over the fibre is then the sum over the reduced coordinates. After the general
   statement, the three ways a rank-four array `[n0, n1, n2, n3]` is reduced over several axes while keeping axis 1,
   axes 0 and 1, or axis 0: the result at a coordinate index is the initial value plus the nested sum over the reduced
   coordinates of the operand at `ix4` of the four coordinates. No program is mentioned. -/
import Idealize.ShloMosaic.Lib.IdealHost

noncomputable section

open scoped BigOperators

namespace Cert.LibReduceAxes

open Idealize.ShloMosaic Idealize.ShloMosaic.ValueIdx

/-- A sum over the fibre of `drop` at `j` is the sum over any finite type `κ` that parametrizes the fibre: `lift`
    lands in the fibre, `proj` undoes it, and on the fibre `lift ∘ proj` is the identity. -/
theorem sum_fibre_eq_sum_lift {ι τ κ α : Type} [Fintype ι] [Fintype κ] [AddCommMonoid α]
    (drop : ι → τ) (j : τ) [DecidablePred fun i => drop i = j] (lift : κ → ι) (proj : ι → κ)
    (hdrop : ∀ k, drop (lift k) = j) (hproj : ∀ k, proj (lift k) = k) (hlift : ∀ i, drop i = j → lift (proj i) = i)
    (x : ι → α) :
    ∑ i ∈ Finset.univ.filter (fun i => drop i = j), x i = ∑ k : κ, x (lift k) := by
  refine Finset.sum_nbij' proj lift ?_ ?_ ?_ ?_ ?_
  · intro a _; exact Finset.mem_univ _
  · intro k _; exact Finset.mem_filter.2 ⟨Finset.mem_univ _, hdrop k⟩
  · intro a ha; exact hlift a (Finset.mem_filter.1 ha).2
  · intro k _; exact hproj k
  · intro a ha; rw [hlift a (Finset.mem_filter.1 ha).2]

/-- The host's sum at the ideal instance, through such a parametrization of the fibre over `j`. -/
theorem hostReduceAdd_eq_sum_lift {s t : Shape} {axes : List (Fin s.rank)} (h' : s.ReducesTo axes t) {κ : Type} [Fintype κ]
    (x : s.Idx → EReal) (init : EReal) (j : t.Idx) (lift : κ → s.Idx) (proj : s.Idx → κ)
    (hdrop : ∀ k, h'.drop (lift k) = j) (hproj : ∀ k, proj (lift k) = k) (hlift : ∀ i, h'.drop i = j → lift (proj i) = i) :
    Ideal.hostReduceAdd h' x init j = init + ∑ k : κ, x (lift k) := by
  unfold Ideal.hostReduceAdd
  rw [sum_fibre_eq_sum_lift h'.drop j lift proj hdrop hproj hlift x]

variable {n0 n1 n2 n3 : Nat}

/-! ## A rank-four array reduced over axes 0, 2, 3: one sum per coordinate on axis 1 -/

/-- Reduced over axes (0,2,3), at the index with coordinate `c`: the initial value plus the sum over the three
    reduced coordinates. -/
theorem hostReduceAdd_axes023 (h' : (⟨4, ![n0, n1, n2, n3]⟩ : Shape).ReducesTo [0, 2, 3] ⟨1, ![n1]⟩)
    (x : (⟨4, ![n0, n1, n2, n3]⟩ : Shape).Idx → EReal) (init : EReal) (c : Fin n1) :
    Ideal.hostReduceAdd h' x init (ix1 c) = init + ∑ n : Fin n0, ∑ h : Fin n2, ∑ w : Fin n3, x (ix4 n c h w) := by
  have hd : ∀ i : (⟨4, ![n0, n1, n2, n3]⟩ : Shape).Idx, ((h'.drop i ⟨0, Nat.one_pos⟩ : Fin _) : Nat) = ((i 1 : Fin _) : Nat) :=
    fun i => rfl
  rw [hostReduceAdd_eq_sum_lift h' x init (ix1 c)
    (fun k : Fin n0 × Fin n2 × Fin n3 => ix4 k.1 c k.2.1 k.2.2) (fun i => (i 0, i 2, i 3))]
  · simp only [Fintype.sum_prod_type]
  · intro k; funext b
    match b with
    | ⟨0, _⟩ => exact Fin.ext (hd _)
  · intro k; rfl
  · intro i hi
    have hc : (i 1 : Fin n1) = c := Fin.ext ((hd i).symm.trans (congrArg (fun f => ((f ⟨0, Nat.one_pos⟩ : Fin _) : Nat)) hi))
    subst hc; exact (eq_ix4 i).symm

/-! ## Reduced over axes 2, 3: one sum per pair of coordinates on axes 0 and 1 -/

/-- Reduced over axes (2,3), at the index with coordinates `n`, `c`: the initial value plus the sum over the two
    reduced coordinates. -/
theorem hostReduceAdd_axes23 (h' : (⟨4, ![n0, n1, n2, n3]⟩ : Shape).ReducesTo [2, 3] ⟨2, ![n0, n1]⟩)
    (x : (⟨4, ![n0, n1, n2, n3]⟩ : Shape).Idx → EReal) (init : EReal) (n : Fin n0) (c : Fin n1) :
    Ideal.hostReduceAdd h' x init (ix2 n c) = init + ∑ h : Fin n2, ∑ w : Fin n3, x (ix4 n c h w) := by
  have hd0 : ∀ i : (⟨4, ![n0, n1, n2, n3]⟩ : Shape).Idx, ((h'.drop i ⟨0, Nat.zero_lt_two⟩ : Fin _) : Nat) = ((i 0 : Fin _) : Nat) :=
    fun i => rfl
  have hd1 : ∀ i : (⟨4, ![n0, n1, n2, n3]⟩ : Shape).Idx, ((h'.drop i ⟨1, Nat.one_lt_two⟩ : Fin _) : Nat) = ((i 1 : Fin _) : Nat) :=
    fun i => rfl
  rw [hostReduceAdd_eq_sum_lift h' x init (ix2 n c)
    (fun k : Fin n2 × Fin n3 => ix4 n c k.1 k.2) (fun i => (i 2, i 3))]
  · simp only [Fintype.sum_prod_type]
  · intro k; funext b
    match b with
    | ⟨0, _⟩ => exact Fin.ext (hd0 _)
    | ⟨1, _⟩ => exact Fin.ext (hd1 _)
  · intro k; rfl
  · intro i hi
    have hn : (i 0 : Fin n0) = n := Fin.ext ((hd0 i).symm.trans (congrArg (fun f => ((f ⟨0, Nat.zero_lt_two⟩ : Fin _) : Nat)) hi))
    have hc : (i 1 : Fin n1) = c := Fin.ext ((hd1 i).symm.trans (congrArg (fun f => ((f ⟨1, Nat.one_lt_two⟩ : Fin _) : Nat)) hi))
    subst hn; subst hc; exact (eq_ix4 i).symm

/-! ## Reduced over axes 1, 2, 3: one sum per coordinate on axis 0 -/

/-- Reduced over axes (1,2,3), at the index with coordinate `n`: the initial value plus the sum over the three
    reduced coordinates. -/
theorem hostReduceAdd_axes123 (h' : (⟨4, ![n0, n1, n2, n3]⟩ : Shape).ReducesTo [1, 2, 3] ⟨1, ![n0]⟩)
    (x : (⟨4, ![n0, n1, n2, n3]⟩ : Shape).Idx → EReal) (init : EReal) (n : Fin n0) :
    Ideal.hostReduceAdd h' x init (ix1 n) = init + ∑ c : Fin n1, ∑ h : Fin n2, ∑ w : Fin n3, x (ix4 n c h w) := by
  have hd : ∀ i : (⟨4, ![n0, n1, n2, n3]⟩ : Shape).Idx, ((h'.drop i ⟨0, Nat.one_pos⟩ : Fin _) : Nat) = ((i 0 : Fin _) : Nat) :=
    fun i => rfl
  rw [hostReduceAdd_eq_sum_lift h' x init (ix1 n)
    (fun k : Fin n1 × Fin n2 × Fin n3 => ix4 n k.1 k.2.1 k.2.2) (fun i => (i 1, i 2, i 3))]
  · simp only [Fintype.sum_prod_type]
  · intro k; funext b
    match b with
    | ⟨0, _⟩ => exact Fin.ext (hd _)
  · intro k; rfl
  · intro i hi
    have hn : (i 0 : Fin n0) = n := Fin.ext ((hd i).symm.trans (congrArg (fun f => ((f ⟨0, Nat.one_pos⟩ : Fin _) : Nat)) hi))
    subst hn; exact (eq_ix4 i).symm

/-! ## The same three for the host operation itself, from its initial array's first element -/

section HostOp
variable {φ : FTy} {u : Shape}

theorem reduceAdd_axes023 (x : FVec Ideal ⟨4, ![n0, n1, n2, n3]⟩ φ) (init : u.Idx → Ideal φ)
    (h' : (⟨4, ![n0, n1, n2, n3]⟩ : Shape).ReducesTo [0, 2, 3] ⟨1, ![n1]⟩) (hu : 0 < u.numel) (c : Fin n1) :
    Host.reduceAdd x init h' hu (ix1 c)
      = init (Shape.Idx.first hu) + ∑ n : Fin n0, ∑ h : Fin n2, ∑ w : Fin n3, x (ix4 n c h w) :=
  hostReduceAdd_axes023 h' x _ c

theorem reduceAdd_axes23 (x : FVec Ideal ⟨4, ![n0, n1, n2, n3]⟩ φ) (init : u.Idx → Ideal φ)
    (h' : (⟨4, ![n0, n1, n2, n3]⟩ : Shape).ReducesTo [2, 3] ⟨2, ![n0, n1]⟩) (hu : 0 < u.numel) (n : Fin n0) (c : Fin n1) :
    Host.reduceAdd x init h' hu (ix2 n c)
      = init (Shape.Idx.first hu) + ∑ h : Fin n2, ∑ w : Fin n3, x (ix4 n c h w) :=
  hostReduceAdd_axes23 h' x _ n c

theorem reduceAdd_axes123 (x : FVec Ideal ⟨4, ![n0, n1, n2, n3]⟩ φ) (init : u.Idx → Ideal φ)
    (h' : (⟨4, ![n0, n1, n2, n3]⟩ : Shape).ReducesTo [1, 2, 3] ⟨1, ![n0]⟩) (hu : 0 < u.numel) (n : Fin n0) :
    Host.reduceAdd x init h' hu (ix1 n)
      = init (Shape.Idx.first hu) + ∑ c : Fin n1, ∑ h : Fin n2, ∑ w : Fin n3, x (ix4 n c h w) :=
  hostReduceAdd_axes123 h' x _ n

end HostOp

end Cert.LibReduceAxes

end
-- ==== Proof.RefRead.lean ====
/- The reference's result read at an index, at the ideal instance.

   `RefRun.out` of the five argument arrays is read at `ix4 n c h w`. The layout operations read their operand at
   one index each; the three host sums over several axes are nested sums over the reduced coordinates
   (`Cert.LibReduceAxes`); the elementwise operations are the extended reals'. Every literal stays a bit pattern
   under `Ideal.ofBits`; the mixing weights stay `Cert.MixWeights.dsoftmax` of the weight argument read at its three
   indices. The sums are over the literal types `Fin 32`, `Fin 256`, `Fin 64`. -/
import proofs.«175668_j16295105921565_2_alg».proof.Proof.RefRun
import proofs.«175668_j16295105921565_2_alg».proof.Proof.LibReduceAxes
import Idealize.ShloMosaic.Lib.Pipeline.Value
import Idealize.ShloMosaic.Lib.IdealHost

noncomputable section

open scoped BigOperators

namespace Cert.ReferenceIdeal.RefRead

open Cert.MixWeights (dsoftmax)
open Cert.ReferenceIdeal Cert.ReferenceIdeal.Gen Cert.ReferenceIdeal.RefRun Cert.LibReduceAxes
open Idealize.ShloMosaic Idealize.ShloMosaic.ValueIdx

/-! ## The layout operations of the program, read at an index -/

section Layout
variable {α : Type}

theorem spread_c (v : S1x256x1x1.Idx → α) (n : Fin 32) (c : Fin 256) (h w : Fin 64) :
    broadcastInDim S32x256x64x64 ![0, 1, 2, 3] bcast_S1x256x1x1_S32x256x64x64_0_1_2_3 v (ix4 n c h w) = v (ix4 0 c 0 0) :=
  broadcastInDim_apply _ _ v _ _ fun (a : Fin 4) => match a with
    | ⟨0, _⟩ => rfl | ⟨1, _⟩ => rfl | ⟨2, _⟩ => rfl | ⟨3, _⟩ => rfl

theorem spread_nc (v : S32x256x1x1.Idx → α) (n : Fin 32) (c : Fin 256) (h w : Fin 64) :
    broadcastInDim S32x256x64x64 ![0, 1, 2, 3] bcast_S32x256x1x1_S32x256x64x64_0_1_2_3 v (ix4 n c h w) = v (ix4 n c 0 0) :=
  broadcastInDim_apply _ _ v _ _ fun (a : Fin 4) => match a with
    | ⟨0, _⟩ => rfl | ⟨1, _⟩ => rfl | ⟨2, _⟩ => rfl | ⟨3, _⟩ => rfl

theorem spread_n (v : S32x1x1x1.Idx → α) (n : Fin 32) (c : Fin 256) (h w : Fin 64) :
    broadcastInDim S32x256x64x64 ![0, 1, 2, 3] bcast_S32x1x1x1_S32x256x64x64_0_1_2_3 v (ix4 n c h w) = v (ix4 n 0 0 0) :=
  broadcastInDim_apply _ _ v _ _ fun (a : Fin 4) => match a with
    | ⟨0, _⟩ => rfl | ⟨1, _⟩ => rfl | ⟨2, _⟩ => rfl | ⟨3, _⟩ => rfl

theorem stat_c (v : S1x256x1x1.Idx → α) (n : Fin 32) (c : Fin 256) :
    broadcastInDim S32x256x1x1 ![0, 1, 2, 3] bcast_S1x256x1x1_S32x256x1x1_0_1_2_3 v (ix4 n c 0 0) = v (ix4 0 c 0 0) :=
  broadcastInDim_apply _ _ v _ _ fun (a : Fin 4) => match a with
    | ⟨0, _⟩ => rfl | ⟨1, _⟩ => rfl | ⟨2, _⟩ => rfl | ⟨3, _⟩ => rfl

theorem stat_n (v : S32x1x1x1.Idx → α) (n : Fin 32) (c : Fin 256) :
    broadcastInDim S32x256x1x1 ![0, 1, 2, 3] bcast_S32x1x1x1_S32x256x1x1_0_1_2_3 v (ix4 n c 0 0) = v (ix4 n 0 0 0) :=
  broadcastInDim_apply _ _ v _ _ fun (a : Fin 4) => match a with
    | ⟨0, _⟩ => rfl | ⟨1, _⟩ => rfl | ⟨2, _⟩ => rfl | ⟨3, _⟩ => rfl

theorem unit_c (v : S256.Idx → α) (c : Fin 256) :
    broadcastInDim S1x256x1x1 ![1] bcast_S256_S1x256x1x1_1 v (ix4 0 c 0 0) = v (ix1 c) :=
  broadcastInDim_apply _ _ v _ _ fun (a : Fin 1) => match a with
    | ⟨0, _⟩ => rfl

theorem unit_nc (v : S32x256.Idx → α) (n : Fin 32) (c : Fin 256) :
    broadcastInDim S32x256x1x1 ![0, 1] bcast_S32x256_S32x256x1x1_0_1 v (ix4 n c 0 0) = v (ix2 n c) :=
  broadcastInDim_apply _ _ v _ _ fun (a : Fin 2) => match a with
    | ⟨0, _⟩ => rfl | ⟨1, _⟩ => rfl

theorem unit_n (v : S32.Idx → α) (n : Fin 32) :
    broadcastInDim S32x1x1x1 ![0] bcast_S32_S32x1x1x1_0 v (ix4 n 0 0 0) = v (ix1 n) :=
  broadcastInDim_apply _ _ v _ _ fun (a : Fin 1) => match a with
    | ⟨0, _⟩ => rfl

theorem reshape_c (v : S256.Idx → α) (c : Fin 256) :
    shapeCast S1x256x1x1 v shapeCasts_S256_S1x256x1x1 (ix4 0 c 0 0) = v (ix1 c) :=
  shapeCast_apply v _ _ _ (by
    rw [Shape.rowMajor_val_one, Shape.rowMajor_val_four]
    show c.val = (((0 : Nat) * 256 + c.val) * 1 + 0) * 1 + 0
    omega)

theorem pick0_apply {F : FTy → Type} [FloatOps F] (w : FVec F S3 .f32) : pick0 w ix0 = w (ix1 0) := by
  unfold pick0
  rw [shapeCast_apply _ _ ix0 (ix1 0) (by rw [Shape.rowMajor_val_one]; rfl)]
  exact extractStridedSlice_apply _ w _ _ _ fun (a : Fin 1) => match a with | ⟨0, _⟩ => rfl
theorem pick1_apply {F : FTy → Type} [FloatOps F] (w : FVec F S3 .f32) : pick1 w ix0 = w (ix1 1) := by
  unfold pick1
  rw [shapeCast_apply _ _ ix0 (ix1 0) (by rw [Shape.rowMajor_val_one]; rfl)]
  exact extractStridedSlice_apply _ w _ _ _ fun (a : Fin 1) => match a with | ⟨0, _⟩ => rfl
theorem pick2_apply {F : FTy → Type} [FloatOps F] (w : FVec F S3 .f32) : pick2 w ix0 = w (ix1 2) := by
  unfold pick2
  rw [shapeCast_apply _ _ ix0 (ix1 0) (by rw [Shape.rowMajor_val_one]; rfl)]
  exact extractStridedSlice_apply _ w _ _ _ fun (a : Fin 1) => match a with | ⟨0, _⟩ => rfl

end Layout

/-! ## The statistics, as extended reals -/

/-- The literal zero every sum starts from. -/
abbrev zero : EReal := Ideal.ofBits .f32 0x00000000#32

/-- The mean over the batch and the two spatial axes, of channel `c`. -/
def μBn (x : FVec Ideal S32x256x64x64 .f32) (c : Fin 256) : EReal :=
  Ideal.div (zero + ∑ n : Fin 32, ∑ h : Fin 64, ∑ w : Fin 64, x (ix4 n c h w)) (Ideal.ofBits .f32 0x48000000#32)
/-- The mean over the two spatial axes, of sample `n` and channel `c`. -/
def μIn (x : FVec Ideal S32x256x64x64 .f32) (n : Fin 32) (c : Fin 256) : EReal :=
  Ideal.div (zero + ∑ h : Fin 64, ∑ w : Fin 64, x (ix4 n c h w)) (Ideal.ofBits .f32 0x45800000#32)
/-- The mean over the channel and the two spatial axes, of sample `n`. -/
def μLn (x : FVec Ideal S32x256x64x64 .f32) (n : Fin 32) : EReal :=
  Ideal.div (zero + ∑ c : Fin 256, ∑ h : Fin 64, ∑ w : Fin 64, x (ix4 n c h w)) (Ideal.ofBits .f32 0x49800000#32)

/-- The three variance divisors: the literal count less the `ddof` operand (the integer 0 converted). -/
def nBn : EReal := Ideal.ofBits .f32 0x48000000#32 - FloatOps.sitofp (F := Ideal) .f32 (0#32 : BitVec 32)
@[inherit_doc nBn]
def nIn : EReal := Ideal.ofBits .f32 0x45800000#32 - FloatOps.sitofp (F := Ideal) .f32 (0#32 : BitVec 32)
@[inherit_doc nBn]
def nLn : EReal := Ideal.ofBits .f32 0x49800000#32 - FloatOps.sitofp (F := Ideal) .f32 (0#32 : BitVec 32)

/-- The two-pass variance of channel `c`: the squared deviations from `μBn` summed, over the divisor where the divisor
    is positive, the literal NaN pattern's value elsewhere. -/
def σBn (x : FVec Ideal S32x256x64x64 .f32) (c : Fin 256) : EReal :=
  Scalar.select (FloatOps.cmpf (F := Ideal) (φ := .f32) .ogt nBn zero)
    (Ideal.div (zero + ∑ n : Fin 32, ∑ h : Fin 64, ∑ w : Fin 64, (x (ix4 n c h w) - μBn x c) * (x (ix4 n c h w) - μBn x c)) nBn)
    (Ideal.ofBits .f32 0x7FC00000#32)
/-- The two-pass variance of sample `n` and channel `c`. -/
def σIn (x : FVec Ideal S32x256x64x64 .f32) (n : Fin 32) (c : Fin 256) : EReal :=
  Scalar.select (FloatOps.cmpf (F := Ideal) (φ := .f32) .ogt nIn zero)
    (Ideal.div (zero + ∑ h : Fin 64, ∑ w : Fin 64, (x (ix4 n c h w) - μIn x n c) * (x (ix4 n c h w) - μIn x n c)) nIn)
    (Ideal.ofBits .f32 0x7FC00000#32)
/-- The two-pass variance of sample `n`. -/
def σLn (x : FVec Ideal S32x256x64x64 .f32) (n : Fin 32) : EReal :=
  Scalar.select (FloatOps.cmpf (F := Ideal) (φ := .f32) .ogt nLn zero)
    (Ideal.div (zero + ∑ c : Fin 256, ∑ h : Fin 64, ∑ w : Fin 64, (x (ix4 n c h w) - μLn x n) * (x (ix4 n c h w) - μLn x n)) nLn)
    (Ideal.ofBits .f32 0x7FC00000#32)

/-- The blended mean at sample `n`, channel `c`. -/
def meanAt (x : FVec Ideal S32x256x64x64 .f32) (p : FVec Ideal S3 .f32) (n : Fin 32) (c : Fin 256) : EReal :=
  μBn x c * dsoftmax p (ix1 0) + μIn x n c * dsoftmax p (ix1 1) + μLn x n * dsoftmax p (ix1 2)
/-- The blended variance plus the literal epsilon, at sample `n`, channel `c`. -/
def varAt (x : FVec Ideal S32x256x64x64 .f32) (q : FVec Ideal S3 .f32) (n : Fin 32) (c : Fin 256) : EReal :=
  σBn x c * dsoftmax q (ix1 0) + σIn x n c * dsoftmax q (ix1 1) + σLn x n * dsoftmax q (ix1 2)
    + Ideal.ofBits .f32 0x3727C5AC#32

/-! ## The named values read at an index -/

section Read
variable (x : FVec Ideal S32x256x64x64 .f32) (wt bs : FVec Ideal S256 .f32) (p q : FVec Ideal S3 .f32)

theorem meanBn_apply (c : Fin 256) : meanBn x (ix4 0 c 0 0) = μBn x c := by
  unfold meanBn μBn
  rw [reshape_c, hostDivf_apply, broadcastInDim_scalar_apply, reduceAdd_axes023]
  rfl

theorem spreadBn_apply (n : Fin 32) (c : Fin 256) (h w : Fin 64) : spreadBn x (ix4 n c h w) = μBn x c := by
  unfold spreadBn μBn
  rw [spread_c, hostDivf_apply, unit_c, broadcastInDim_scalar_apply, reduceAdd_axes023]
  rfl

theorem cntBn_apply : cntBn (F := Ideal) ix0 = nBn := rfl
theorem cntIn_apply : cntIn (F := Ideal) ix0 = nIn := rfl
theorem cntLn_apply : cntLn (F := Ideal) ix0 = nLn := rfl

theorem varBn_apply (c : Fin 256) : varBn x (ix4 0 c 0 0) = σBn x c := by
  unfold varBn varBnFlat σBn
  rw [reshape_c, select_apply, broadcastInDim_scalar_apply, broadcastInDim_scalar_apply, hostDivf_apply,
    broadcastInDim_scalar_apply, reduceAdd_axes023, cmpf_apply, cntBn_apply]
  simp only [mulf_apply, subf_apply, spreadBn_apply]
  rfl

theorem meanIn_apply (n : Fin 32) (c : Fin 256) : meanIn x (ix4 n c 0 0) = μIn x n c := by
  unfold meanIn μIn
  rw [hostDivf_apply, unit_nc, broadcastInDim_scalar_apply, reduceAdd_axes23]
  rfl

theorem spreadIn_apply (n : Fin 32) (c : Fin 256) (h w : Fin 64) : spreadIn x (ix4 n c h w) = μIn x n c := by
  unfold spreadIn
  rw [spread_nc, meanIn_apply]

theorem varIn_apply (n : Fin 32) (c : Fin 256) : varIn x (ix4 n c 0 0) = σIn x n c := by
  unfold varIn σIn
  rw [select_apply, broadcastInDim_scalar_apply, broadcastInDim_scalar_apply, hostDivf_apply,
    broadcastInDim_scalar_apply, unit_nc, reduceAdd_axes23, cmpf_apply, cntIn_apply]
  simp only [mulf_apply, subf_apply, spreadIn_apply]
  rfl

theorem meanLn_apply (n : Fin 32) : meanLn x (ix4 n 0 0 0) = μLn x n := by
  unfold meanLn μLn
  rw [hostDivf_apply, unit_n, broadcastInDim_scalar_apply, reduceAdd_axes123]
  rfl

theorem spreadLn_apply (n : Fin 32) (c : Fin 256) (h w : Fin 64) : spreadLn x (ix4 n c h w) = μLn x n := by
  unfold spreadLn
  rw [spread_n, meanLn_apply]

theorem varLn_apply (n : Fin 32) : varLn x (ix4 n 0 0 0) = σLn x n := by
  unfold varLn σLn
  rw [select_apply, broadcastInDim_scalar_apply, broadcastInDim_scalar_apply, hostDivf_apply,
    broadcastInDim_scalar_apply, unit_n, reduceAdd_axes123, cmpf_apply, cntLn_apply]
  simp only [mulf_apply, subf_apply, spreadLn_apply]
  rfl

/-- A blend at sample `n`, channel `c`: the three statistics at their own indices times the three weights. -/
theorem blend_apply (a : FVec Ideal S1x256x1x1 .f32) (b : FVec Ideal S32x256x1x1 .f32) (d : FVec Ideal S32x1x1x1 .f32)
    (w : FVec Ideal S3 .f32) (n : Fin 32) (c : Fin 256) :
    blend a b d w (ix4 n c 0 0)
      = a (ix4 0 c 0 0) * w (ix1 0) + b (ix4 n c 0 0) * w (ix1 1) + d (ix4 n 0 0 0) * w (ix1 2) := by
  unfold blend
  rw [addf_apply, addf_apply, stat_c, stat_n, mulf_apply, mulf_apply, mulf_apply,
    broadcastInDim_scalar_apply, broadcastInDim_scalar_apply, broadcastInDim_scalar_apply,
    pick0_apply, pick1_apply, pick2_apply]

theorem meanMix_apply (n : Fin 32) (c : Fin 256) : meanMix x p (ix4 n c 0 0) = meanAt x p n c := by
  unfold meanMix meanAt
  rw [blend_apply, meanBn_apply, meanIn_apply, meanLn_apply]

theorem varMix_apply (n : Fin 32) (c : Fin 256) : varMix x q (ix4 n c 0 0) = varAt x q n c := by
  unfold varMix varAt
  rw [addf_apply, blend_apply, varBn_apply, varIn_apply, varLn_apply, broadcastInDim_scalar_apply]
  rfl

/-- The normalization at an index: centre by the mean of the sample and channel, divide by the root of their
    variance, scale and shift by the channel's weight and bias. -/
theorem normalize_apply (mean var : FVec Ideal S32x256x1x1 .f32) (n : Fin 32) (c : Fin 256) (h w : Fin 64) :
    RefRun.normalize x wt bs mean var (ix4 n c h w)
      = Ideal.div (x (ix4 n c h w) - mean (ix4 n c 0 0)) (Ideal.sqrt (var (ix4 n c 0 0))) * wt (ix1 c) + bs (ix1 c) := by
  unfold RefRun.normalize
  rw [addf_apply, mulf_apply, hostDivf_apply, subf_apply, spread_nc, spread_nc, spread_c, spread_c, reshape_c, reshape_c]
  rfl

/-- The reference's result at sample `n`, channel `c`, position `(h, w)`. -/
theorem out_apply (n : Fin 32) (c : Fin 256) (h w : Fin 64) :
    out x wt bs p q (ix4 n c h w)
      = Ideal.div (x (ix4 n c h w) - meanAt x p n c) (Ideal.sqrt (varAt x q n c)) * wt (ix1 c) + bs (ix1 c) := by
  unfold out
  rw [normalize_apply, meanMix_apply, varMix_apply]

end Read

end Cert.ReferenceIdeal.RefRead

end
-- ==== Proof.FiniteInputs.lean ====
/- The precondition decoded: every element of the arguments is a real number.

   The precondition says that `finite_inputs` of the five argument arrays is all ones: for each argument, the
   conjunction over all its elements of `|x| < +∞`, the five and-ed. Read at its one index, the conjunction splits
   into the five reductions; a reduction by `and` into one index that is 1 had a 1 at every element; an element's
   comparison being 1 says `max x (-x) < ⊤` at the ideal instance, the bit pattern `0x7F800000` denoting `⊤`; and an
   extended real whose absolute value is below `⊤` is neither infinity, so it is a real. -/
import proofs.«175668_j16295105921565_2_alg».proof.Defs
import Idealize.ShloMosaic.Lib.ReduceAll
import Idealize.ShloMosaic.Lib.IdealHost

noncomputable section

namespace Cert.FiniteInputs

open Idealize.ShloMosaic Idealize.ShloMosaic.TcCoe Idealize.SL.Sem Idealize.ShloMosaic.ValueIdx

/-- A rank-zero array has one index. -/
instance : Subsingleton Cert.Pre_finite_inputs.S_.Idx := ⟨fun a b => funext fun d => d.elim0⟩

/-- The f32 pattern `0x7F800000` is `+∞`. -/
theorem ofBits_inf_f32 : Ideal.ofBits .f32 0x7F800000#32 = ⊤ := by simp [Ideal.ofBits, Ideal.ieee]

/-- A one-bit word made from a Boolean is 1 exactly when the Boolean is true. -/
theorem ofBool_eq_one (b : Bool) : BitVec.ofBool b = 1#1 ↔ b = true := by cases b <;> decide

/-- An extended real whose absolute value is below `⊤` is a real. -/
theorem real_of_abs_lt_top : ∀ x : EReal, max x (-x) < ⊤ → ∃ r : ℝ, x = (r : EReal) := by
  intro x
  refine EReal.rec (motive := fun x => max x (-x) < ⊤ → ∃ r : ℝ, x = (r : EReal)) ?_ ?_ ?_ x
  · intro h; simp at h
  · intro r _; exact ⟨r, rfl⟩
  · intro h; simp at h

/-- An element whose comparison `|x| < +∞` came out 1 is a real. -/
theorem real_of_cmp {s : Shape} (x : FVec Ideal s .f32) (hb : (⟨0, ![]⟩ : Shape).BroadcastsInDim s ![]) (i : s.Idx)
    (e : cmpf .olt (Host.absf x) (broadcastInDim s ![] hb (constant ⟨0, ![]⟩ .f32 0x7F800000#32)) i = 1#1) :
    ∃ r : ℝ, x i = (r : EReal) := by
  have e' : Ideal.cmp .olt (max (x i) (-(x i))) (Ideal.ofBits .f32 0x7F800000#32) = 1#1 := e
  unfold Ideal.cmp at e'
  rw [ofBool_eq_one, ofBits_inf_f32] at e'
  exact real_of_abs_lt_top (x i) (of_decide_eq_true e')

section Pre
variable [Cert.Pre_finite_inputs.Facts]
  (m : (ℓ : Loc Cert.KernelIdeal.nD Cert.KernelIdeal.τ Cert.KernelIdeal.sig) → Buf (Elt Ideal) ℓ)

/-- The precondition at device `c`, split: the five reductions are each 1. -/
theorem pre_split (h : Cert.Pre_KernelIdeal m) (c : Dev Cert.KernelIdeal.nD) :
    let x := m ((c.tc : Thread Cert.KernelIdeal.nD Cert.KernelIdeal.τ).loc Cert.KernelIdeal.main_arg0)
    let wt := m ((c.tc : Thread Cert.KernelIdeal.nD Cert.KernelIdeal.τ).loc Cert.KernelIdeal.main_arg1)
    let bs := m ((c.tc : Thread Cert.KernelIdeal.nD Cert.KernelIdeal.τ).loc Cert.KernelIdeal.main_arg2)
    let p := m ((c.tc : Thread Cert.KernelIdeal.nD Cert.KernelIdeal.τ).loc Cert.KernelIdeal.main_arg3)
    let q := m ((c.tc : Thread Cert.KernelIdeal.nD Cert.KernelIdeal.τ).loc Cert.KernelIdeal.main_arg4)
    Cert.Pre_finite_inputs.fn (F := Ideal) x wt bs p q ix0 = 1#1 :=
  congrFun (h c) ix0

/-- Every element of the first argument is a real. -/
theorem x_real (h : Cert.Pre_KernelIdeal m) (c : Dev Cert.KernelIdeal.nD) (i : Cert.KernelIdeal.S32x256x64x64.Idx) :
    ∃ r : ℝ, m ((c.tc : Thread Cert.KernelIdeal.nD Cert.KernelIdeal.τ).loc Cert.KernelIdeal.main_arg0) i = (r : EReal) := by
  have e := pre_split m h c
  dsimp only [Cert.Pre_finite_inputs.fn, Cert.Pre_finite_inputs.fn_part1] at e
  simp only [andi, IntOp.andi_eq_one] at e
  obtain ⟨⟨⟨⟨h0, -⟩, -⟩, -⟩, -⟩ := e
  exact real_of_cmp _ _ i (Host.reduce_andi_all _ _ _ _ _ h0 i)

/-- Every element of the second argument (the scale) is a real. -/
theorem weight_real (h : Cert.Pre_KernelIdeal m) (c : Dev Cert.KernelIdeal.nD) (i : Cert.KernelIdeal.S256.Idx) :
    ∃ r : ℝ, m ((c.tc : Thread Cert.KernelIdeal.nD Cert.KernelIdeal.τ).loc Cert.KernelIdeal.main_arg1) i = (r : EReal) := by
  have e := pre_split m h c
  dsimp only [Cert.Pre_finite_inputs.fn, Cert.Pre_finite_inputs.fn_part1] at e
  simp only [andi, IntOp.andi_eq_one] at e
  obtain ⟨⟨⟨⟨-, h1⟩, -⟩, -⟩, -⟩ := e
  exact real_of_cmp _ _ i (Host.reduce_andi_all _ _ _ _ _ h1 i)

/-- Every element of the third argument (the shift) is a real. -/
theorem bias_real (h : Cert.Pre_KernelIdeal m) (c : Dev Cert.KernelIdeal.nD) (i : Cert.KernelIdeal.S256.Idx) :
    ∃ r : ℝ, m ((c.tc : Thread Cert.KernelIdeal.nD Cert.KernelIdeal.τ).loc Cert.KernelIdeal.main_arg2) i = (r : EReal) := by
  have e := pre_split m h c
  dsimp only [Cert.Pre_finite_inputs.fn, Cert.Pre_finite_inputs.fn_part1] at e
  simp only [andi, IntOp.andi_eq_one] at e
  obtain ⟨⟨⟨-, h2⟩, -⟩, -⟩ := e
  exact real_of_cmp _ _ i (Host.reduce_andi_all _ _ _ _ _ h2 i)

/-- Every element of the fourth argument (the mean weights) is a real. -/
theorem meanw_real (h : Cert.Pre_KernelIdeal m) (c : Dev Cert.KernelIdeal.nD) (i : Cert.KernelIdeal.S3.Idx) :
    ∃ r : ℝ, m ((c.tc : Thread Cert.KernelIdeal.nD Cert.KernelIdeal.τ).loc Cert.KernelIdeal.main_arg3) i = (r : EReal) := by
  have e := pre_split m h c
  dsimp only [Cert.Pre_finite_inputs.fn, Cert.Pre_finite_inputs.fn_part1] at e
  simp only [andi, IntOp.andi_eq_one] at e
  obtain ⟨⟨-, h3⟩, -⟩ := e
  exact real_of_cmp _ _ i (Host.reduce_andi_all _ _ _ _ _ h3 i)

/-- Every element of the fifth argument (the variance weights) is a real. -/
theorem varw_real (h : Cert.Pre_KernelIdeal m) (c : Dev Cert.KernelIdeal.nD) (i : Cert.KernelIdeal.S3.Idx) :
    ∃ r : ℝ, m ((c.tc : Thread Cert.KernelIdeal.nD Cert.KernelIdeal.τ).loc Cert.KernelIdeal.main_arg4) i = (r : EReal) := by
  have e := pre_split m h c
  dsimp only [Cert.Pre_finite_inputs.fn, Cert.Pre_finite_inputs.fn_part1] at e
  simp only [andi, IntOp.andi_eq_one] at e
  obtain ⟨-, h4⟩ := e
  exact real_of_cmp _ _ i (Host.reduce_andi_all _ _ _ _ _ h4 i)

end Pre

end Cert.FiniteInputs

end
-- ==== Proof.KernelHostRead.lean ====
/-
  The blended mean and variance the host computes between the two kernels, READ AT ONE ELEMENT at the
  ideal values: per image `n` and channel `c`, explicit formulas of the first kernel's sums at `(n, c)`,
  of their sums over the images and over the channels, of the divisions by the three counts, and of
  the three mixing weights.
-/
import proofs.«175668_j16295105921565_2_alg».proof.Proof.KernelHost
import Idealize.ShloMosaic.Lib.Pipeline.Value
import Idealize.ShloMosaic.Lib.IdealHost

noncomputable section

namespace Cert.KernelIdeal.HostMid

open Idealize.ShloMosaic Idealize.ShloMosaic.ValueIdx Idealize.SL.Sem Cert.KernelIdeal Cert.KernelIdeal.Gen
open scoped BigOperators

/-! ### Shape operations at an index (any element type) -/

section Layout
variable {α : Type}

/-- A 32 × 256 × 1 × 1 array as a 32 × 256 one, at `(n, c)`: the array at `(n, c, 0, 0)`. -/
theorem flat_read (s : S32x256x1x1.Idx → α) (n : Fin 32) (c : Fin 256) :
    shapeCast S32x256 s shapeCasts_S32x256x1x1_S32x256 (ix2 n c) = s (ix4 n c 0 0) := by
  refine shapeCast_apply s _ (ix2 n c) (ix4 n c 0 0) ?_
  rw [Shape.rowMajor_val_four, Shape.rowMajor_val_two]
  show ((n.val * 256 + c.val) * 1 + 0) * 1 + 0 = n.val * 256 + c.val
  omega

/-- A 32 × 256 array spread to 32 × 256 × 1 × 1, at `(n, c, 0, 0)`: the array at `(n, c)`. -/
theorem cols_read (x : S32x256.Idx → α) (n : Fin 32) (c : Fin 256) :
    broadcastInDim S32x256x1x1 ![0, 1] bcast_S32x256_S32x256x1x1_0_1 x (ix4 n c 0 0) = x (ix2 n c) :=
  broadcastInDim_apply _ _ x (ix4 n c 0 0) (ix2 n c) fun a => match a with | ⟨0, _⟩ => rfl | ⟨1, _⟩ => rfl

/-- A 1 × 256 array spread over the 32 rows, at `(n, c)`: the array at `(0, c)`. -/
theorem rows_read (x : S1x256.Idx → α) (n : Fin 32) (c : Fin 256) :
    broadcastInDim S32x256 ![0, 1] bcast_S1x256_S32x256_0_1 x (ix2 n c) = x (ix2 (0 : Fin 1) c) :=
  broadcastInDim_apply _ _ x (ix2 n c) (ix2 (0 : Fin 1) c) fun a => match a with | ⟨0, _⟩ => rfl | ⟨1, _⟩ => rfl

/-- A 32 × 1 array spread over the 256 columns, at `(n, c)`: the array at `(n, 0)`. -/
theorem colsOf_read (x : S32x1.Idx → α) (n : Fin 32) (c : Fin 256) :
    broadcastInDim S32x256 ![0, 1] bcast_S32x1_S32x256_0_1 x (ix2 n c) = x (ix2 n (0 : Fin 1)) :=
  broadcastInDim_apply _ _ x (ix2 n c) (ix2 n (0 : Fin 1)) fun a => match a with | ⟨0, _⟩ => rfl | ⟨1, _⟩ => rfl

/-- A 256-vector as a 1 × 256 array, at `(0, c)`: the vector at `c`. -/
theorem chanRow_read (x : S256.Idx → α) (c : Fin 256) :
    broadcastInDim S1x256 ![1] bcast_S256_S1x256_1 x (ix2 (0 : Fin 1) c) = x (ix1 c) :=
  broadcastInDim_apply _ _ x (ix2 (0 : Fin 1) c) (ix1 c) fun a => match a with | ⟨0, _⟩ => rfl

/-- A 32-vector as a 32 × 1 array, at `(n, 0)`: the vector at `n`. -/
theorem imgCol_read (x : S32.Idx → α) (n : Fin 32) :
    broadcastInDim S32x1 ![0] bcast_S32_S32x1_0 x (ix2 n (0 : Fin 1)) = x (ix1 n) :=
  broadcastInDim_apply _ _ x (ix2 n (0 : Fin 1)) (ix1 n) fun a => match a with | ⟨0, _⟩ => rfl

/-- A 256-vector as a 1 × 256 × 1 × 1 array, at `(0, c, 0, 0)`: the vector at `c`. -/
theorem chan_read (g : S256.Idx → α) (c : Fin 256) :
    shapeCast S1x256x1x1 g shapeCasts_S256_S1x256x1x1 (ix4 (0 : Fin 1) c (0 : Fin 1) (0 : Fin 1)) = g (ix1 c) := by
  refine shapeCast_apply g _ (ix4 (0 : Fin 1) c (0 : Fin 1) (0 : Fin 1)) (ix1 c) ?_
  rw [Shape.rowMajor_val_four, Shape.rowMajor_val_one]
  show c.val = ((0 * 256 + c.val) * 1 + 0) * 1 + 0
  omega

/-- Element `k` of a three-element vector taken as a scalar (slice, then drop the axis): the vector at `k`. -/
theorem slice0_read (w : S3.Idx → α) :
    shapeCast S_ (extractStridedSlice S1 ![0] w slices_S3_S1_0) shapeCasts_S1_S_ ix0 = w (ix1 0) := by
  refine (shapeCast_apply _ _ ix0 (ix1 (0 : Fin 1)) ?_).trans ?_
  · rw [Shape.rowMajor_val_one]; rfl
  · exact extractStridedSlice_apply _ w _ _ (ix1 0) fun a => match a with | ⟨0, _⟩ => rfl
theorem slice1_read (w : S3.Idx → α) :
    shapeCast S_ (extractStridedSlice S1 ![1] w slices_S3_S1_1) shapeCasts_S1_S_ ix0 = w (ix1 1) := by
  refine (shapeCast_apply _ _ ix0 (ix1 (0 : Fin 1)) ?_).trans ?_
  · rw [Shape.rowMajor_val_one]; rfl
  · exact extractStridedSlice_apply _ w _ _ (ix1 1) fun a => match a with | ⟨0, _⟩ => rfl
theorem slice2_read (w : S3.Idx → α) :
    shapeCast S_ (extractStridedSlice S1 ![2] w slices_S3_S1_2) shapeCasts_S1_S_ ix0 = w (ix1 2) := by
  refine (shapeCast_apply _ _ ix0 (ix1 (0 : Fin 1)) ?_).trans ?_
  · rw [Shape.rowMajor_val_one]; rfl
  · exact extractStridedSlice_apply _ w _ _ (ix1 2) fun a => match a with | ⟨0, _⟩ => rfl

end Layout

/-! ### The host's operations at an index, at the ideal values -/

open Cert.MixWeights (dsoftmax)

/-- A scalar constant repeated over a shape reads, everywhere, the extended real its pattern denotes. -/
theorem splat_apply (t : Shape) (h : S_.BroadcastsInDim t (![] : Fin 0 → Fin t.rank)) (b : BitVec 32) (j : t.Idx) :
    splat (F := Ideal) t h b j = Ideal.ofBits .f32 b := by
  unfold splat
  rw [broadcastInDim_scalar_apply]
  rfl

/-- The sums as a 32 × 256 array, at `(n, c)`: the sums at `(n, c, 0, 0)`. -/
theorem flat_apply (s : FVec Ideal S32x256x1x1 .f32) (n : Fin 32) (c : Fin 256) :
    flat s (ix2 n c) = s (ix4 n c 0 0) := flat_read s n c

/-- The host's sum over the 32 images of a 32 × 256 array, from the zero pattern, at channel `c`:
    the zero pattern's value plus the sum over `k` of the array at `(k, c)`. -/
theorem sumImages_apply (x : FVec Ideal S32x256 .f32) (c : Fin 256) :
    Host.reduceAdd x (constant S_ .f32 0x00000000#32) reducesTo_S32x256_S256_d0 h_S_ (ix1 c)
      = Ideal.ofBits .f32 0x00000000#32 + ∑ k : Fin 32, x (ix2 k c) := by
  have hr : S32x256.Reduces [0] S256 := by decide
  rw [hostReduceAdd_apply, Ideal.hostReduceAdd_single reducesTo_S32x256_S256_d0 hr]
  refine congrArg₂ (· + ·) rfl ?_
  exact Finset.sum_congr rfl fun k _ =>
    congrArg x (funext fun a => match a with | ⟨0, _⟩ => Fin.ext rfl | ⟨1, _⟩ => Fin.ext rfl)

/-- The host's sum over the 256 channels of a 32 × 256 array, from the zero pattern, at image `n`:
    the zero pattern's value plus the sum over `k` of the array at `(n, k)`. -/
theorem sumChannels_apply (x : FVec Ideal S32x256 .f32) (n : Fin 32) :
    Host.reduceAdd x (constant S_ .f32 0x00000000#32) reducesTo_S32x256_S32_d1 h_S_ (ix1 n)
      = Ideal.ofBits .f32 0x00000000#32 + ∑ k : Fin 256, x (ix2 n k) := by
  have hr : S32x256.Reduces [1] S32 := by decide
  rw [hostReduceAdd_apply, Ideal.hostReduceAdd_single reducesTo_S32x256_S32_d1 hr]
  refine congrArg₂ (· + ·) rfl ?_
  exact Finset.sum_congr rfl fun k _ =>
    congrArg x (funext fun a => match a with | ⟨0, _⟩ => Fin.ext rfl | ⟨1, _⟩ => Fin.ext rfl)

variable (s s1 s2 : FVec Ideal S32x256x1x1 .f32) (w : FVec Ideal S3 .f32) (n : Fin 32) (c : Fin 256)

/-- Per image and channel: the sum at `(n, c)` over the pattern of 4096. -/
theorem perIn_apply : perIn s (ix2 n c) = Ideal.div (s (ix4 n c 0 0)) (Ideal.ofBits .f32 0x45800000#32) := by
  unfold perIn
  rw [hostDivf_apply, flat_apply, splat_apply]

/-- Per channel: the zero pattern plus the sums over the images, over the pattern of 131072. -/
theorem perBn_apply :
    perBn s (ix1 c) = Ideal.div (Ideal.ofBits .f32 0x00000000#32 + ∑ k : Fin 32, s (ix4 k c 0 0))
      (Ideal.ofBits .f32 0x48000000#32) := by
  unfold perBn
  rw [hostDivf_apply, sumImages_apply, splat_apply]
  simp only [flat_apply]

/-- Per image: the zero pattern plus the sums over the channels, over the pattern of 1048576. -/
theorem perLn_apply :
    perLn s (ix1 n) = Ideal.div (Ideal.ofBits .f32 0x00000000#32 + ∑ k : Fin 256, s (ix4 n k 0 0))
      (Ideal.ofBits .f32 0x49800000#32) := by
  unfold perLn
  rw [hostDivf_apply, sumChannels_apply, splat_apply]
  simp only [flat_apply]

/-- The instance-wise variance at `(n, c)`. -/
theorem varIn_apply :
    varIn s1 s2 (ix2 n c) = max (perIn s2 (ix2 n c) - perIn s1 (ix2 n c) * perIn s1 (ix2 n c))
      (Ideal.ofBits .f32 0x00000000#32) := by
  unfold varIn
  rw [maximumf_apply, subf_apply, mulf_apply, splat_apply]

/-- The batch-wise variance at channel `c`. -/
theorem varBn_apply :
    varBn s1 s2 (ix1 c) = max (perBn s2 (ix1 c) - perBn s1 (ix1 c) * perBn s1 (ix1 c))
      (Ideal.ofBits .f32 0x00000000#32) := by
  unfold varBn
  rw [maximumf_apply, subf_apply, mulf_apply, splat_apply]

/-- The layer-wise variance at image `n`. -/
theorem varLn_apply :
    varLn s1 s2 (ix1 n) = max (perLn s2 (ix1 n) - perLn s1 (ix1 n) * perLn s1 (ix1 n))
      (Ideal.ofBits .f32 0x00000000#32) := by
  unfold varLn
  rw [maximumf_apply, subf_apply, mulf_apply, splat_apply]

/-- The three picks of a weight vector are its three elements. -/
theorem pick0_apply : pick0 w ix0 = w (ix1 0) := slice0_read w
theorem pick1_apply : pick1 w ix0 = w (ix1 1) := slice1_read w
theorem pick2_apply : pick2 w ix0 = w (ix1 2) := slice2_read w

/-- The blend at `(n, c)`: the per-channel statistic at `c` times weight 0, plus the per-image-per-channel one
    at `(n, c)` times weight 1, plus the per-image one at `n` times weight 2. -/
theorem blend_apply (bn : FVec Ideal S256 .f32) (inn : FVec Ideal S32x256 .f32) (ln : FVec Ideal S32 .f32) :
    blend bn inn ln w (ix2 n c) = bn (ix1 c) * w (ix1 0) + inn (ix2 n c) * w (ix1 1) + ln (ix1 n) * w (ix1 2) := by
  unfold blend
  rw [addf_apply, addf_apply, rows_read, colsOf_read]
  rw [mulf_apply, mulf_apply, mulf_apply, chanRow_read, imgCol_read]
  rw [broadcastInDim_scalar_apply, broadcastInDim_scalar_apply, broadcastInDim_scalar_apply]
  rw [pick0_apply, pick1_apply, pick2_apply]

/-- THE BLENDED MEAN the second kernel reads, at `(n, c, 0, 0)`. -/
theorem meanCols_apply (w3 : FVec Ideal S3 .f32) :
    meanCols s1 w3 (ix4 n c 0 0)
      = perBn s1 (ix1 c) * dsoftmax w3 (ix1 0) + perIn s1 (ix2 n c) * dsoftmax w3 (ix1 1)
        + perLn s1 (ix1 n) * dsoftmax w3 (ix1 2) := by
  unfold meanCols cols mean2d meanBn meanIn meanLn
  rw [cols_read, blend_apply]

/-- THE BLENDED VARIANCE PLUS THE CONSTANT the second kernel reads, at `(n, c, 0, 0)`. -/
theorem varCols_apply (w4 : FVec Ideal S3 .f32) :
    varCols s1 s2 w4 (ix4 n c 0 0)
      = varBn s1 s2 (ix1 c) * dsoftmax w4 (ix1 0) + varIn s1 s2 (ix2 n c) * dsoftmax w4 (ix1 1)
        + varLn s1 s2 (ix1 n) * dsoftmax w4 (ix1 2) + Ideal.ofBits .f32 0x3727C5AC#32 := by
  unfold varCols cols var2d
  rw [cols_read, addf_apply, blend_apply, splat_apply]

/-- The scale (or shift) vector as the second kernel reads it, at `(0, c, 0, 0)`: the vector at `c`. -/
theorem chan_apply (g : FVec Ideal S256 .f32) :
    chan g (ix4 (0 : Fin 1) c (0 : Fin 1) (0 : Fin 1)) = g (ix1 c) := chan_read g c

end Cert.KernelIdeal.HostMid

end
-- ==== Proof.LibVariance.lean ====
/-
  General facts about finite sums, means and biased variances on the extended reals,
  for families whose every element is a real number. No program is mentioned here.
-/
import Idealize.ShloMosaic.PureOps.Ideal
import Mathlib.Algebra.BigOperators.Field
import Mathlib.Algebra.BigOperators.Fin
import Mathlib.Tactic.FieldSimp
import Mathlib.Tactic.Ring
import Mathlib.Tactic.Linarith

noncomputable section

namespace Cert.LibVariance

open Idealize.ShloMosaic
open scoped BigOperators

/-! ### Extended reals that are real numbers -/

/-- An extended real is REAL when it is the image of a real number: neither `⊤` nor `⊥`. -/
@[reducible] def IsReal (x : EReal) : Prop := ∃ r : ℝ, x = (r : EReal)

/-- A real number, seen as an extended real, is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- Real means different from both infinities. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | top => exact absurd rfl ht
    | coe r => exact ⟨r, rfl⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is real. -/
theorem IsReal.neg {x : EReal} (hx : IsReal x) : IsReal (-x) := by
  obtain ⟨a, rfl⟩ := hx; exact ⟨-a, (EReal.coe_neg a).symm⟩

/-- The coercion of reals into the extended reals commutes with `max`. -/
theorem coe_max (a b : ℝ) : ((max a b : ℝ) : EReal) = max (a : EReal) (b : EReal) :=
  EReal.coe_strictMono.monotone.map_max

/-- The coercion of reals into the extended reals commutes with `min`. -/
theorem coe_min (a b : ℝ) : ((min a b : ℝ) : EReal) = min (a : EReal) (b : EReal) :=
  EReal.coe_strictMono.monotone.map_min

/-- The maximum of two reals is real. -/
theorem IsReal.max {x y : EReal} (hx : IsReal x) (hy : IsReal y) : IsReal (max x y) := by
  obtain ⟨a, rfl⟩ := hx; obtain ⟨b, rfl⟩ := hy; exact ⟨Max.max a b, (coe_max a b).symm⟩

/-- The minimum of two reals is real. -/
theorem IsReal.min {x y : EReal} (hx : IsReal x) (hy : IsReal y) : IsReal (min x y) := by
  obtain ⟨a, rfl⟩ := hx; obtain ⟨b, rfl⟩ := hy; exact ⟨Min.min a b, (coe_min a b).symm⟩

/-- The quotient of a real `a` by a nonzero real `d`, taken on the extended reals, is the real `a / d`. -/
theorem div_coe_coe (a : ℝ) {d : ℝ} (hd : d ≠ 0) : Ideal.div (a : EReal) (d : EReal) = ((a / d : ℝ) : EReal) := by
  rw [Ideal.div_coe hd, ← EReal.coe_mul, mul_one_div]

/-- The quotient of a real by a nonzero real is real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- The coercion of reals into the extended reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (hf : ∀ i ∈ s, IsReal (f i)) :
    IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- A family of reals is the coercion of a family of real numbers. -/
theorem exists_real_family {ι : Type*} (f : ι → EReal) (hf : ∀ i, ∃ r : ℝ, f i = (r : EReal)) :
    ∃ g : ι → ℝ, f = fun i => (g i : EReal) :=
  ⟨fun i => Classical.choose (hf i), funext fun i => Classical.choose_spec (hf i)⟩

/-! ### The biased variance, two ways, on the reals -/

/-- On the reals: over a finite set `s` of `D` elements, the mean of the squared deviations from the
    mean equals the mean of the squares minus the square of the mean. -/
theorem real_var_two_pass {ι : Type*} (s : Finset ι) (g : ι → ℝ) (D : ℝ) (hD : D = s.card) (hpos : 0 < D) :
    (∑ i ∈ s, (g i - (∑ j ∈ s, g j) / D) * (g i - (∑ j ∈ s, g j) / D)) / D
      = (∑ i ∈ s, g i * g i) / D - (∑ j ∈ s, g j) / D * ((∑ j ∈ s, g j) / D) := by
  have hne : D ≠ 0 := hpos.ne'
  generalize hS : ∑ j ∈ s, g j = S
  have h1 : ∑ i ∈ s, (g i - S / D) * (g i - S / D)
      = ∑ i ∈ s, g i * g i - 2 * (S / D) * S + D * (S / D * (S / D)) := by
    have h2 : ∀ i, (g i - S / D) * (g i - S / D) = g i * g i - 2 * (S / D) * g i + S / D * (S / D) :=
      fun i => by ring
    simp only [h2]
    rw [Finset.sum_add_distrib, Finset.sum_sub_distrib, ← Finset.mul_sum, Finset.sum_const, nsmul_eq_mul,
      ← hD, hS]
  rw [h1]
  field_simp
  ring

/-- On the reals: the mean of the squared deviations is nonnegative. -/
theorem real_var_nonneg {ι : Type*} (s : Finset ι) (g : ι → ℝ) (m D : ℝ) (hpos : 0 < D) :
    0 ≤ (∑ i ∈ s, (g i - m) * (g i - m)) / D :=
  div_nonneg (Finset.sum_nonneg fun i _ => mul_self_nonneg _) hpos.le

/-! ### The biased variance, two ways, on the extended reals -/

/-- The mean of a finite family of reals over a positive real count is a real: the real mean. -/
theorem mean_coe {ι : Type*} (s : Finset ι) (g : ι → ℝ) {D : ℝ} (hne : D ≠ 0) :
    Ideal.div (∑ j ∈ s, (g j : EReal)) (D : EReal) = (((∑ j ∈ s, g j) / D : ℝ) : EReal) := by
  rw [← coe_sum, div_coe_coe _ hne]

/-- For a family of real numbers `g` over a finite set `s` of `D` elements, computed on the extended
    reals: the sum of the squared deviations from the mean, divided by `D`, equals the mean of the
    squares minus the square of the mean, and the latter's maximum with `0` changes nothing, a mean of
    squares of reals being nonnegative. -/
theorem var_two_pass_coe {ι : Type*} (s : Finset ι) (g : ι → ℝ) (D : ℝ) (hD : D = s.card) (hpos : 0 < D) :
    Ideal.div (∑ i ∈ s, ((g i : EReal) - Ideal.div (∑ j ∈ s, (g j : EReal)) (D : EReal))
        * ((g i : EReal) - Ideal.div (∑ j ∈ s, (g j : EReal)) (D : EReal))) (D : EReal)
      = max (Ideal.div (∑ i ∈ s, (g i : EReal) * (g i : EReal)) (D : EReal)
          - Ideal.div (∑ j ∈ s, (g j : EReal)) (D : EReal) * Ideal.div (∑ j ∈ s, (g j : EReal)) (D : EReal)) 0 := by
  have hne : D ≠ 0 := hpos.ne'
  have hsq : ∑ i ∈ s, (g i : EReal) * (g i : EReal) = ((∑ i ∈ s, g i * g i : ℝ) : EReal) := by
    rw [coe_sum]; exact Finset.sum_congr rfl fun i _ => (EReal.coe_mul _ _).symm
  have hdev : ∑ i ∈ s, ((g i : EReal) - (((∑ j ∈ s, g j) / D : ℝ) : EReal))
        * ((g i : EReal) - (((∑ j ∈ s, g j) / D : ℝ) : EReal))
      = ((∑ i ∈ s, (g i - (∑ j ∈ s, g j) / D) * (g i - (∑ j ∈ s, g j) / D) : ℝ) : EReal) := by
    rw [coe_sum]; exact Finset.sum_congr rfl fun i _ => by rw [EReal.coe_mul, EReal.coe_sub]
  have hreal := real_var_two_pass s g D hD hpos
  have hnn := real_var_nonneg s g ((∑ j ∈ s, g j) / D) D hpos
  rw [mean_coe s g hne, hsq, hdev, div_coe_coe _ hne, div_coe_coe _ hne, ← EReal.coe_mul, ← EReal.coe_sub,
    ← EReal.coe_zero, ← coe_max, ← hreal, max_eq_left hnn]

/-- A family that is real at every element of `s` agrees on `s` with the coercion of a real family. -/
theorem exists_real_family_on {ι : Type*} (s : Finset ι) (f : ι → EReal)
    (hf : ∀ i ∈ s, ∃ r : ℝ, f i = (r : EReal)) : ∃ g : ι → ℝ, ∀ i ∈ s, f i = (g i : EReal) :=
  ⟨fun i => (f i).toReal, fun i hi => by
    obtain ⟨r, hr⟩ := hf i hi
    show f i = ((f i).toReal : EReal)
    rw [hr, EReal.toReal_coe]⟩

/-- THE TWO-PASS AND ONE-PASS BIASED VARIANCES AGREE, over a finite set. For `f` real at every element of
    a finite set `s` of `D` elements (`D` a positive real), on the extended reals:
    `(∑ (f i - μ)·(f i - μ)) / D = max ((∑ f i · f i) / D - μ · μ) 0` with `μ = (∑ f j) / D`. -/
theorem var_two_pass_finset {ι : Type*} (s : Finset ι) (f : ι → EReal)
    (hf : ∀ i ∈ s, ∃ r : ℝ, f i = (r : EReal)) (D : ℝ) (hD : D = s.card) (hpos : 0 < D) :
    Ideal.div (∑ i ∈ s, (f i - Ideal.div (∑ j ∈ s, f j) (D : EReal)) * (f i - Ideal.div (∑ j ∈ s, f j) (D : EReal)))
        (D : EReal)
      = max (Ideal.div (∑ i ∈ s, f i * f i) (D : EReal)
          - Ideal.div (∑ j ∈ s, f j) (D : EReal) * Ideal.div (∑ j ∈ s, f j) (D : EReal)) 0 := by
  obtain ⟨g, hg⟩ := exists_real_family_on s f hf
  have e1 : ∑ j ∈ s, f j = ∑ j ∈ s, (g j : EReal) := Finset.sum_congr rfl hg
  have e2 : ∑ i ∈ s, f i * f i = ∑ i ∈ s, (g i : EReal) * (g i : EReal) :=
    Finset.sum_congr rfl fun i hi => by rw [hg i hi]
  have e3 : ∀ m : EReal, ∑ i ∈ s, (f i - m) * (f i - m) = ∑ i ∈ s, ((g i : EReal) - m) * ((g i : EReal) - m) :=
    fun m => Finset.sum_congr rfl fun i hi => by rw [hg i hi]
  rw [e1, e2, e3]
  exact var_two_pass_coe s g D hD hpos

/-- THE TWO-PASS AND ONE-PASS BIASED VARIANCES AGREE, over a finite type. For `f : ι → EReal` real at
    every index and `D` the (positive) number of indices as a real, on the extended reals:
    `(∑ (f i - μ)·(f i - μ)) / D = max ((∑ f i · f i) / D - μ · μ) 0` with `μ = (∑ f j) / D`. -/
theorem var_two_pass {ι : Type*} [Fintype ι] (f : ι → EReal) (hf : ∀ i, ∃ r : ℝ, f i = (r : EReal))
    (D : ℝ) (hD : D = Fintype.card ι) (hpos : 0 < D) :
    Ideal.div (∑ i, (f i - Ideal.div (∑ j, f j) (D : EReal)) * (f i - Ideal.div (∑ j, f j) (D : EReal))) (D : EReal)
      = max (Ideal.div (∑ i, f i * f i) (D : EReal)
          - Ideal.div (∑ j, f j) (D : EReal) * Ideal.div (∑ j, f j) (D : EReal)) 0 :=
  var_two_pass_finset Finset.univ f (fun i _ => hf i) D (by rw [hD, Finset.card_univ]) hpos

/-- The same with every sum carrying a zero initial value in front, as a reduction that starts from
    an initial value reads: `0 + ∑ …`. -/
theorem var_two_pass_init {ι : Type*} [Fintype ι] (f : ι → EReal) (hf : ∀ i, ∃ r : ℝ, f i = (r : EReal))
    (D : ℝ) (hD : D = Fintype.card ι) (hpos : 0 < D) :
    Ideal.div (0 + ∑ i, (f i - Ideal.div (0 + ∑ j, f j) (D : EReal)) * (f i - Ideal.div (0 + ∑ j, f j) (D : EReal)))
        (D : EReal)
      = max (Ideal.div (0 + ∑ i, f i * f i) (D : EReal)
          - Ideal.div (0 + ∑ j, f j) (D : EReal) * Ideal.div (0 + ∑ j, f j) (D : EReal)) 0 := by
  simp only [zero_add]
  exact var_two_pass f hf D hD hpos

/-! ### The mean and the two variances are real -/

/-- The mean of a family of reals over a nonzero real count is real. -/
theorem mean_real_finset {ι : Type*} (s : Finset ι) (f : ι → EReal) (hf : ∀ i ∈ s, ∃ r : ℝ, f i = (r : EReal))
    {D : ℝ} (hne : D ≠ 0) : ∃ r : ℝ, Ideal.div (∑ i ∈ s, f i) (D : EReal) = (r : EReal) :=
  (isReal_sum s f hf).div (isReal_coe D) (fun h => hne (by exact_mod_cast h))

/-- The mean of a family of reals over a finite type, divided by a nonzero real, is real. -/
theorem mean_real {ι : Type*} [Fintype ι] (f : ι → EReal) (hf : ∀ i, ∃ r : ℝ, f i = (r : EReal))
    {D : ℝ} (hne : D ≠ 0) : ∃ r : ℝ, Ideal.div (∑ i, f i) (D : EReal) = (r : EReal) :=
  mean_real_finset Finset.univ f (fun i _ => hf i) hne

/-- The two-pass variance of a family of reals — the sum of the squared deviations from the mean over
    a nonzero real count — is real. -/
theorem var_dev_real {ι : Type*} [Fintype ι] (f : ι → EReal) (hf : ∀ i, ∃ r : ℝ, f i = (r : EReal))
    {D : ℝ} (hne : D ≠ 0) :
    ∃ r : ℝ, Ideal.div (∑ i, (f i - Ideal.div (∑ j, f j) (D : EReal)) * (f i - Ideal.div (∑ j, f j) (D : EReal)))
      (D : EReal) = (r : EReal) := by
  have hm : IsReal (Ideal.div (∑ j, f j) (D : EReal)) := mean_real f hf hne
  exact (isReal_sum Finset.univ _ fun i _ => IsReal.mul (IsReal.sub (hf i) hm) (IsReal.sub (hf i) hm)).div
    (isReal_coe D) (fun h => hne (by exact_mod_cast h))

/-- The one-pass variance of a family of reals — the mean of the squares minus the square of the
    mean, bounded below by zero — is real. -/
theorem var_sq_real {ι : Type*} [Fintype ι] (f : ι → EReal) (hf : ∀ i, ∃ r : ℝ, f i = (r : EReal))
    {D : ℝ} (hne : D ≠ 0) :
    ∃ r : ℝ, max (Ideal.div (∑ i, f i * f i) (D : EReal)
      - Ideal.div (∑ j, f j) (D : EReal) * Ideal.div (∑ j, f j) (D : EReal)) 0 = (r : EReal) := by
  have hm : IsReal (Ideal.div (∑ j, f j) (D : EReal)) := mean_real f hf hne
  have hq : IsReal (Ideal.div (∑ i, f i * f i) (D : EReal)) :=
    (isReal_sum Finset.univ _ fun i _ => IsReal.mul (hf i) (hf i)).div (isReal_coe D)
      (fun h => hne (by exact_mod_cast h))
  exact (hq.sub (hm.mul hm)).max isReal_zero

/-- The two-pass variance of a family of reals over a positive count is nonnegative. -/
theorem var_dev_nonneg {ι : Type*} [Fintype ι] (f : ι → EReal) (hf : ∀ i, ∃ r : ℝ, f i = (r : EReal))
    (D : ℝ) (hD : D = Fintype.card ι) (hpos : 0 < D) :
    0 ≤ Ideal.div (∑ i, (f i - Ideal.div (∑ j, f j) (D : EReal)) * (f i - Ideal.div (∑ j, f j) (D : EReal)))
      (D : EReal) := by
  rw [var_two_pass f hf D hD hpos]; exact le_max_right _ _

/-! ### Regrouping finite sums (in any commutative additive monoid, the extended reals among them) -/

/-- A sum over `a · b` consecutive indices is the sum over `a` blocks of the sums over the `b` indices
    of each block: index `b · k + r` is element `r` of block `k`. -/
theorem sum_fin_blocks {M : Type*} [AddCommMonoid M] (a b : ℕ) (g : Fin (a * b) → M) :
    ∑ h : Fin (a * b), g h
      = ∑ k : Fin a, ∑ r : Fin b, g ⟨b * k.val + r.val, by
          have hk := k.isLt; have hr := r.isLt
          calc b * k.val + r.val < b * k.val + b := by omega
            _ = b * (k.val + 1) := by ring
            _ ≤ b * a := Nat.mul_le_mul_left b hk
            _ = a * b := Nat.mul_comm b a⟩ := by
  rw [← Fintype.sum_prod_type' (f := fun (k : Fin a) (r : Fin b) => g ⟨b * k.val + r.val, _⟩)]
  symm
  refine Fintype.sum_equiv (finProdFinEquiv (m := a) (n := b)) _ _ fun p => ?_
  congr 1
  exact Fin.ext (by simp [finProdFinEquiv]; omega)

/-- A sum over 64 rows is the sum over 8 blocks of the sums over the 8 rows of each block:
    row `8 · k + r` is row `r` of block `k`. -/
theorem sum_fin64_blocks {M : Type*} [AddCommMonoid M] (g : Fin 64 → M) :
    ∑ h : Fin 64, g h = ∑ k : Fin 8, ∑ r : Fin 8, g ⟨8 * k.val + r.val, by omega⟩ :=
  sum_fin_blocks 8 8 g

/-- Nested sums over two finite types are one sum over the pairs. -/
theorem sum_prod2 {α β M : Type*} [Fintype α] [Fintype β] [AddCommMonoid M] (F : α → β → M) :
    ∑ a, ∑ b, F a b = ∑ p : α × β, F p.1 p.2 :=
  (Fintype.sum_prod_type' F).symm

/-- Nested sums over three finite types are one sum over the triples. -/
theorem sum_prod3 {α β γ M : Type*} [Fintype α] [Fintype β] [Fintype γ] [AddCommMonoid M] (F : α → β → γ → M) :
    ∑ a, ∑ b, ∑ c, F a b c = ∑ p : α × β × γ, F p.1 p.2.1 p.2.2 := by
  rw [Fintype.sum_prod_type]
  exact Finset.sum_congr rfl fun a _ => (Fintype.sum_prod_type' (F a)).symm

/-- The two outer sums of three nested sums may be exchanged. -/
theorem sum_comm12 {α β γ M : Type*} [Fintype α] [Fintype β] [Fintype γ] [AddCommMonoid M] (F : α → β → γ → M) :
    ∑ a, ∑ b, ∑ c, F a b c = ∑ b, ∑ a, ∑ c, F a b c :=
  Finset.sum_comm

/-- The two inner sums of three nested sums may be exchanged. -/
theorem sum_comm23 {α β γ M : Type*} [Fintype α] [Fintype β] [Fintype γ] [AddCommMonoid M] (F : α → β → γ → M) :
    ∑ a, ∑ b, ∑ c, F a b c = ∑ a, ∑ c, ∑ b, F a b c :=
  Finset.sum_congr rfl fun _ _ => Finset.sum_comm

/-- For a four-dimensional array `x n c h w` of 32 × 256 × 64 × 64 elements: the sum over one image's
    one channel, over rows then columns, is the sum over the 4096 positions `(h, w)`. -/
theorem sum_hw {M : Type*} [AddCommMonoid M] (F : Fin 64 → Fin 64 → M) :
    ∑ h, ∑ w, F h w = ∑ p : Fin 64 × Fin 64, F p.1 p.2 := sum_prod2 F

/-- … the sum over images, rows and columns of one channel is the sum over the 131072 triples `(n, h, w)`. -/
theorem sum_nhw {M : Type*} [AddCommMonoid M] (F : Fin 32 → Fin 64 → Fin 64 → M) :
    ∑ n, ∑ h, ∑ w, F n h w = ∑ p : Fin 32 × Fin 64 × Fin 64, F p.1 p.2.1 p.2.2 := sum_prod3 F

/-- … and the sum over channels, rows and columns of one image is the sum over the 1048576 triples
    `(c, h, w)`. -/
theorem sum_chw {M : Type*} [AddCommMonoid M] (F : Fin 256 → Fin 64 → Fin 64 → M) :
    ∑ c, ∑ h, ∑ w, F c h w = ∑ p : Fin 256 × Fin 64 × Fin 64, F p.1 p.2.1 p.2.2 := sum_prod3 F

/-- There are 4096 positions `(h, w)`. -/
theorem card_hw : ((4096 : ℝ)) = Fintype.card (Fin 64 × Fin 64) := by
  simp [Fintype.card_prod]

/-- There are 131072 triples `(n, h, w)`. -/
theorem card_nhw : ((131072 : ℝ)) = Fintype.card (Fin 32 × Fin 64 × Fin 64) := by
  simp [Fintype.card_prod]

/-- There are 1048576 triples `(c, h, w)`. -/
theorem card_chw : ((1048576 : ℝ)) = Fintype.card (Fin 256 × Fin 64 × Fin 64) := by
  simp [Fintype.card_prod]

end Cert.LibVariance

end
-- ==== Proof.LibIdealConsts.lean ====
/-
  The float constants of a biased-variance computation over 4096, 131072 and 1048576 elements, as the
  extended reals their bit patterns denote, and the comparisons and selections made on them.
  No program is mentioned here.
-/
import Idealize.ShloMosaic.PureOps.Ideal

noncomputable section

namespace Cert.LibIdealConsts

open Idealize.ShloMosaic

/-! ### Bit patterns -/

/-- The pattern of `+0.0` denotes `0`. -/
theorem ofBits_zero : Ideal.ofBits .f32 0x00000000#32 = 0 := by
  simp [Ideal.ofBits, Ideal.ieee]

/-- The pattern `0x45800000` denotes `4096 = 2^12`. -/
theorem ofBits_4096 : Ideal.ofBits .f32 0x45800000#32 = ((4096 : ℝ) : EReal) := by
  simp [Ideal.ofBits, Ideal.ieee, -EReal.coe_mul]; norm_num

/-- The pattern `0x48000000` denotes `131072 = 2^17`. -/
theorem ofBits_131072 : Ideal.ofBits .f32 0x48000000#32 = ((131072 : ℝ) : EReal) := by
  simp [Ideal.ofBits, Ideal.ieee, -EReal.coe_mul]; norm_num

/-- The pattern `0x49800000` denotes `1048576 = 2^20`. -/
theorem ofBits_1048576 : Ideal.ofBits .f32 0x49800000#32 = ((1048576 : ℝ) : EReal) := by
  simp [Ideal.ofBits, Ideal.ieee, -EReal.coe_mul]; norm_num

/-- The same four, of the `FloatOps` field a program's constant applies. -/
theorem fofBits_zero : (FloatOps.ofBits .f32 0x00000000#32 : Ideal .f32) = 0 := ofBits_zero
theorem fofBits_4096 : (FloatOps.ofBits .f32 0x45800000#32 : Ideal .f32) = ((4096 : ℝ) : EReal) := ofBits_4096
theorem fofBits_131072 : (FloatOps.ofBits .f32 0x48000000#32 : Ideal .f32) = ((131072 : ℝ) : EReal) := ofBits_131072
theorem fofBits_1048576 : (FloatOps.ofBits .f32 0x49800000#32 : Ideal .f32) = ((1048576 : ℝ) : EReal) := ofBits_1048576

/-! ### The integer zero as a float, and subtracting it -/

/-- The 32-bit integer `0`, converted to a float, is `0`. -/
theorem sitofp_zero : (FloatOps.sitofp .f32 (0#32 : BitVec 32) : Ideal .f32) = 0 := by
  show (((0#32 : BitVec 32).toInt : ℝ) : EReal) = 0
  simp

/-- Subtracting zero from an extended real changes nothing. -/
theorem sub_zero' (x : EReal) : x - 0 = x := by simp

/-- `131072 - 0 = 131072`. -/
theorem sub_zero_131072 : ((131072 : ℝ) : EReal) - 0 = ((131072 : ℝ) : EReal) := sub_zero' _
/-- `4096 - 0 = 4096`. -/
theorem sub_zero_4096 : ((4096 : ℝ) : EReal) - 0 = ((4096 : ℝ) : EReal) := sub_zero' _
/-- `1048576 - 0 = 1048576`. -/
theorem sub_zero_1048576 : ((1048576 : ℝ) : EReal) - 0 = ((1048576 : ℝ) : EReal) := sub_zero' _

/-- The count less the integer zero read as a float: `D - float 0 = D`, for each of the three counts, in
    the operations a program applies. -/
theorem subf_sitofp_zero_4096 :
    (FloatOps.subf (FloatOps.ofBits .f32 0x45800000#32) (FloatOps.sitofp .f32 (0#32 : BitVec 32)) : Ideal .f32)
      = ((4096 : ℝ) : EReal) := by
  rw [Ideal.subf_def, sitofp_zero, fofBits_4096, sub_zero']
theorem subf_sitofp_zero_131072 :
    (FloatOps.subf (FloatOps.ofBits .f32 0x48000000#32) (FloatOps.sitofp .f32 (0#32 : BitVec 32)) : Ideal .f32)
      = ((131072 : ℝ) : EReal) := by
  rw [Ideal.subf_def, sitofp_zero, fofBits_131072, sub_zero']
theorem subf_sitofp_zero_1048576 :
    (FloatOps.subf (FloatOps.ofBits .f32 0x49800000#32) (FloatOps.sitofp .f32 (0#32 : BitVec 32)) : Ideal .f32)
      = ((1048576 : ℝ) : EReal) := by
  rw [Ideal.subf_def, sitofp_zero, fofBits_1048576, sub_zero']

/-! ### Comparisons with zero, and the selection they drive -/

/-- A positive real is greater than zero: the ordered comparison `>` answers the true bit. -/
theorem cmp_ogt_zero_of_pos {r : ℝ} (hr : 0 < r) : Ideal.cmp .ogt ((r : ℝ) : EReal) 0 = 1#1 := by
  have h : (0 : EReal) < (r : EReal) := EReal.coe_pos.mpr hr
  simp [Ideal.cmp, h]

/-- The same of the `FloatOps` field, at any format. -/
theorem cmpf_ogt_zero_of_pos {φ : FTy} {r : ℝ} (hr : 0 < r) :
    FloatOps.cmpf (F := Ideal) (φ := φ) .ogt ((r : ℝ) : EReal) 0 = 1#1 :=
  cmp_ogt_zero_of_pos hr

/-- `4096 > 0`. -/
theorem cmpf_ogt_4096 : FloatOps.cmpf (F := Ideal) (φ := .f32) .ogt ((4096 : ℝ) : EReal) 0 = 1#1 :=
  cmp_ogt_zero_of_pos (by norm_num)
/-- `131072 > 0`. -/
theorem cmpf_ogt_131072 : FloatOps.cmpf (F := Ideal) (φ := .f32) .ogt ((131072 : ℝ) : EReal) 0 = 1#1 :=
  cmp_ogt_zero_of_pos (by norm_num)
/-- `1048576 > 0`. -/
theorem cmpf_ogt_1048576 : FloatOps.cmpf (F := Ideal) (φ := .f32) .ogt ((1048576 : ℝ) : EReal) 0 = 1#1 :=
  cmp_ogt_zero_of_pos (by norm_num)

/-- The whole guard as a program spells it: `(D - float 0) > 0.0` is the true bit, for each count. -/
theorem guard_4096 :
    FloatOps.cmpf (F := Ideal) (φ := .f32) .ogt
      (FloatOps.subf (FloatOps.ofBits .f32 0x45800000#32) (FloatOps.sitofp .f32 (0#32 : BitVec 32)))
      (FloatOps.ofBits .f32 0x00000000#32) = 1#1 := by
  rw [subf_sitofp_zero_4096, fofBits_zero]; exact cmpf_ogt_4096
theorem guard_131072 :
    FloatOps.cmpf (F := Ideal) (φ := .f32) .ogt
      (FloatOps.subf (FloatOps.ofBits .f32 0x48000000#32) (FloatOps.sitofp .f32 (0#32 : BitVec 32)))
      (FloatOps.ofBits .f32 0x00000000#32) = 1#1 := by
  rw [subf_sitofp_zero_131072, fofBits_zero]; exact cmpf_ogt_131072
theorem guard_1048576 :
    FloatOps.cmpf (F := Ideal) (φ := .f32) .ogt
      (FloatOps.subf (FloatOps.ofBits .f32 0x49800000#32) (FloatOps.sitofp .f32 (0#32 : BitVec 32)))
      (FloatOps.ofBits .f32 0x00000000#32) = 1#1 := by
  rw [subf_sitofp_zero_1048576, fofBits_zero]; exact cmpf_ogt_1048576

/-- A selection on the true bit takes its first branch. -/
theorem select_true {α : Type} (a b : α) : Scalar.select (1#1) a b = a := by
  simp [Scalar.select]

/-- A selection on the false bit takes its second branch. -/
theorem select_false {α : Type} (a b : α) : Scalar.select (0#1) a b = b := by
  simp [Scalar.select]

end Cert.LibIdealConsts

end
-- ==== Proof.Bridge.lean ====
/-
  The host stretch's blended statistics, computed from the first kernel's per-image-per-channel sums and
  sums of squares, ARE the reference's blended statistics of the input array: the means as they stand
  (sums regrouped, the zero a sum starts from dropped), the variances when every input element is a real
  number (mean of squares less squared mean, bounded below by zero, against the mean of the squared
  deviations).
-/
import proofs.«175668_j16295105921565_2_alg».proof.Proof.KernelHostRead
import proofs.«175668_j16295105921565_2_alg».proof.Proof.StatsArrays
import proofs.«175668_j16295105921565_2_alg».proof.Proof.RefRead
import proofs.«175668_j16295105921565_2_alg».proof.Proof.LibVariance
import proofs.«175668_j16295105921565_2_alg».proof.Proof.LibIdealConsts

noncomputable section

namespace Cert.Bridge

open Idealize.ShloMosaic Idealize.ShloMosaic.ValueIdx
open Cert.KernelIdeal Cert.KernelIdeal.HostMid Cert.KernelIdeal.Stats
open Cert.ReferenceIdeal.RefRead (meanAt varAt μBn μIn μLn σBn σIn σLn nBn nIn nLn)
open Cert.MixWeights (dsoftmax)
open Cert.LibVariance Cert.LibIdealConsts
open scoped BigOperators

/-! ### The two variances over nested sums -/

/-- Over a 64 × 64 grid of reals and the count 4096: mean of squares less squared mean, bounded below by zero,
    is the mean of the squared deviations. -/
theorem var_nested2 (g : Fin 64 → Fin 64 → EReal) (hg : ∀ h w, ∃ r : ℝ, g h w = (r : EReal)) :
    max (Ideal.div (∑ h, ∑ w, g h w * g h w) ((4096 : ℝ) : EReal)
        - Ideal.div (∑ h, ∑ w, g h w) ((4096 : ℝ) : EReal) * Ideal.div (∑ h, ∑ w, g h w) ((4096 : ℝ) : EReal)) 0
      = Ideal.div (∑ h, ∑ w, (g h w - Ideal.div (∑ h, ∑ w, g h w) ((4096 : ℝ) : EReal))
          * (g h w - Ideal.div (∑ h, ∑ w, g h w) ((4096 : ℝ) : EReal))) ((4096 : ℝ) : EReal) := by
  have h := var_two_pass (fun p : Fin 64 × Fin 64 => g p.1 p.2) (fun p => hg p.1 p.2) 4096 card_hw (by norm_num)
  rw [← sum_prod2 (fun h w => g h w * g h w), ← sum_prod2 (fun h w => g h w),
    ← sum_prod2 (fun h w => (g h w - Ideal.div (∑ h, ∑ w, g h w) ((4096 : ℝ) : EReal))
      * (g h w - Ideal.div (∑ h, ∑ w, g h w) ((4096 : ℝ) : EReal)))] at h
  exact h.symm

/-- Over `α × 64 × 64` reals and their count `D`: the same identity with three nested sums. -/
theorem var_nested3 {α : Type} [Fintype α] (g : α → Fin 64 → Fin 64 → EReal)
    (hg : ∀ a h w, ∃ r : ℝ, g a h w = (r : EReal)) (D : ℝ) (hD : D = Fintype.card (α × Fin 64 × Fin 64)) (hpos : 0 < D) :
    max (Ideal.div (∑ a, ∑ h, ∑ w, g a h w * g a h w) (D : EReal)
        - Ideal.div (∑ a, ∑ h, ∑ w, g a h w) (D : EReal) * Ideal.div (∑ a, ∑ h, ∑ w, g a h w) (D : EReal)) 0
      = Ideal.div (∑ a, ∑ h, ∑ w, (g a h w - Ideal.div (∑ a, ∑ h, ∑ w, g a h w) (D : EReal))
          * (g a h w - Ideal.div (∑ a, ∑ h, ∑ w, g a h w) (D : EReal))) (D : EReal) := by
  have h := var_two_pass (fun p : α × Fin 64 × Fin 64 => g p.1 p.2.1 p.2.2) (fun p => hg p.1 p.2.1 p.2.2) D hD hpos
  rw [← sum_prod3 (fun a h w => g a h w * g a h w), ← sum_prod3 (fun a h w => g a h w),
    ← sum_prod3 (fun a h w => (g a h w - Ideal.div (∑ a, ∑ h, ∑ w, g a h w) (D : EReal))
      * (g a h w - Ideal.div (∑ a, ∑ h, ∑ w, g a h w) (D : EReal)))] at h
  exact h.symm

/-! ### The first kernel's sums at `(n, c)` -/

variable (x : S32x256x64x64.Idx → EReal)

/-- The sums over the eight blocks of eight rows are the sums over the 64 rows. -/
theorem sumArr_apply (n : Fin 32) (c : Fin 256) :
    sumArr x (ix4 n c 0 0) = ∑ h : Fin 64, ∑ w : Fin 64, x (ix4 n c h w) := by
  unfold sumArr
  rw [zero_add]
  exact (sum_fin64_blocks (fun h => ∑ w : Fin 64, x (ix4 n c h w))).symm

/-- The sums of squares likewise. -/
theorem sqArr_apply (n : Fin 32) (c : Fin 256) :
    sqArr x (ix4 n c 0 0) = ∑ h : Fin 64, ∑ w : Fin 64, x (ix4 n c h w) * x (ix4 n c h w) := by
  unfold sqArr
  rw [zero_add]
  exact (sum_fin64_blocks (fun h => ∑ w : Fin 64, x (ix4 n c h w) * x (ix4 n c h w))).symm

/-- The zero every reference sum starts from is `0`. -/
theorem zero_eq : Cert.ReferenceIdeal.RefRead.zero = 0 := ofBits_zero

/-! ### The means -/

theorem perIn_sum (n : Fin 32) (c : Fin 256) : perIn (F := Ideal) (sumArr x) (ix2 n c) = μIn x n c := by
  rw [perIn_apply, sumArr_apply]
  unfold μIn
  rw [zero_eq, zero_add]

theorem perBn_sum (c : Fin 256) : perBn (F := Ideal) (sumArr x) (ix1 c) = μBn x c := by
  rw [perBn_apply]
  simp only [sumArr_apply]
  unfold μBn
  rw [zero_eq, ofBits_zero, zero_add]

theorem perLn_sum (n : Fin 32) : perLn (F := Ideal) (sumArr x) (ix1 n) = μLn x n := by
  rw [perLn_apply]
  simp only [sumArr_apply]
  unfold μLn
  rw [zero_eq, ofBits_zero, zero_add]

/-- (a) THE BLENDED MEAN: what the host stretch computes from the first kernel's sums is the reference's blended mean. -/
theorem mean_bridge (a3 : FVec Ideal S3 .f32) (n : Fin 32) (c : Fin 256) :
    meanCols (F := Ideal) (sumArr x) a3 (ix4 n c (0 : Fin 1) (0 : Fin 1)) = meanAt x a3 n c := by
  rw [meanCols_apply, perBn_sum, perIn_sum, perLn_sum]
  rfl

/-! ### The variances -/

/-- The three divisors of the reference's variances are the three counts. -/
theorem nIn_eq : nIn = ((4096 : ℝ) : EReal) := subf_sitofp_zero_4096
theorem nBn_eq : nBn = ((131072 : ℝ) : EReal) := subf_sitofp_zero_131072
theorem nLn_eq : nLn = ((1048576 : ℝ) : EReal) := subf_sitofp_zero_1048576

/-- Each divisor is above zero: the reference's guard answers the true bit. -/
theorem guardIn : FloatOps.cmpf (F := Ideal) (φ := .f32) .ogt nIn Cert.ReferenceIdeal.RefRead.zero = 1#1 := guard_4096
theorem guardBn : FloatOps.cmpf (F := Ideal) (φ := .f32) .ogt nBn Cert.ReferenceIdeal.RefRead.zero = 1#1 := guard_131072
theorem guardLn : FloatOps.cmpf (F := Ideal) (φ := .f32) .ogt nLn Cert.ReferenceIdeal.RefRead.zero = 1#1 := guard_1048576

variable (hx : ∀ i, ∃ r : ℝ, x i = (r : EReal))
include hx

theorem varIn_sum (n : Fin 32) (c : Fin 256) : varIn (F := Ideal) (sumArr x) (sqArr x) (ix2 n c) = σIn x n c := by
  rw [varIn_apply, perIn_apply, perIn_apply, sumArr_apply, sqArr_apply, ofBits_zero, ofBits_4096]
  unfold σIn
  rw [guardIn, select_true, nIn_eq]
  unfold μIn
  rw [zero_eq, zero_add, zero_add, ofBits_4096]
  exact var_nested2 (fun h w => x (ix4 n c h w)) (fun h w => hx _)

theorem varBn_sum (c : Fin 256) : varBn (F := Ideal) (sumArr x) (sqArr x) (ix1 c) = σBn x c := by
  rw [varBn_apply, perBn_apply, perBn_apply]
  simp only [sumArr_apply, sqArr_apply]
  rw [ofBits_zero, ofBits_131072, zero_add, zero_add]
  unfold σBn
  rw [guardBn, select_true, nBn_eq]
  unfold μBn
  rw [zero_eq, zero_add, zero_add, ofBits_131072]
  exact var_nested3 (fun k h w => x (ix4 k c h w)) (fun k h w => hx _) 131072 card_nhw (by norm_num)

theorem varLn_sum (n : Fin 32) : varLn (F := Ideal) (sumArr x) (sqArr x) (ix1 n) = σLn x n := by
  rw [varLn_apply, perLn_apply, perLn_apply]
  simp only [sumArr_apply, sqArr_apply]
  rw [ofBits_zero, ofBits_1048576, zero_add, zero_add]
  unfold σLn
  rw [guardLn, select_true, nLn_eq]
  unfold μLn
  rw [zero_eq, zero_add, zero_add, ofBits_1048576]
  exact var_nested3 (fun k h w => x (ix4 n k h w)) (fun k h w => hx _) 1048576 card_chw (by norm_num)

/-- (b) THE BLENDED VARIANCE PLUS THE CONSTANT: what the host stretch computes from the first kernel's sums and sums
    of squares is the reference's, when every element of the input is a real number. -/
theorem var_bridge (a4 : FVec Ideal S3 .f32) (n : Fin 32) (c : Fin 256) :
    varCols (F := Ideal) (sumArr x) (sqArr x) a4 (ix4 n c (0 : Fin 1) (0 : Fin 1)) = varAt x a4 n c := by
  rw [varCols_apply, varBn_sum x hx, varIn_sum x hx, varLn_sum x hx]
  rfl

omit hx in
/-- (c) The scale and the shift as the second kernel reads them: the vector at the channel. -/
theorem chan_bridge (g : FVec Ideal S256 .f32) (c : Fin 256) :
    chan (F := Ideal) g (ix4 (0 : Fin 1) c (0 : Fin 1) (0 : Fin 1)) = g (ix1 c) := chan_apply c g

end Cert.Bridge

end
-- ==== Proof.lean ====
/-
  The certificate of a switchable normalization: out = ((x - mean) / sqrt var) * weight + bias over x [32,256,64,64], where
  mean and var blend the per-channel, per-(sample, channel) and per-sample statistics with twice-softmaxed mixing weights.

  The kernel program computes the per-(n, c) sums of x and of x squared in a first launch (block by block along the rows,
  in two accumulators), derives every statistic from those two arrays on the host — each variance as E[x^2] - (E x)^2
  clipped at zero —, and normalizes in a second launch. The reference takes each mean directly and each variance in the
  two-pass form, the mean of (x - E x)^2. Over the extended reals the two agree wherever every entry of x is a real
  number, which the precondition grants: the sums only regroup; E[x^2] - (E x)^2 is the mean of (x - E x)^2 on reals and
  is nonnegative, so the clip is the identity; the mixing weights are one shared function of the same arguments.

  The three frames are the programs' runs with the results dropped (the word-level program's run is its idealization's,
  word for word: no step looks inside a float); nothing was rewritten by idealization, so that conjunct is trivial.
-/
import proofs.«175668_j16295105921565_2_alg».proof.Defs
import proofs.«175668_j16295105921565_2_alg».proof.Proof.Gen.Kernel
import proofs.«175668_j16295105921565_2_alg».proof.Proof.Gen.KernelIdeal
import proofs.«175668_j16295105921565_2_alg».proof.Proof.Gen.ReferenceIdeal
import proofs.«175668_j16295105921565_2_alg».proof.Proof.Gen.Pre_finite_inputs
import proofs.«175668_j16295105921565_2_alg».proof.Proof.WordRun
import proofs.«175668_j16295105921565_2_alg».proof.Proof.KernelRun
import proofs.«175668_j16295105921565_2_alg».proof.Proof.KernelValue
import proofs.«175668_j16295105921565_2_alg».proof.Proof.RefRun
import proofs.«175668_j16295105921565_2_alg».proof.Proof.RefRead
import proofs.«175668_j16295105921565_2_alg».proof.Proof.FiniteInputs
import proofs.«175668_j16295105921565_2_alg».proof.Proof.Bridge
import Idealize.ShloMosaic.Adequacy
import Idealize.ShloMosaic.Init

noncomputable section

namespace Cert.Proof

open Idealize.ShloMosaic Idealize.SL.Sem Idealize.ShloMosaic.ValueIdx

theorem frame_word : Cert.frame_Kernel := fun m ρ _ => Cert.Kernel.Run.frame (F := Bits) m ρ

theorem frame_ideal : Cert.frame_KernelIdeal := fun m ρ _ => Cert.KernelIdeal.Run.frame (F := Ideal) m ρ

theorem frame_reference : Cert.frame_ReferenceIdeal := Cert.ReferenceIdeal.RefRun.frame

theorem preserves : Cert.preserves_Kernel_KernelIdeal := trivial

/-- Under the precondition the reference's result term of the kernel's arguments is the kernel's result array. -/
theorem result_agree (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.RefRun.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      = Cert.KernelIdeal.Run.W5 m ρ c (Proc.devRef .tc Cert.KernelIdeal.main_v113) := by
  rw [Cert.KernelIdeal.Whole.result_eq]
  funext i
  obtain ⟨n, ch, h, w, rfl⟩ : ∃ (n : Fin 32) (ch : Fin 256) (h w : Fin 64), i = ix4 n ch h w := ⟨i 0, i 1, i 2, i 3, eq_ix4 i⟩
  rw [Cert.ReferenceIdeal.RefRead.out_apply]
  unfold Cert.KernelIdeal.Norm.G
  rw [show Cert.KernelIdeal.Norm.colOf (ix4 n ch h w) = ix4 n ch (0 : Fin 1) (0 : Fin 1) from rfl,
    show Cert.KernelIdeal.Norm.chanOf (ix4 n ch h w) = ix4 (0 : Fin 1) ch (0 : Fin 1) (0 : Fin 1) from rfl]
  rw [Cert.Bridge.mean_bridge _ _ n ch, Cert.Bridge.var_bridge _ (Cert.FiniteInputs.x_real m hpre c) _ n ch, Cert.Bridge.chan_bridge, Cert.Bridge.chan_bridge]
  rfl

theorem algebraic : Cert.algebraic_KernelIdeal_ReferenceIdeal := by
  intro m ρ m' ρ' hpre hagree
  refine ⟨fun c => Cert.KernelIdeal.Run.W5 m ρ c (Proc.devRef .tc Cert.KernelIdeal.main_v113), ?_, ?_⟩
  · exact (θ_run Cert.KernelIdeal.defs _ _).mono (fun r h c =>
      ⟨h c _ (Cert.KernelIdeal.Run.mem_uc Cert.KernelIdeal.main_v113 (by decide)),
       (h c _ (Cert.KernelIdeal.Run.mem_uc Cert.KernelIdeal.main_arg0 (by decide))).trans (Cert.KernelIdeal.Run.W5_main_arg0 m ρ c),
       (h c _ (Cert.KernelIdeal.Run.mem_uc Cert.KernelIdeal.main_arg1 (by decide))).trans (Cert.KernelIdeal.Run.W5_main_arg1 m ρ c),
       (h c _ (Cert.KernelIdeal.Run.mem_uc Cert.KernelIdeal.main_arg2 (by decide))).trans (Cert.KernelIdeal.Run.W5_main_arg2 m ρ c),
       (h c _ (Cert.KernelIdeal.Run.mem_uc Cert.KernelIdeal.main_arg3 (by decide))).trans (Cert.KernelIdeal.Run.W5_main_arg3 m ρ c),
       (h c _ (Cert.KernelIdeal.Run.mem_uc Cert.KernelIdeal.main_arg4 (by decide))).trans (Cert.KernelIdeal.Run.W5_main_arg4 m ρ c)⟩)
      (Cert.KernelIdeal.Run.run (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2]
    exact result_agree m ρ hpre c

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
